-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S800000 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : IVec S800000 32) (main_arg9 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S1x64 : Shape := ⟨2, ![1, 64]⟩
abbrev S5000x1 : Shape := ⟨2, ![5000, 1]⟩
abbrev S5000 : Shape := ⟨1, ![5000]⟩

abbrev nBuf : Space → Nat
  | .hbm => 89
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x1, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S800000x1, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x64, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S800000x1, .f32⟩
  | .hbm, ⟨81, _⟩ => ⟨S800000x64, .f32⟩
  | .hbm, ⟨82, _⟩ => ⟨S800000x64, .f32⟩
  | .hbm, ⟨83, _⟩ => ⟨S_, .f32⟩
  | .hbm, ⟨84, _⟩ => ⟨S50000x64, .f32⟩
  | .hbm, ⟨85, _⟩ => ⟨S800000x1, .i32⟩
  | .hbm, ⟨86, _⟩ => ⟨S50000x64, .f32⟩
  | .hbm, ⟨87, _⟩ => ⟨S1x64, .f32⟩
  | .hbm, ⟨88, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x1, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S800000x1, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S800000x1, .f32⟩
  | .hbm, ⟨98, _⟩ => ⟨S800000x128, .f32⟩
  | .hbm, ⟨99, _⟩ => ⟨S800000x128, .f32⟩
  | .hbm, ⟨100, _⟩ => ⟨S_, .f32⟩
  | .hbm, ⟨101, _⟩ => ⟨S50000x128, .f32⟩
  | .hbm, ⟨102, _⟩ => ⟨S800000x1, .i32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S50000, .f32⟩
  | .hbm, ⟨114, _⟩ => ⟨S50000, .f32⟩
  | .hbm, ⟨115, _⟩ => ⟨S50000x1, .f32⟩
  | .hbm, ⟨116, _⟩ => ⟨S50000x64, .f32⟩
  | .hbm, ⟨117, _⟩ => ⟨S50000x64, .f32⟩
  | .hbm, ⟨118, _⟩ => ⟨S50000x64, .f32⟩
  | .hbm, ⟨119, _⟩ => ⟨S_, .f32⟩
  | .hbm, ⟨120, _⟩ => ⟨S50000, .f32⟩
  | .hbm, ⟨121, _⟩ => ⟨S50000x1, .f32⟩
  | .hbm, ⟨122, _⟩ => ⟨S50000x1, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call2_cst : Ref sig .tc := ⟨.hbm, 56, rfl⟩
abbrev main_call2_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call3_cst : Ref sig .tc := ⟨.hbm, 83, rfl⟩
abbrev main_call3_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_9 : Ref sig .tc := ⟨.hbm, 88, rfl⟩
abbrev main_v59 : Ref sig .tc := ⟨.hbm, 89, rfl⟩
abbrev main_v60 : Ref sig .tc := ⟨.hbm, 90, rfl⟩
abbrev main_c_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call4_cst : Ref sig .tc := ⟨.hbm, 110, rfl⟩
abbrev main_call4_v0 : Ref sig .tc := ⟨.hbm, 111, rfl⟩
abbrev main_call4_cst_0 : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_v6 : Ref sig .tc := ⟨.hbm, 118, rfl⟩
abbrev main_call4_cst_1 : Ref sig .tc := ⟨.hbm, 119, rfl⟩
abbrev main_call4_v7 : Ref sig .tc := ⟨.hbm, 120, rfl⟩
abbrev main_call4_v8 : Ref sig .tc := ⟨.hbm, 121, rfl⟩
abbrev main_call4_v9 : Ref sig .tc := ⟨.hbm, 122, rfl⟩
abbrev main_call4_v10 : Ref sig .tc := ⟨.hbm, 123, rfl⟩
abbrev main_v78 : Ref sig .tc := ⟨.hbm, 124, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result named.

  The program is eleven segments: five stretches of host operations, the first layer's dense step, one stretch, the
  second layer's dense step, the projection, one stretch, the final normalisation. Every weakly fair execution
  terminates without a fault; at the end each unscoped buffer of a core holds what the last segment boundary gives it
  (the fold W11 of the generated frame module), so the result buffer holds W11 at its reference and every argument
  array is as launched.
-/
import proofs.«169994_j32255204393049_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v60) = W11 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v60 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.RunValue

end
-- ==== Proof.Spec.lean ====
/-
  The three dense steps of the network, each as one function of whole arrays, index by index, over the extended reals.

  Rows are nodes. For an aggregated feature array agg [n, 128], the two per-node scale columns nd, ns [n, 1] (inverse
  square roots of the clipped in- and out-degrees), a weight matrix W and a bias row b:

  * denseStep: entry (p, q) is  max( Σ_k (agg(p,k)·nd(p)) · W(k,q) + b(q), 0 ) · ns(p)  — a layer's linear map on the
    destination-normalised aggregate, its bias, the rectifier, and the source normalisation the next aggregation needs;
  * project: entry (p, q) is  Σ_k h(p,k) · W(k,q)  — the last layer's weight applied before its aggregation;
  * logSoftmaxRow: for a row y, entry j is  (y_j − M) − log Σ_k exp(y_k − M)  with M the row's largest entry;
  * finalStep: entry (p, q) is the log-softmax of the row  j ↦ agg(p,j)·nd(p) + b(j)  at q.

  Every definition is generic in the number of rows, so the same term describes one block of rows and the whole array;
  a block of rows of the whole array's step is the step of the blocks of rows (the *_rows lemmas).

  Also here: three readings of layout changes at an index (a column [a,1] or a row [1,b] spread over [a,b]; a vector
  [a] recast as a column [a,1]).
-/
import Idealize.ShloMosaic.PureOps.Ideal.Laws
import Idealize.ShloMosaic.Lib.Pipeline.Value
import Idealize.ShloMosaic.Lib.ValueIdx

noncomputable section

open scoped BigOperators

namespace Cert.Spec

open Idealize.ShloMosaic Idealize.ShloMosaic.ValueIdx

/-- The f32 word of zero, as the extended real the ideal instance reads it as. -/
abbrev zeroWord : EReal := Ideal.ofBits .f32 0x00000000#32

/-- A layer's dense step on whole arrays (or on a block of rows). -/
def denseStep {n C : ℕ} (agg : (⟨2, ![n, 128]⟩ : Shape).Idx → EReal) (nd ns : (⟨2, ![n, 1]⟩ : Shape).Idx → EReal)
    (W : (⟨2, ![128, C]⟩ : Shape).Idx → EReal) (b : (⟨2, ![1, C]⟩ : Shape).Idx → EReal) :
    (⟨2, ![n, C]⟩ : Shape).Idx → EReal :=
  fun i => max ((∑ k : Fin 128, (agg (ix2 (i 0) k) * nd (ix2 (i 0) 0)) * W (ix2 k (i 1))) + b (ix2 0 (i 1))) zeroWord
    * ns (ix2 (i 0) 0)

/-- The last layer's weight applied row by row. -/
def project {n C : ℕ} (h : (⟨2, ![n, 128]⟩ : Shape).Idx → EReal) (W : (⟨2, ![128, C]⟩ : Shape).Idx → EReal) :
    (⟨2, ![n, C]⟩ : Shape).Idx → EReal :=
  fun i => ∑ k : Fin 128, h (ix2 (i 0) k) * W (ix2 k (i 1))

/-- The log-softmax of one row. -/
def logSoftmaxRow {C : ℕ} (y : Fin C → EReal) (j : Fin C) : EReal :=
  (y j - Finset.univ.sup y) - Ideal.log (∑ k : Fin C, Ideal.exp (y k - Finset.univ.sup y))

/-- The row the final step normalises: the destination-normalised aggregate plus the bias. -/
def finalRow {n C : ℕ} (agg : (⟨2, ![n, C]⟩ : Shape).Idx → EReal) (nd : (⟨2, ![n, 1]⟩ : Shape).Idx → EReal)
    (b : (⟨2, ![1, C]⟩ : Shape).Idx → EReal) (p : Fin n) : Fin C → EReal :=
  fun j => agg (ix2 p j) * nd (ix2 p 0) + b (ix2 0 j)

/-- The final step on whole arrays (or on a block of rows). -/
def finalStep {n C : ℕ} (agg : (⟨2, ![n, C]⟩ : Shape).Idx → EReal) (nd : (⟨2, ![n, 1]⟩ : Shape).Idx → EReal)
    (b : (⟨2, ![1, C]⟩ : Shape).Idx → EReal) : (⟨2, ![n, C]⟩ : Shape).Idx → EReal :=
  fun i => logSoftmaxRow (finalRow agg nd b (i 0)) (i 1)

/-! ## The steps at an entry -/

theorem denseStep_apply {n C : ℕ} (agg : (⟨2, ![n, 128]⟩ : Shape).Idx → EReal) (nd ns : (⟨2, ![n, 1]⟩ : Shape).Idx → EReal)
    (W : (⟨2, ![128, C]⟩ : Shape).Idx → EReal) (b : (⟨2, ![1, C]⟩ : Shape).Idx → EReal) (p : Fin n) (q : Fin C) :
    denseStep agg nd ns W b (ix2 p q)
      = max ((∑ k : Fin 128, (agg (ix2 p k) * nd (ix2 p 0)) * W (ix2 k q)) + b (ix2 0 q)) zeroWord * ns (ix2 p 0) := rfl

theorem project_apply {n C : ℕ} (h : (⟨2, ![n, 128]⟩ : Shape).Idx → EReal) (W : (⟨2, ![128, C]⟩ : Shape).Idx → EReal)
    (p : Fin n) (q : Fin C) : project h W (ix2 p q) = ∑ k : Fin 128, h (ix2 p k) * W (ix2 k q) := rfl

theorem finalStep_apply {n C : ℕ} (agg : (⟨2, ![n, C]⟩ : Shape).Idx → EReal) (nd : (⟨2, ![n, 1]⟩ : Shape).Idx → EReal)
    (b : (⟨2, ![1, C]⟩ : Shape).Idx → EReal) (p : Fin n) (q : Fin C) :
    finalStep agg nd b (ix2 p q) = logSoftmaxRow (finalRow agg nd b p) q := rfl

/-! ## A block of rows of a step is the step of the blocks of rows -/

/-- Rows read through a row map r : Fin B → Fin n. -/
theorem denseStep_rows {n B C : ℕ} (agg : (⟨2, ![n, 128]⟩ : Shape).Idx → EReal) (nd ns : (⟨2, ![n, 1]⟩ : Shape).Idx → EReal)
    (W : (⟨2, ![128, C]⟩ : Shape).Idx → EReal) (b : (⟨2, ![1, C]⟩ : Shape).Idx → EReal)
    (x0 : (⟨2, ![B, 128]⟩ : Shape).Idx → EReal) (x1 x2 : (⟨2, ![B, 1]⟩ : Shape).Idx → EReal) (r : Fin B → Fin n)
    (h0 : ∀ p k, x0 (ix2 p k) = agg (ix2 (r p) k)) (h1 : ∀ p, x1 (ix2 p 0) = nd (ix2 (r p) 0))
    (h2 : ∀ p, x2 (ix2 p 0) = ns (ix2 (r p) 0)) (p : Fin B) (q : Fin C) :
    denseStep x0 x1 x2 W b (ix2 p q) = denseStep agg nd ns W b (ix2 (r p) q) := by
  rw [denseStep_apply, denseStep_apply, h1, h2]
  simp only [h0]

theorem project_rows {n B C : ℕ} (h : (⟨2, ![n, 128]⟩ : Shape).Idx → EReal) (W : (⟨2, ![128, C]⟩ : Shape).Idx → EReal)
    (x0 : (⟨2, ![B, 128]⟩ : Shape).Idx → EReal) (r : Fin B → Fin n)
    (h0 : ∀ p k, x0 (ix2 p k) = h (ix2 (r p) k)) (p : Fin B) (q : Fin C) :
    project x0 W (ix2 p q) = project h W (ix2 (r p) q) := by
  rw [project_apply, project_apply]
  simp only [h0]

theorem finalStep_rows {n B C : ℕ} (agg : (⟨2, ![n, C]⟩ : Shape).Idx → EReal) (nd : (⟨2, ![n, 1]⟩ : Shape).Idx → EReal)
    (b : (⟨2, ![1, C]⟩ : Shape).Idx → EReal)
    (x0 : (⟨2, ![B, C]⟩ : Shape).Idx → EReal) (x1 : (⟨2, ![B, 1]⟩ : Shape).Idx → EReal) (r : Fin B → Fin n)
    (h0 : ∀ p k, x0 (ix2 p k) = agg (ix2 (r p) k)) (h1 : ∀ p, x1 (ix2 p 0) = nd (ix2 (r p) 0)) (p : Fin B) (q : Fin C) :
    finalStep x0 x1 b (ix2 p q) = finalStep agg nd b (ix2 (r p) q) := by
  rw [finalStep_apply, finalStep_apply]
  have e : finalRow x0 x1 b p = finalRow agg nd b (r p) := by
    funext j; unfold finalRow; rw [h0, h1]
  rw [e]

/-! ## Layout changes read at an index -/

/-- A column [a, 1] spread along the second axis of [a, b]: entry (p, q) is the column's entry p. -/
theorem broadcastTo_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p 0) := by
  refine broadcastTo_apply v h (ix2 p q) (ix2 p 0) fun d => ?_
  match d with
  | ⟨0, _⟩ =>
    show p.val = if a = 1 then 0 else p.val
    split
    · rename_i ha; have := p.isLt; omega
    · rfl
  | ⟨1, _⟩ =>
    show (0 : ℕ) = if (1 : ℕ) = 1 then 0 else q.val
    rw [if_pos rfl]

/-- A row [1, b] spread along the first axis of [a, b]: entry (p, q) is the row's entry q. -/
theorem broadcastTo_row {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 0 q) := by
  refine broadcastTo_apply v h (ix2 p q) (ix2 0 q) fun d => ?_
  match d with
  | ⟨0, _⟩ =>
    show (0 : ℕ) = if (1 : ℕ) = 1 then 0 else p.val
    rw [if_pos rfl]
  | ⟨1, _⟩ =>
    show q.val = if b = 1 then 0 else q.val
    split
    · rename_i hb; have := q.isLt; omega
    · rfl

/-- A vector [a] recast as a column [a, 1]: entry (p, 0) is the vector's entry p. -/
theorem shapeCast_col {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p 0) = v (ix1 p) := by
  refine shapeCast_apply v h (ix2 p 0) (ix1 p) ?_
  simp [Shape.rowMajor_val_two, Shape.rowMajor_val_one]
  rfl

end Cert.Spec

end
-- ==== Proof.LibGatherScatterRows.lean ====
/-
  Gathering rows of an array by a list of signed row numbers, and scatter-adding rows into an array at a list of signed
  row numbers, read at an index. The list has shape [E, 1]: one 32-bit word per entry.

  * clampRow N b      — the row a gather reads for the word b: b as a signed integer, clamped into [0, N - 1];
  * landRow N b       — the row a scatter update lands in: b as a signed integer when it lies in [0, N), nothing otherwise
                        (the update is dropped);
  * gatherRows1 / gatherRows2 / gatherRowsMid — a gather of entries of an [N] array, of rows of an [N, C] array along its
                        first axis, and of rows of a [T, N, C] array along its middle axis, at an index;
  * scatterAddRows2 / scatterAddRowsMid — the accumulating scatter into an [N, C] array along its first axis and into a
                        [T, N, C] array along its middle axis, at the ideal (extended real) values: the operand's entry
                        plus the sum, over the list entries e whose word lands in that row, of the update's entry.
-/
import Idealize.ShloMosaic.PureOps.Ideal.Laws
import Idealize.ShloMosaic.Lib.Pipeline.Value
import Idealize.ShloMosaic.Lib.ValueIdx

noncomputable section

open scoped BigOperators

namespace Cert.LibGatherScatterRows

open Idealize.ShloMosaic Idealize.ShloMosaic.ValueIdx

/-- The row a gather reads for the word `b`: `b` as a signed integer clamped into `[0, N - 1]`. -/
def clampRow (N : ℕ) [NeZero N] (b : BitVec 32) : Fin N :=
  ⟨min b.toInt.toNat (N - 1), by have := NeZero.pos N; omega⟩

/-- The row a scatter update lands in: `b` as a signed integer when it lies in `[0, N)`; otherwise the update is dropped. -/
def landRow (N : ℕ) (b : BitVec 32) : Option (Fin N) :=
  if h : 0 ≤ b.toInt ∧ b.toInt < N then some ⟨b.toInt.toNat, by omega⟩ else none

/-- A word lands in row `n` exactly when, as a signed integer, it is `n`. -/
theorem landRow_eq_some_iff {N : ℕ} {b : BitVec 32} {n : Fin N} : landRow N b = some n ↔ b.toInt = (n.val : Int) := by
  unfold landRow
  split
  · rename_i h
    rw [Option.some.injEq, Fin.ext_iff]
    simp only
    omega
  · rename_i h
    constructor
    · intro h'; cases h'
    · intro h'; exfalso; apply h; have := n.isLt; omega

/-- A word that lands in a row is read, clamped, as that same row. -/
theorem clampRow_of_landRow {N : ℕ} [NeZero N] {b : BitVec 32} {n : Fin N} (h : landRow N b = some n) : clampRow N b = n := by
  have hb : b.toInt = (n.val : Int) := landRow_eq_some_iff.mp h
  refine Fin.ext ?_
  show min b.toInt.toNat (N - 1) = n.val
  have := n.isLt
  omega

/-- A word inside `[0, N)` lands in the row it is clamped to. -/
theorem landRow_of_mem {N : ℕ} [NeZero N] {b : BitVec 32} (h0 : 0 ≤ b.toInt) (h1 : b.toInt < N) : landRow N b = some (clampRow N b) := by
  rw [landRow_eq_some_iff]
  show b.toInt = ((min b.toInt.toNat (N - 1) : ℕ) : Int)
  omega

/-- Entries of an `[N]` array gathered at `[E, 1]` row numbers: entry `e` is the array at the clamped row. -/
theorem gatherRows1 {α : Type} {N E : ℕ} [NeZero N] (D : GatherDims ⟨1, ![N]⟩ ⟨2, ![E, 1]⟩ ⟨1, ![E]⟩)
    (ho : D.offsetDims = []) (hc : D.collapsedSliceDims = [0]) (hob : D.operandBatchingDims = [])
    (hm : D.startIndexMap = [0]) (hv : D.indexVectorDim = 1)
    (x : (⟨1, ![N]⟩ : Shape).Idx → α) (idx : IVec ⟨2, ![E, 1]⟩ 32) (e : Fin E) :
    Host.gather D x idx (ix1 e) = x (ix1 (clampRow N (idx (ix2 e 0)))) := by
  obtain ⟨od, cd, ob, sb, sm, iv, ss, wf⟩ := D
  simp only at ho hc hob hm hv
  subst ho hc hob hm hv
  unfold Host.gather
  refine congrArg x ?_
  funext a
  refine Fin.ext ?_
  match a with
  | ⟨0, _⟩ =>
    show (GatherDims.mk [] [0] [] sb [0] 1 ss wf : GatherDims ⟨1, ![N]⟩ ⟨2, ![E, 1]⟩ ⟨1, ![E]⟩).start (ix1 e) idx 0
      + (GatherDims.mk [] [0] [] sb [0] 1 ss wf : GatherDims ⟨1, ![N]⟩ ⟨2, ![E, 1]⟩ ⟨1, ![E]⟩).batchCoord (ix1 e) 0
      + (GatherDims.mk [] [0] [] sb [0] 1 ss wf : GatherDims ⟨1, ![N]⟩ ⟨2, ![E, 1]⟩ ⟨1, ![E]⟩).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    have hss : ss 0 = 1 := (GatherDims.mk [] [0] [] sb [0] 1 ss wf : GatherDims ⟨1, ![N]⟩ ⟨2, ![E, 1]⟩ ⟨1, ![E]⟩).slice_collapsed 0 (List.mem_singleton.mpr rfl)
    unfold GatherDims.start
    split
    · rename_i h
      have hsi : (GatherDims.mk [] [0] [] sb [0] 1 ss wf : GatherDims ⟨1, ![N]⟩ ⟨2, ![E, 1]⟩ ⟨1, ![E]⟩).siIdx (ix1 e)
          ⟨List.idxOf (0 : Fin 1) [(0 : Fin 1)], List.idxOf_lt_length_iff.2 h⟩ = ix2 e 0 := by
        funext b; refine Fin.ext ?_
        match b with
        | ⟨0, _⟩ => rfl
        | ⟨1, _⟩ => rfl
      show min (idx ((GatherDims.mk [] [0] [] sb [0] 1 ss wf : GatherDims ⟨1, ![N]⟩ ⟨2, ![E, 1]⟩ ⟨1, ![E]⟩).siIdx (ix1 e)
          ⟨List.idxOf (0 : Fin 1) [(0 : Fin 1)], List.idxOf_lt_length_iff.2 h⟩)).toInt.toNat (N - ss 0) + 0 + 0
        = min (idx (ix2 e 0)).toInt.toNat (N - 1)
      rw [hsi, hss, Nat.add_zero]
    · rename_i h; exact absurd (show (0 : Fin 1) ∈ [(0 : Fin 1)] from by decide) h

/-- Rows of an `[N, C]` array gathered along its first axis. -/
theorem gatherRows2 {α : Type} {N C E : ℕ} [NeZero N] (D : GatherDims ⟨2, ![N, C]⟩ ⟨2, ![E, 1]⟩ ⟨2, ![E, C]⟩)
    (ho : D.offsetDims = [1]) (hc : D.collapsedSliceDims = [0]) (hob : D.operandBatchingDims = [])
    (hm : D.startIndexMap = [0]) (hv : D.indexVectorDim = 1)
    (x : (⟨2, ![N, C]⟩ : Shape).Idx → α) (idx : IVec ⟨2, ![E, 1]⟩ 32) (e : Fin E) (c : Fin C) :
    Host.gather D x idx (ix2 e c) = x (ix2 (clampRow N (idx (ix2 e 0))) c) := by
  obtain ⟨od, cd, ob, sb, sm, iv, ss, wf⟩ := D
  simp only at ho hc hob hm hv
  subst ho hc hob hm hv
  unfold Host.gather
  refine congrArg x ?_
  funext a
  refine Fin.ext ?_
  match a with
  | ⟨0, _⟩ =>
    show (GatherDims.mk [1] [0] [] sb [0] 1 ss wf : GatherDims ⟨2, ![N, C]⟩ ⟨2, ![E, 1]⟩ ⟨2, ![E, C]⟩).start (ix2 e c) idx 0
      + (GatherDims.mk [1] [0] [] sb [0] 1 ss wf : GatherDims ⟨2, ![N, C]⟩ ⟨2, ![E, 1]⟩ ⟨2, ![E, C]⟩).batchCoord (ix2 e c) 0
      + (GatherDims.mk [1] [0] [] sb [0] 1 ss wf : GatherDims ⟨2, ![N, C]⟩ ⟨2, ![E, 1]⟩ ⟨2, ![E, C]⟩).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    have hss : ss 0 = 1 :=
      (GatherDims.mk [1] [0] [] sb [0] 1 ss wf : GatherDims ⟨2, ![N, C]⟩ ⟨2, ![E, 1]⟩ ⟨2, ![E, C]⟩).slice_collapsed 0
        (List.mem_singleton.mpr rfl)
    unfold GatherDims.start
    split
    · rename_i h
      have hsi : (GatherDims.mk [1] [0] [] sb [0] 1 ss wf : GatherDims ⟨2, ![N, C]⟩ ⟨2, ![E, 1]⟩ ⟨2, ![E, C]⟩).siIdx (ix2 e c)
          ⟨List.idxOf (0 : Fin 2) [(0 : Fin 2)], List.idxOf_lt_length_iff.2 h⟩ = ix2 e 0 := by
        funext b; refine Fin.ext ?_
        match b with
        | ⟨0, _⟩ => rfl
        | ⟨1, _⟩ => rfl
      show min (idx ((GatherDims.mk [1] [0] [] sb [0] 1 ss wf : GatherDims ⟨2, ![N, C]⟩ ⟨2, ![E, 1]⟩ ⟨2, ![E, C]⟩).siIdx (ix2 e c)
          ⟨List.idxOf (0 : Fin 2) [(0 : Fin 2)], List.idxOf_lt_length_iff.2 h⟩)).toInt.toNat (N - ss 0) + 0 + 0
        = min (idx (ix2 e 0)).toInt.toNat (N - 1)
      rw [hsi, hss, Nat.add_zero]
    · rename_i h; exact absurd (show (0 : Fin 2) ∈ [(0 : Fin 2)] from by decide) h
  | ⟨1, _⟩ =>
    show (GatherDims.mk [1] [0] [] sb [0] 1 ss wf : GatherDims ⟨2, ![N, C]⟩ ⟨2, ![E, 1]⟩ ⟨2, ![E, C]⟩).start (ix2 e c) idx 1
      + (GatherDims.mk [1] [0] [] sb [0] 1 ss wf : GatherDims ⟨2, ![N, C]⟩ ⟨2, ![E, 1]⟩ ⟨2, ![E, C]⟩).batchCoord (ix2 e c) 1
      + (GatherDims.mk [1] [0] [] sb [0] 1 ss wf : GatherDims ⟨2, ![N, C]⟩ ⟨2, ![E, 1]⟩ ⟨2, ![E, C]⟩).offCoord (ix2 e c) 1 = c.val
    rw [GatherDims.batchCoord_eq_zero _ _ _ List.not_mem_nil]
    have h1 : (GatherDims.mk [1] [0] [] sb [0] 1 ss wf : GatherDims ⟨2, ![N, C]⟩ ⟨2, ![E, 1]⟩ ⟨2, ![E, C]⟩).start (ix2 e c) idx 1 = 0 := by
      unfold GatherDims.start
      split
      · rename_i h; exact absurd h (show (1 : Fin 2) ∉ [(0 : Fin 2)] from by decide)
      · rfl
    have h2 : (GatherDims.mk [1] [0] [] sb [0] 1 ss wf : GatherDims ⟨2, ![N, C]⟩ ⟨2, ![E, 1]⟩ ⟨2, ![E, C]⟩).offCoord (ix2 e c) 1 = c.val := by
      unfold GatherDims.offCoord
      split
      · rfl
      · rename_i h; exact absurd (show (1 : Fin 2) ∈ (List.finRange 2).filter (· ∉ [(0 : Fin 2)] ++ []) from by decide) h
    rw [h1, h2, Nat.zero_add]

/-- Rows of a `[T, N, C]` array gathered along its middle axis. -/
theorem gatherRowsMid {α : Type} {T N C E : ℕ} [NeZero N] (D : GatherDims ⟨3, ![T, N, C]⟩ ⟨2, ![E, 1]⟩ ⟨3, ![T, E, C]⟩)
    (ho : D.offsetDims = [0, 2]) (hc : D.collapsedSliceDims = [1]) (hob : D.operandBatchingDims = [])
    (hm : D.startIndexMap = [1]) (hv : D.indexVectorDim = 1)
    (x : (⟨3, ![T, N, C]⟩ : Shape).Idx → α) (idx : IVec ⟨2, ![E, 1]⟩ 32) (t : Fin T) (e : Fin E) (c : Fin C) :
    Host.gather D x idx (ix3 t e c) = x (ix3 t (clampRow N (idx (ix2 e 0))) c) := by
  obtain ⟨od, cd, ob, sb, sm, iv, ss, wf⟩ := D
  simp only at ho hc hob hm hv
  subst ho hc hob hm hv
  unfold Host.gather
  refine congrArg x ?_
  funext a
  refine Fin.ext ?_
  match a with
  | ⟨0, _⟩ =>
    show (GatherDims.mk [0, 2] [1] [] sb [1] 1 ss wf : GatherDims ⟨3, ![T, N, C]⟩ ⟨2, ![E, 1]⟩ ⟨3, ![T, E, C]⟩).start (ix3 t e c) idx 0
      + (GatherDims.mk [0, 2] [1] [] sb [1] 1 ss wf : GatherDims ⟨3, ![T, N, C]⟩ ⟨2, ![E, 1]⟩ ⟨3, ![T, E, C]⟩).batchCoord (ix3 t e c) 0
      + (GatherDims.mk [0, 2] [1] [] sb [1] 1 ss wf : GatherDims ⟨3, ![T, N, C]⟩ ⟨2, ![E, 1]⟩ ⟨3, ![T, E, C]⟩).offCoord (ix3 t e c) 0 = t.val
    rw [GatherDims.batchCoord_eq_zero _ _ _ List.not_mem_nil]
    have h1 : (GatherDims.mk [0, 2] [1] [] sb [1] 1 ss wf : GatherDims ⟨3, ![T, N, C]⟩ ⟨2, ![E, 1]⟩ ⟨3, ![T, E, C]⟩).start (ix3 t e c) idx 0 = 0 := by
      unfold GatherDims.start
      split
      · rename_i h; exact absurd h (show (0 : Fin 3) ∉ [(1 : Fin 3)] from by decide)
      · rfl
    have h2 : (GatherDims.mk [0, 2] [1] [] sb [1] 1 ss wf : GatherDims ⟨3, ![T, N, C]⟩ ⟨2, ![E, 1]⟩ ⟨3, ![T, E, C]⟩).offCoord (ix3 t e c) 0 = t.val := by
      unfold GatherDims.offCoord
      split
      · rfl
      · rename_i h; exact absurd (show (0 : Fin 3) ∈ (List.finRange 3).filter (· ∉ [(1 : Fin 3)] ++ []) from by decide) h
    rw [h1, h2, Nat.zero_add]
  | ⟨1, _⟩ =>
    show (GatherDims.mk [0, 2] [1] [] sb [1] 1 ss wf : GatherDims ⟨3, ![T, N, C]⟩ ⟨2, ![E, 1]⟩ ⟨3, ![T, E, C]⟩).start (ix3 t e c) idx 1
      + (GatherDims.mk [0, 2] [1] [] sb [1] 1 ss wf : GatherDims ⟨3, ![T, N, C]⟩ ⟨2, ![E, 1]⟩ ⟨3, ![T, E, C]⟩).batchCoord (ix3 t e c) 1
      + (GatherDims.mk [0, 2] [1] [] sb [1] 1 ss wf : GatherDims ⟨3, ![T, N, C]⟩ ⟨2, ![E, 1]⟩ ⟨3, ![T, E, C]⟩).offCoord (ix3 t e c) 1 = _
    rw [GatherDims.batchCoord_eq_zero _ _ _ List.not_mem_nil,
      GatherDims.offCoord_eq_zero _ _ _ (fun h => ((GatherDims.mem_sKept _ _).mp h).1 (List.mem_singleton.mpr rfl))]
    have hss : ss 1 = 1 := (GatherDims.mk [0, 2] [1] [] sb [1] 1 ss wf : GatherDims ⟨3, ![T, N, C]⟩ ⟨2, ![E, 1]⟩ ⟨3, ![T, E, C]⟩).slice_collapsed 1 (List.mem_singleton.mpr rfl)
    unfold GatherDims.start
    split
    · rename_i h
      have hsi : (GatherDims.mk [0, 2] [1] [] sb [1] 1 ss wf : GatherDims ⟨3, ![T, N, C]⟩ ⟨2, ![E, 1]⟩ ⟨3, ![T, E, C]⟩).siIdx (ix3 t e c)
          ⟨List.idxOf (1 : Fin 3) [(1 : Fin 3)], List.idxOf_lt_length_iff.2 h⟩ = ix2 e 0 := by
        funext b; refine Fin.ext ?_
        match b with
        | ⟨0, _⟩ => rfl
        | ⟨1, _⟩ => rfl
      show min (idx ((GatherDims.mk [0, 2] [1] [] sb [1] 1 ss wf : GatherDims ⟨3, ![T, N, C]⟩ ⟨2, ![E, 1]⟩ ⟨3, ![T, E, C]⟩).siIdx (ix3 t e c)
          ⟨List.idxOf (1 : Fin 3) [(1 : Fin 3)], List.idxOf_lt_length_iff.2 h⟩)).toInt.toNat (N - ss 1) + 0 + 0
        = min (idx (ix2 e 0)).toInt.toNat (N - 1)
      rw [hsi, hss, Nat.add_zero]
    · rename_i h; exact absurd (show (1 : Fin 3) ∈ [(1 : Fin 3)] from by decide) h
  | ⟨2, _⟩ =>
    show (GatherDims.mk [0, 2] [1] [] sb [1] 1 ss wf : GatherDims ⟨3, ![T, N, C]⟩ ⟨2, ![E, 1]⟩ ⟨3, ![T, E, C]⟩).start (ix3 t e c) idx 2
      + (GatherDims.mk [0, 2] [1] [] sb [1] 1 ss wf : GatherDims ⟨3, ![T, N, C]⟩ ⟨2, ![E, 1]⟩ ⟨3, ![T, E, C]⟩).batchCoord (ix3 t e c) 2
      + (GatherDims.mk [0, 2] [1] [] sb [1] 1 ss wf : GatherDims ⟨3, ![T, N, C]⟩ ⟨2, ![E, 1]⟩ ⟨3, ![T, E, C]⟩).offCoord (ix3 t e c) 2 = c.val
    rw [GatherDims.batchCoord_eq_zero _ _ _ List.not_mem_nil]
    have h1 : (GatherDims.mk [0, 2] [1] [] sb [1] 1 ss wf : GatherDims ⟨3, ![T, N, C]⟩ ⟨2, ![E, 1]⟩ ⟨3, ![T, E, C]⟩).start (ix3 t e c) idx 2 = 0 := by
      unfold GatherDims.start
      split
      · rename_i h; exact absurd h (show (2 : Fin 3) ∉ [(1 : Fin 3)] from by decide)
      · rfl
    have h2 : (GatherDims.mk [0, 2] [1] [] sb [1] 1 ss wf : GatherDims ⟨3, ![T, N, C]⟩ ⟨2, ![E, 1]⟩ ⟨3, ![T, E, C]⟩).offCoord (ix3 t e c) 2 = c.val := by
      unfold GatherDims.offCoord
      split
      · rfl
      · rename_i h; exact absurd (show (2 : Fin 3) ∈ (List.finRange 3).filter (· ∉ [(1 : Fin 3)] ++ []) from by decide) h
    rw [h1, h2, Nat.zero_add]

/-- An update index lands at the operand index `i` exactly when, on every axis, the start plus the window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have := h a
      rw [← hf]
      simp only
      omega
    · intro hh
      funext a
      refine Fin.ext ?_
      have := h a
      have := hh a
      simp only
      omega
  · rename_i h
    constructor
    · intro h'; cases h'
    · intro hh; exfalso; apply h; intro a
      have := hh a
      have := (i a).isLt
      omega

/-- Scatter along the first axis of an `[N, C]` array: the update `(e, c')` lands at `(n, c)` exactly when entry `e`'s word
    lands in row `n` and `c' = c`. -/
theorem scatter2_lands {N C E : ℕ}
    (wf : ScatterDims.WF ⟨2, ![N, C]⟩ ⟨2, ![E, 1]⟩ ⟨2, ![E, C]⟩ [1] [0] [0] 1)
    (idx : IVec ⟨2, ![E, 1]⟩ 32) (j : (⟨2, ![E, C]⟩ : Shape).Idx) (n : Fin N) (c : Fin C) :
    (ScatterDims.mk [1] [0] [0] 1 wf : ScatterDims ⟨2, ![N, C]⟩ ⟨2, ![E, 1]⟩ ⟨2, ![E, C]⟩).resultIdx? j idx = some (ix2 n c)
      ↔ landRow N (idx (ix2 (j 0) 0)) = some n ∧ j 1 = c := by
  rw [resultIdx?_eq_some_iff, landRow_eq_some_iff, Fin.forall_fin_two]
  have hs0 : (ScatterDims.mk [1] [0] [0] 1 wf : ScatterDims ⟨2, ![N, C]⟩ ⟨2, ![E, 1]⟩ ⟨2, ![E, C]⟩).start j idx 0
      = (idx (ix2 (j 0) 0)).toInt := by
    unfold ScatterDims.start
    rw [dif_pos (show (0 : Fin 2) ∈ [(0 : Fin 2)] from List.mem_singleton.mpr rfl)]
    congr 2
    funext b; refine Fin.ext ?_
    match b with
    | ⟨0, _⟩ => rfl
    | ⟨1, _⟩ => rfl
  have hs1 : (ScatterDims.mk [1] [0] [0] 1 wf : ScatterDims ⟨2, ![N, C]⟩ ⟨2, ![E, 1]⟩ ⟨2, ![E, C]⟩).start j idx 1 = 0 := by
    unfold ScatterDims.start
    split
    · rename_i h; exact absurd h (show (1 : Fin 2) ∉ [(0 : Fin 2)] from by decide)
    · rfl
  have hw0 : (ScatterDims.mk [1] [0] [0] 1 wf : ScatterDims ⟨2, ![N, C]⟩ ⟨2, ![E, 1]⟩ ⟨2, ![E, C]⟩).window j 0 = 0 := by
    unfold ScatterDims.window
    split
    · rename_i h; exact absurd h (show (0 : Fin 2) ∉ (List.finRange 2).filter (· ∉ [(0 : Fin 2)]) from by decide)
    · rfl
  have hw1 : (ScatterDims.mk [1] [0] [0] 1 wf : ScatterDims ⟨2, ![N, C]⟩ ⟨2, ![E, 1]⟩ ⟨2, ![E, C]⟩).window j 1 = (j 1).val := by
    unfold ScatterDims.window
    split
    · rfl
    · rename_i h; exact absurd (show (1 : Fin 2) ∈ (List.finRange 2).filter (· ∉ [(0 : Fin 2)]) from by decide) h
  rw [hs0, hs1, hw0, hw1]
  show (idx (ix2 (j 0) 0)).toInt + ((0 : ℕ) : Int) = (n.val : Int) ∧ (0 : Int) + ((j 1).val : Int) = (c.val : Int) ↔ _
  constructor
  · rintro ⟨h0, h1⟩
    exact ⟨by omega, Fin.ext (by omega)⟩
  · rintro ⟨h0, h1⟩
    subst h1
    exact ⟨by omega, by omega⟩

/-- The accumulating scatter into an `[N, C]` array along its first axis, at the ideal values. -/
theorem scatterAddRows2 {N C E : ℕ} (D : ScatterDims ⟨2, ![N, C]⟩ ⟨2, ![E, 1]⟩ ⟨2, ![E, C]⟩)
    (hu : D.updateWindowDims = [1]) (hi : D.insertedWindowDims = [0]) (hs : D.scatterDimsToOperandDims = [0])
    (hv : D.indexVectorDim = 1)
    (x : FVec Ideal ⟨2, ![N, C]⟩ .f32) (idx : IVec ⟨2, ![E, 1]⟩ 32) (upd : FVec Ideal ⟨2, ![E, C]⟩ .f32) (n : Fin N) (c : Fin C) :
    Host.scatterAdd (F := Ideal) D x idx upd (ix2 n c)
      = x (ix2 n c) + ∑ e : Fin E, if landRow N (idx (ix2 e 0)) = some n then upd (ix2 e c) else 0 := by
  obtain ⟨uw, iw, sd, iv, wf⟩ := D
  simp only at hu hi hs hv
  subst hu hi hs hv
  show Ideal.hostScatterAdd _ x idx upd (ix2 n c) = _
  unfold Ideal.hostScatterAdd
  refine congrArg (x (ix2 n c) + ·) ?_
  rw [Finset.sum_filter, sum_idx2]
  refine Finset.sum_congr rfl fun e _ => ?_
  by_cases h : landRow N (idx (ix2 e 0)) = some n
  · rw [if_pos h, Finset.sum_eq_single c]
    · rw [if_pos ((scatter2_lands wf idx (ix2 e c) n c).mpr ⟨h, rfl⟩)]
    · intro b _ hb
      rw [if_neg fun h' => hb ((scatter2_lands wf idx (ix2 e b) n c).mp h').2]
    · intro h'; exact absurd (Finset.mem_univ c) h'
  · rw [if_neg h]
    refine Finset.sum_eq_zero fun b _ => ?_
    rw [if_neg fun h' => h ((scatter2_lands wf idx (ix2 e b) n c).mp h').1]

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

/-- Scatter along the middle axis of a `[T, N, C]` array: the update `(t', e, c')` lands at `(t, n, c)` exactly when entry
    `e`'s word lands in row `n`, `t' = t` and `c' = c`. -/
theorem scatterMid_lands {T N C E : ℕ}
    (wf : ScatterDims.WF ⟨3, ![T, N, C]⟩ ⟨2, ![E, 1]⟩ ⟨3, ![T, E, C]⟩ [0, 2] [1] [1] 1)
    (idx : IVec ⟨2, ![E, 1]⟩ 32) (j : (⟨3, ![T, E, C]⟩ : Shape).Idx) (t : Fin T) (n : Fin N) (c : Fin C) :
    (ScatterDims.mk [0, 2] [1] [1] 1 wf : ScatterDims ⟨3, ![T, N, C]⟩ ⟨2, ![E, 1]⟩ ⟨3, ![T, E, C]⟩).resultIdx? j idx = some (ix3 t n c)
      ↔ landRow N (idx (ix2 (j 1) 0)) = some n ∧ j 0 = t ∧ j 2 = c := by
  rw [resultIdx?_eq_some_iff, landRow_eq_some_iff]
  have hs1 : (ScatterDims.mk [0, 2] [1] [1] 1 wf : ScatterDims ⟨3, ![T, N, C]⟩ ⟨2, ![E, 1]⟩ ⟨3, ![T, E, C]⟩).start j idx 1
      = (idx (ix2 (j 1) 0)).toInt := by
    unfold ScatterDims.start
    split
    · congr 2
      funext b; refine Fin.ext ?_
      match b with
      | ⟨0, _⟩ => rfl
      | ⟨1, _⟩ => rfl
    · rename_i h; exact absurd (show (1 : Fin 3) ∈ [(1 : Fin 3)] from by decide) h
  have hs0 : (ScatterDims.mk [0, 2] [1] [1] 1 wf : ScatterDims ⟨3, ![T, N, C]⟩ ⟨2, ![E, 1]⟩ ⟨3, ![T, E, C]⟩).start j idx 0 = 0 := by
    unfold ScatterDims.start
    split
    · rename_i h; exact absurd h (show (0 : Fin 3) ∉ [(1 : Fin 3)] from by decide)
    · rfl
  have hs2 : (ScatterDims.mk [0, 2] [1] [1] 1 wf : ScatterDims ⟨3, ![T, N, C]⟩ ⟨2, ![E, 1]⟩ ⟨3, ![T, E, C]⟩).start j idx 2 = 0 := by
    unfold ScatterDims.start
    split
    · rename_i h; exact absurd h (show (2 : Fin 3) ∉ [(1 : Fin 3)] from by decide)
    · rfl
  have hw0 : (ScatterDims.mk [0, 2] [1] [1] 1 wf : ScatterDims ⟨3, ![T, N, C]⟩ ⟨2, ![E, 1]⟩ ⟨3, ![T, E, C]⟩).window j 0 = (j 0).val := by
    unfold ScatterDims.window
    split
    · rfl
    · rename_i h; exact absurd (show (0 : Fin 3) ∈ (List.finRange 3).filter (· ∉ [(1 : Fin 3)]) from by decide) h
  have hw1 : (ScatterDims.mk [0, 2] [1] [1] 1 wf : ScatterDims ⟨3, ![T, N, C]⟩ ⟨2, ![E, 1]⟩ ⟨3, ![T, E, C]⟩).window j 1 = 0 := by
    unfold ScatterDims.window
    split
    · rename_i h; exact absurd h (show (1 : Fin 3) ∉ (List.finRange 3).filter (· ∉ [(1 : Fin 3)]) from by decide)
    · rfl
  have hw2 : (ScatterDims.mk [0, 2] [1] [1] 1 wf : ScatterDims ⟨3, ![T, N, C]⟩ ⟨2, ![E, 1]⟩ ⟨3, ![T, E, C]⟩).window j 2 = (j 2).val := by
    unfold ScatterDims.window
    split
    · rfl
    · rename_i h; exact absurd (show (2 : Fin 3) ∈ (List.finRange 3).filter (· ∉ [(1 : Fin 3)]) from by decide) h
  constructor
  · intro h
    have h0 := h 0
    have h1 := h 1
    have h2 := h 2
    rw [hs0, hw0] at h0
    rw [hs1, hw1] at h1
    rw [hs2, hw2] at h2
    have h0' : (0 : Int) + ((j 0).val : Int) = (t.val : Int) := h0
    have h1' : (idx (ix2 (j 1) 0)).toInt + ((0 : ℕ) : Int) = (n.val : Int) := h1
    have h2' : (0 : Int) + ((j 2).val : Int) = (c.val : Int) := h2
    exact ⟨by omega, Fin.ext (by omega), Fin.ext (by omega)⟩
  · rintro ⟨h1, h0, h2⟩ a
    subst h0 h2
    match a with
    | ⟨0, _⟩ =>
      show _ + ((ScatterDims.mk [0, 2] [1] [1] 1 wf : ScatterDims ⟨3, ![T, N, C]⟩ ⟨2, ![E, 1]⟩ ⟨3, ![T, E, C]⟩).window j 0 : Int) = ((j 0).val : Int)
      rw [hw0]
      show (ScatterDims.mk [0, 2] [1] [1] 1 wf : ScatterDims ⟨3, ![T, N, C]⟩ ⟨2, ![E, 1]⟩ ⟨3, ![T, E, C]⟩).start j idx 0 + _ = _
      rw [hs0]; omega
    | ⟨1, _⟩ =>
      show _ + ((ScatterDims.mk [0, 2] [1] [1] 1 wf : ScatterDims ⟨3, ![T, N, C]⟩ ⟨2, ![E, 1]⟩ ⟨3, ![T, E, C]⟩).window j 1 : Int) = (n.val : Int)
      rw [hw1]
      show (ScatterDims.mk [0, 2] [1] [1] 1 wf : ScatterDims ⟨3, ![T, N, C]⟩ ⟨2, ![E, 1]⟩ ⟨3, ![T, E, C]⟩).start j idx 1 + _ = _
      rw [hs1]; omega
    | ⟨2, _⟩ =>
      show _ + ((ScatterDims.mk [0, 2] [1] [1] 1 wf : ScatterDims ⟨3, ![T, N, C]⟩ ⟨2, ![E, 1]⟩ ⟨3, ![T, E, C]⟩).window j 2 : Int) = ((j 2).val : Int)
      rw [hw2]
      show (ScatterDims.mk [0, 2] [1] [1] 1 wf : ScatterDims ⟨3, ![T, N, C]⟩ ⟨2, ![E, 1]⟩ ⟨3, ![T, E, C]⟩).start j idx 2 + _ = _
      rw [hs2]; omega

/-- The accumulating scatter into a `[T, N, C]` array along its middle axis, at the ideal values. -/
theorem scatterAddRowsMid {T N C E : ℕ} (D : ScatterDims ⟨3, ![T, N, C]⟩ ⟨2, ![E, 1]⟩ ⟨3, ![T, E, C]⟩)
    (hu : D.updateWindowDims = [0, 2]) (hi : D.insertedWindowDims = [1]) (hs : D.scatterDimsToOperandDims = [1])
    (hv : D.indexVectorDim = 1)
    (x : FVec Ideal ⟨3, ![T, N, C]⟩ .f32) (idx : IVec ⟨2, ![E, 1]⟩ 32) (upd : FVec Ideal ⟨3, ![T, E, C]⟩ .f32)
    (t : Fin T) (n : Fin N) (c : Fin C) :
    Host.scatterAdd (F := Ideal) D x idx upd (ix3 t n c)
      = x (ix3 t n c) + ∑ e : Fin E, if landRow N (idx (ix2 e 0)) = some n then upd (ix3 t e c) else 0 := by
  obtain ⟨uw, iw, sd, iv, wf⟩ := D
  simp only at hu hi hs hv
  subst hu hi hs hv
  show Ideal.hostScatterAdd _ x idx upd (ix3 t n c) = _
  unfold Ideal.hostScatterAdd
  refine congrArg (x (ix3 t n c) + ·) ?_
  rw [Finset.sum_filter, sum_idx3, Finset.sum_comm]
  refine Finset.sum_congr rfl fun e _ => ?_
  by_cases h : landRow N (idx (ix2 e 0)) = some n
  · rw [if_pos h, Finset.sum_eq_single t]
    · rw [Finset.sum_eq_single c]
      · rw [if_pos ((scatterMid_lands wf idx (ix3 t e c) t n c).mpr ⟨h, rfl, rfl⟩)]
      · intro b _ hb
        rw [if_neg fun h' => hb ((scatterMid_lands wf idx (ix3 t e b) t n c).mp h').2.2]
      · intro h'; exact absurd (Finset.mem_univ c) h'
    · intro a _ ha
      refine Finset.sum_eq_zero fun b _ => ?_
      rw [if_neg fun h' => ha ((scatterMid_lands wf idx (ix3 a e b) t n c).mp h').2.1]
    · intro h'; exact absurd (Finset.mem_univ t) h'
  · rw [if_neg h]
    refine Finset.sum_eq_zero fun a _ => Finset.sum_eq_zero fun b _ => ?_
    rw [if_neg fun h' => h ((scatterMid_lands wf idx (ix3 a e b) t n c).mp h').1]

end Cert.LibGatherScatterRows

end
-- ==== Proof.KernelHost.lean ====
/-
  The kernel program's host operations between its calls, read at an index.

  Between its calls the kernel program prepares, on the host, what the last aggregation needs: the source words wrapped
  into range (a negative word has the row count added), the rows of the projected array gathered at the wrapped words,
  each weighted by its edge weight and added into the row its destination word names, starting from zeros; and each
  bias vector recast as a one-row array. Read at an entry (p, j), the aggregation is zero plus the sum, over the edges
  whose destination word lands in row p, of the projected entry at (the clamped wrapped source row, j) times the edge
  weight. The wrapped words are the same integer operations the reference performs, and a vector recast as one row
  holds, at column j, the vector's entry j, which is also what the reference's broadcast along a new first axis holds.
-/
import proofs.«169994_j32255204393049_2_alg».proof.Proof.Gen.KernelIdeal
import proofs.«169994_j32255204393049_2_alg».proof.Proof.RefReadP
import proofs.«169994_j32255204393049_2_alg».proof.Proof.Spec
import proofs.«169994_j32255204393049_2_alg».proof.Proof.LibGatherScatterRows
import Idealize.ShloMosaic.Lib.ValueIdx
import Idealize.ShloMosaic.Lib.Pipeline.Value
import Idealize.ShloMosaic.PureOps.Ideal.Laws

noncomputable section

open scoped BigOperators

namespace Cert.KernelHost

open Cert.KernelIdeal Cert.KernelIdeal.Gen Cert.Spec Cert.LibGatherScatterRows
open Idealize.ShloMosaic Idealize.ShloMosaic.ValueIdx Idealize.SL.Sem

instance neZero_rows : NeZero 50000 := ⟨by decide⟩

/-! ## Layout changes read at an index -/

/-- A vector [b] recast as a row [1, b]: entry (0, j) is the vector's entry j. -/
theorem shapeCast_row {α : Type} {b : ℕ} (v : (⟨1, ![b]⟩ : Shape).Idx → α)
    (h : (⟨1, ![b]⟩ : Shape).ShapeCasts ⟨2, ![1, b]⟩) (j : Fin b) :
    shapeCast ⟨2, ![1, b]⟩ v h (ix2 0 j) = v (ix1 j) := by
  refine (shapeCast_addUnit_apply (![b]) v h (ix2 0 j)).trans (congrArg v ?_)
  funext a
  match a with
  | ⟨0, _⟩ => rfl

/-- A vector [E] set as a column [E, 1]: entry (e, 0) is the vector's entry e. -/
theorem col_of_vec {α : Type} {E : ℕ} (hE : E ≠ 1) (v : (⟨1, ![E]⟩ : Shape).Idx → α)
    (h : (⟨1, ![E]⟩ : Shape).BroadcastsInDim ⟨2, ![E, 1]⟩ ![0]) (e : Fin E) :
    broadcastInDim ⟨2, ![E, 1]⟩ ![0] h v (ix2 e 0) = v (ix1 e) :=
  broadcastInDim_apply _ h v (ix2 e 0) (ix1 e) fun a => match a with
    | ⟨0, _⟩ => by show e.val = if E = 1 then 0 else e.val; rw [if_neg hE]

/-- A column [E, 1] spread over [E, C]: entry (e, c) is the column's entry e. -/
theorem spread_col {α : Type} {E C : ℕ} (hE : E ≠ 1) (v : (⟨2, ![E, 1]⟩ : Shape).Idx → α)
    (h : (⟨2, ![E, 1]⟩ : Shape).BroadcastsInDim ⟨2, ![E, C]⟩ ![0, 1]) (e : Fin E) (c : Fin C) :
    broadcastInDim ⟨2, ![E, C]⟩ ![0, 1] h v (ix2 e c) = v (ix2 e 0) :=
  broadcastInDim_apply _ h v (ix2 e c) (ix2 e 0) fun a => match a with
    | ⟨0, _⟩ => by show e.val = if E = 1 then 0 else e.val; rw [if_neg hE]
    | ⟨1, _⟩ => by show 0 = if (1 : ℕ) = 1 then 0 else c.val; rw [if_pos rfl]

/-! ## The wrapped source words -/

/-- The source words wrapped into range: a negative word has the row count added. -/
def wrapK (x8 : IVec S800000 32) : IVec S800000 32 :=
  select (cmpi .slt x8 (broadcastInDim S800000 ![] bcast_S_S800000 (constantI S_ 32 0#32)))
    (addi x8 (broadcastInDim S800000 ![] bcast_S_S800000 (constantI S_ 32 50000#32))) x8

/-- They are the reference's wrapped source words: the same integer operations. -/
theorem wrapK_eq (x8 : IVec S800000 32) : wrapK x8 = Cert.ReferenceIdeal.Read.val_main_v63 (F := Ideal) x8 := rfl

/-! ## The last aggregation -/

/-- The last aggregation of the projected array `t`: rows gathered at the wrapped source words, weighted by the edge
    weights, added into the destination rows from zeros. -/
def aggK64 (t : FVec Ideal S50000x64 .f32) (x1 : FVec Ideal S800000 .f32) (x8 x9 : IVec S800000 32) :
    FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 x9)
    (mulf (Host.gather gather_S50000x64_S800000x1_S800000x64_1_0_n_n_0_1_164 t
        (broadcastInDim S800000x1 ![0] bcast_S800000_S800000x1_0 (wrapK x8)))
      (broadcastInDim S800000x64 ![0, 1] bcast_S800000x1_S800000x64_0_1
        (broadcastInDim S800000x1 ![0] bcast_S800000_S800000x1_0 x1)))

/-- The aggregation at an entry: zero plus, over the edges whose destination word lands in row `p`, the projected
    entry at the clamped wrapped source row times the edge weight. -/
theorem aggK64_at (t : FVec Ideal S50000x64 .f32) (x1 : FVec Ideal S800000 .f32) (x8 x9 : IVec S800000 32)
    (p : Fin 50000) (j : Fin 64) :
    aggK64 t x1 x8 x9 (ix2 p j)
      = zeroWord + ∑ e : Fin 800000, if landRow 50000 (x9 (ix1 e)) = some p
          then t (ix2 (clampRow 50000 (wrapK x8 (ix1 e))) j) * x1 (ix1 e) else 0 := by
  have hE : (800000 : ℕ) ≠ 1 := by decide
  have h := scatterAddRows2 (N := 50000) (C := 64) (E := 800000) scatter_S50000x64_S800000x1_S800000x64_1_0_0_1 rfl rfl rfl rfl
    (broadcastInDim S50000x64 ![] bcast_S_S50000x64 (constant (F := Ideal) S_ .f32 0x00000000#32))
    (broadcastInDim S800000x1 ![0] bcast_S800000_S800000x1_0 x9)
    (mulf (Host.gather gather_S50000x64_S800000x1_S800000x64_1_0_n_n_0_1_164 t
        (broadcastInDim S800000x1 ![0] bcast_S800000_S800000x1_0 (wrapK x8)))
      (broadcastInDim S800000x64 ![0, 1] bcast_S800000x1_S800000x64_0_1
        (broadcastInDim S800000x1 ![0] bcast_S800000_S800000x1_0 x1))) p j
  refine h.trans ?_
  refine congrArg₂ (· + ·) rfl (Finset.sum_congr rfl fun e _ => ?_)
  have h9 : broadcastInDim S800000x1 ![0] bcast_S800000_S800000x1_0 x9 (ix2 e 0) = x9 (ix1 e) :=
    col_of_vec hE x9 bcast_S800000_S800000x1_0 e
  have h8 : broadcastInDim S800000x1 ![0] bcast_S800000_S800000x1_0 (wrapK x8) (ix2 e 0) = wrapK x8 (ix1 e) :=
    col_of_vec hE (wrapK x8) bcast_S800000_S800000x1_0 e
  have h1 : broadcastInDim S800000x64 ![0, 1] bcast_S800000x1_S800000x64_0_1
      (broadcastInDim S800000x1 ![0] bcast_S800000_S800000x1_0 x1) (ix2 e j) = x1 (ix1 e) :=
    (spread_col hE _ bcast_S800000x1_S800000x64_0_1 e j).trans (col_of_vec hE x1 bcast_S800000_S800000x1_0 e)
  have hg := gatherRows2 (N := 50000) (C := 64) (E := 800000) gather_S50000x64_S800000x1_S800000x64_1_0_n_n_0_1_164 rfl rfl rfl rfl rfl
    t (broadcastInDim S800000x1 ![0] bcast_S800000_S800000x1_0 (wrapK x8)) e j
  rw [h9]
  refine congrArg (fun z : EReal => if landRow 50000 (x9 (ix1 e)) = some p then z else 0) ?_
  show FloatOps.mulf (F := Ideal) (Host.gather gather_S50000x64_S800000x1_S800000x64_1_0_n_n_0_1_164 t
        (broadcastInDim S800000x1 ![0] bcast_S800000_S800000x1_0 (wrapK x8)) (ix2 e j))
      (broadcastInDim S800000x64 ![0, 1] bcast_S800000x1_S800000x64_0_1
        (broadcastInDim S800000x1 ![0] bcast_S800000_S800000x1_0 x1) (ix2 e j)) = _
  rw [hg, h8, h1, Ideal.mulf_def]

/-! ## The bias rows -/

/-- The term a reshape of a vector to one row writes is the plain recast (the transport along `rfl` is the identity). -/
example (x3 : FVec Ideal S128 .f32) :
    (fun i => ((rfl : EltTy.f32 = EltTy.f32) ▸ (shapeCast S1x128 x3 shapeCasts_S128_S1x128 i : Elt Ideal EltTy.f32) : Elt Ideal EltTy.f32))
      = shapeCast S1x128 x3 shapeCasts_S128_S1x128 := rfl

/-- The first bias vector recast as one row is the reference's broadcast of it along a new first axis. -/
theorem biasRow0 (x3 : FVec Ideal S128 .f32) :
    shapeCast S1x128 x3 shapeCasts_S128_S1x128 = Cert.ReferenceIdeal.Read.val_main_v31 (F := Ideal) x3 := by
  funext i
  have h0 : i 0 = (0 : Fin 1) := Fin.ext (by have := idx2_lt0 i; show (i 0).val = 0; omega)
  obtain ⟨q, rfl⟩ : ∃ q : Fin 128, i = ix2 0 q :=
    ⟨i 1, (eq_ix2 i).trans (congrArg (fun z : Fin 1 => ix2 z (i 1)) h0)⟩
  rw [Cert.ReferenceIdeal.Read.val_main_v31_apply]
  exact (shapeCast_row x3 shapeCasts_S128_S1x128 q).trans
    (congrArg x3 (funext fun a => Fin.ext (by match a with | ⟨0, _⟩ => rfl)))

/-- The second bias vector, likewise. -/
theorem biasRow1 (x5 : FVec Ideal S128 .f32) :
    shapeCast S1x128 x5 shapeCasts_S128_S1x128 = Cert.ReferenceIdeal.Read.val_main_v53 (F := Ideal) x5 := by
  funext i
  have h0 : i 0 = (0 : Fin 1) := Fin.ext (by have := idx2_lt0 i; show (i 0).val = 0; omega)
  obtain ⟨q, rfl⟩ : ∃ q : Fin 128, i = ix2 0 q :=
    ⟨i 1, (eq_ix2 i).trans (congrArg (fun z : Fin 1 => ix2 z (i 1)) h0)⟩
  rw [Cert.ReferenceIdeal.Read.val_main_v53_apply]
  exact (shapeCast_row x5 shapeCasts_S128_S1x128 q).trans
    (congrArg x5 (funext fun a => Fin.ext (by match a with | ⟨0, _⟩ => rfl)))

/-- The last bias vector recast as one row, at column j. -/
theorem biasRow2 (x7 : FVec Ideal S64 .f32) (j : Fin 64) :
    shapeCast S1x64 x7 shapeCasts_S64_S1x64 (ix2 0 j) = x7 (ix1 j) :=
  shapeCast_row x7 shapeCasts_S64_S1x64 j

end Cert.KernelHost

end
-- ==== Proof.KernelStages.lean ====
/-
  The kernel program's host-side stages, as functions of the argument arrays.

  * degrees idx       — scatter-adding a one for every edge into the row its word names (out-degrees for the source
                        words, in-degrees for the destination words);
  * scaleCol idx      — the inverse square root of the degrees clipped below at one, as a column [50000, 1];
  * scaledInput x idx — the node features times the source scale, row by row;
  * aggregate128 h w src dst, aggregate64 t w src dst — gather the rows of h at the wrapped source words, weight each by
                        its edge weight, scatter-add into the row its destination word names, from zeros.
  They are spelled exactly as the program's stretches of host operations compose, so that the buffer contents after a
  stretch are these functions of the contents before it.
-/
import proofs.«169994_j32255204393049_2_alg».proof.Proof.KernelHost

noncomputable section

namespace Cert.KernelStages

open Cert.KernelIdeal Cert.KernelIdeal.Gen Cert.KernelHost
open Idealize.ShloMosaic Idealize.SL.Sem

variable {F : FTy → Type} [FloatOps F]

/-- The degrees: one added per edge into the row its word names. -/
def degrees (idx : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 idx)
    (broadcastInDim S800000 ![] bcast_S_S800000 (constant S_ .f32 0x3F800000#32))

/-- The scale column: the inverse square root of the degrees clipped below at one. -/
def scaleCol (idx : IVec S800000 32) : FVec F S50000x1 .f32 :=
  broadcastInDim S50000x1 ![0] bcast_S50000_S50000x1_0
    (Host.rsqrt (maximumf (broadcastInDim S50000 ![] bcast_S_S50000 (id (constant S_ .f32 0x3F800000#32))) (degrees (F := F) idx)))

/-- The node features times the source scale. -/
def scaledInput (x0 : FVec F S50000x128 .f32) (x8 : IVec S800000 32) : FVec F S50000x128 .f32 :=
  mulf x0 (broadcastInDim S50000x128 ![0, 1] bcast_S50000x1_S50000x128_0_1 (scaleCol (F := F) x8))

/-- One aggregation of 128-wide rows. -/
def aggregate128 (h : FVec F S50000x128 .f32) (x1 : FVec F S800000 .f32) (x8 x9 : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x9)
    (mulf (Host.gather gather_S50000x128_S800000x1_S800000x128_1_0_n_n_0_1_1128 h
        (broadcastInDim S800000x1 ![0] bcast_S800000_S800000x1_0 (wrapK x8)))
      (broadcastInDim S800000x128 ![0, 1] bcast_S800000x1_S800000x128_0_1
        (broadcastInDim S800000x1 ![0] bcast_S800000_S800000x1_0 x1)))

/-- The last aggregation, of 64-wide rows. -/
def aggregate64 (t : FVec F S50000x64 .f32) (x1 : FVec F S800000 .f32) (x8 x9 : IVec S800000 32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 x9)
    (mulf (Host.gather gather_S50000x64_S800000x1_S800000x64_1_0_n_n_0_1_164 t
        (broadcastInDim S800000x1 ![0] bcast_S800000_S800000x1_0 (wrapK x8)))
      (broadcastInDim S800000x64 ![0, 1] bcast_S800000x1_S800000x64_0_1
        (broadcastInDim S800000x1 ![0] bcast_S800000_S800000x1_0 x1)))

/-- At the ideal values the last aggregation is the one read at an index in the host module. -/
theorem aggregate64_eq (t : FVec Ideal S50000x64 .f32) (x1 : FVec Ideal S800000 .f32) (x8 x9 : IVec S800000 32) :
    aggregate64 (F := Ideal) t x1 x8 x9 = aggK64 t x1 x8 x9 := rfl

end Cert.KernelStages

end
-- ==== Proof.KernelFoldHost.lean ====
/-
  The kernel program's stretches of host operations, read at the buffers the pallas_calls take — for any float instance.

  The buffer contents at each segment boundary are the fold W0 … W11 of the generated frame module. A stretch of host
  operations writes each of its result buffers with its operation applied to its operands' contents and leaves every
  other buffer alone. Read off the five opening stretches: the two scale columns, the scaled input's aggregate and the
  first reshaped bias, as the host stages of the argument arrays. Read off the stretch before the second call and the
  stretch before the last: the aggregate of the previous call's output, the next reshaped bias, and everything else as
  the stretch found it.
-/
import proofs.«169994_j32255204393049_2_alg».proof.Proof.Gen.KernelIdeal.Frame
import proofs.«169994_j32255204393049_2_alg».proof.Proof.KernelStages

set_option maxRecDepth 16384

noncomputable section

namespace Cert.KernelIdeal.FoldHost

open Cert.KernelIdeal Cert.KernelIdeal.Gen Cert.KernelStages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first call's entry (after the five opening stretches) -/

theorem w5_v9 (c : Dev nD) : W5 m ρ c (Proc.devRef .tc main_v9) = scaleCol (F := F) (m ((c : Thread nD τ).loc main_arg8)) := by
  after_results_simp
  rfl
theorem w5_v12 (c : Dev nD) : W5 m ρ c (Proc.devRef .tc main_v12) = scaleCol (F := F) (m ((c : Thread nD τ).loc main_arg9)) := by
  after_results_simp
  rfl
theorem w5_v27 (c : Dev nD) : W5 m ρ c (Proc.devRef .tc main_v27)
    = aggregate128 (F := F) (scaledInput (F := F) (m ((c : Thread nD τ).loc main_arg0)) (m ((c : Thread nD τ).loc main_arg8))) (m ((c : Thread nD τ).loc main_arg1)) (m ((c : Thread nD τ).loc main_arg8)) (m ((c : Thread nD τ).loc main_arg9)) := by
  after_results_simp
  rfl
theorem w5_v28 (c : Dev nD) : W5 m ρ c (Proc.devRef .tc main_v28) = shapeCast S1x128 (m ((c : Thread nD τ).loc main_arg3)) shapeCasts_S128_S1x128 := by
  after_results_simp
  rfl
theorem w5_arg1 (c : Dev nD) : W5 m ρ c (Proc.devRef .tc main_arg1) = (m ((c : Thread nD τ).loc main_arg1)) := by
  after_results_simp
theorem w5_arg2 (c : Dev nD) : W5 m ρ c (Proc.devRef .tc main_arg2) = (m ((c : Thread nD τ).loc main_arg2)) := by
  after_results_simp
theorem w5_arg4 (c : Dev nD) : W5 m ρ c (Proc.devRef .tc main_arg4) = (m ((c : Thread nD τ).loc main_arg4)) := by
  after_results_simp
theorem w5_arg5 (c : Dev nD) : W5 m ρ c (Proc.devRef .tc main_arg5) = (m ((c : Thread nD τ).loc main_arg5)) := by
  after_results_simp
theorem w5_arg6 (c : Dev nD) : W5 m ρ c (Proc.devRef .tc main_arg6) = (m ((c : Thread nD τ).loc main_arg6)) := by
  after_results_simp
theorem w5_arg7 (c : Dev nD) : W5 m ρ c (Proc.devRef .tc main_arg7) = (m ((c : Thread nD τ).loc main_arg7)) := by
  after_results_simp
theorem w5_arg8 (c : Dev nD) : W5 m ρ c (Proc.devRef .tc main_arg8) = (m ((c : Thread nD τ).loc main_arg8)) := by
  after_results_simp
theorem w5_arg9 (c : Dev nD) : W5 m ρ c (Proc.devRef .tc main_arg9) = (m ((c : Thread nD τ).loc main_arg9)) := by
  after_results_simp

/-! ## The second call's entry (one stretch after the first call) -/

theorem w7_v42 (c : Dev nD) : W7 m ρ c (Proc.devRef .tc main_v42)
    = aggregate128 (F := F) (W6 m ρ c (Proc.devRef .tc main_v29)) (W6 m ρ c (Proc.devRef .tc main_arg1)) (W6 m ρ c (Proc.devRef .tc main_arg8)) (W6 m ρ c (Proc.devRef .tc main_arg9)) := by
  after_results_simp
  rfl
theorem w7_v43 (c : Dev nD) : W7 m ρ c (Proc.devRef .tc main_v43) = shapeCast S1x128 (W6 m ρ c (Proc.devRef .tc main_arg5)) shapeCasts_S128_S1x128 := by
  after_results_simp
  rfl
theorem w7_keep_main_v12 (c : Dev nD) : W7 m ρ c (Proc.devRef .tc main_v12) = W6 m ρ c (Proc.devRef .tc main_v12) := by
  after_results_simp
theorem w7_keep_main_v9 (c : Dev nD) : W7 m ρ c (Proc.devRef .tc main_v9) = W6 m ρ c (Proc.devRef .tc main_v9) := by
  after_results_simp
theorem w7_keep_main_arg1 (c : Dev nD) : W7 m ρ c (Proc.devRef .tc main_arg1) = W6 m ρ c (Proc.devRef .tc main_arg1) := by
  after_results_simp
theorem w7_keep_main_arg4 (c : Dev nD) : W7 m ρ c (Proc.devRef .tc main_arg4) = W6 m ρ c (Proc.devRef .tc main_arg4) := by
  after_results_simp
theorem w7_keep_main_arg6 (c : Dev nD) : W7 m ρ c (Proc.devRef .tc main_arg6) = W6 m ρ c (Proc.devRef .tc main_arg6) := by
  after_results_simp
theorem w7_keep_main_arg7 (c : Dev nD) : W7 m ρ c (Proc.devRef .tc main_arg7) = W6 m ρ c (Proc.devRef .tc main_arg7) := by
  after_results_simp
theorem w7_keep_main_arg8 (c : Dev nD) : W7 m ρ c (Proc.devRef .tc main_arg8) = W6 m ρ c (Proc.devRef .tc main_arg8) := by
  after_results_simp
theorem w7_keep_main_arg9 (c : Dev nD) : W7 m ρ c (Proc.devRef .tc main_arg9) = W6 m ρ c (Proc.devRef .tc main_arg9) := by
  after_results_simp

/-! ## The last call's entry (one stretch after the third call) -/

theorem w10_v58 (c : Dev nD) : W10 m ρ c (Proc.devRef .tc main_v58)
    = aggregate64 (F := F) (W9 m ρ c (Proc.devRef .tc main_v45)) (W9 m ρ c (Proc.devRef .tc main_arg1)) (W9 m ρ c (Proc.devRef .tc main_arg8)) (W9 m ρ c (Proc.devRef .tc main_arg9)) := by
  after_results_simp
  rfl
theorem w10_v59 (c : Dev nD) : W10 m ρ c (Proc.devRef .tc main_v59) = shapeCast S1x64 (W9 m ρ c (Proc.devRef .tc main_arg7)) shapeCasts_S64_S1x64 := by
  after_results_simp
  rfl
theorem w10_keep_main_v12 (c : Dev nD) : W10 m ρ c (Proc.devRef .tc main_v12) = W9 m ρ c (Proc.devRef .tc main_v12) := by
  after_results_simp

end Cert.KernelIdeal.FoldHost

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«169994_j32255204393049_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.KernelPayloads.lean ====
/-
  The four kernel bodies' arithmetic, each as a step of the specification applied to the blocks the body loads.

  A body loads whole blocks of rows and stores one block. Its stored value, read at an entry (p, q) of the block, is:
  layers 0 and 1 — the dense step of the loaded aggregate block, the two scale columns, the weight and the bias row
  (the change to the 16-bit format and back is the identity on extended reals; the product into a zero accumulator is the
  plain sum over the contracted axis); the projection — the plain product; the final step — the log-softmax of the row
  of the loaded block times its scale plus the bias (the row's maximum and the row sum are reductions over the second
  axis, from minus infinity and from zero).
-/
import proofs.«169994_j32255204393049_2_alg».proof.Proof.Gen.KernelIdeal.Skeleton
import proofs.«169994_j32255204393049_2_alg».proof.Proof.Spec
import proofs.«169994_j32255204393049_2_alg».proof.Proof.LibRowReduceProducts

set_option maxRecDepth 16384

noncomputable section

open scoped BigOperators

namespace Cert.KernelIdeal.Payloads

open Cert.KernelIdeal Cert.KernelIdeal.Gen Cert.Spec Cert.LibRowReduceProducts
open Idealize.ShloMosaic Idealize.ShloMosaic.ValueIdx

/-- The exponential and the logarithm of an array at an index are those of the entry. -/
theorem exp_at {s : Shape} {φ : FTy} (x : FVec Ideal s φ) (i : s.Idx) : exp x i = Ideal.exp (x i) := rfl
theorem log_at {s : Shape} {φ : FTy} (x : FVec Ideal s φ) (i : s.Idx) : log x i = Ideal.log (x i) := rfl

/-- Layer 0's body: the dense step of its loaded blocks. -/
theorem pay0_eq (x0 : Vec Ideal S2000x128 .f32) (x1 : Vec Ideal S2000x1 .f32) (x3 : Vec Ideal S128x128 .f32)
    (x4 : Vec Ideal S1x128 .f32) (x2 : Vec Ideal S2000x1 .f32) :
    k0_pay1 (F := Ideal) x0 x1 x3 x4 x2 = denseStep x0 x1 x2 x3 x4 := by
  funext j
  obtain ⟨p, q, rfl⟩ : ∃ (p : Fin 2000) (q : Fin 128), j = ix2 p q := ⟨j 0, j 1, eq_ix2 j⟩
  rw [denseStep_apply]
  unfold k0_pay1
  rw [shapeCast_self x0, shapeCast_self x1, shapeCast_self x4, shapeCast_self x2]
  rw [mulf_apply, maximumf_apply, addf_apply, broadcastTo_col, broadcastTo_row, broadcast_apply]
  have hm : matmul (F := Ideal) dot_S2000x128_S128x128_S2000x128_1_0_0_1_n_n none
      (truncf .bf16 (mulf x0 (broadcastTo S2000x128 x1 broadcasts_S2000x1_S2000x128)) bitsLt_bf16_f32)
      (truncf .bf16 x3 bitsLt_bf16_f32) (constant S2000x128 .f32 0x00000000#32) (ix2 p q)
      = ∑ r : Fin 128, (x0 (ix2 p r) * x1 (ix2 p 0)) * x3 (ix2 r q) := by
    refine (matmulNN dot_S2000x128_S128x128_S2000x128_1_0_0_1_n_n rfl rfl rfl rfl rfl rfl none _ _ p q).trans ?_
    refine Finset.sum_congr rfl fun r _ => ?_
    rw [truncf_apply, truncf_apply, mulf_apply, broadcastTo_col]
  rw [hm]
  rfl

/-- Layer 1's body: the same step. -/
theorem pay1_eq (x0 : Vec Ideal S2000x128 .f32) (x1 : Vec Ideal S2000x1 .f32) (x3 : Vec Ideal S128x128 .f32)
    (x4 : Vec Ideal S1x128 .f32) (x2 : Vec Ideal S2000x1 .f32) :
    k1_pay1 (F := Ideal) x0 x1 x3 x4 x2 = denseStep x0 x1 x2 x3 x4 := by
  funext j
  obtain ⟨p, q, rfl⟩ : ∃ (p : Fin 2000) (q : Fin 128), j = ix2 p q := ⟨j 0, j 1, eq_ix2 j⟩
  rw [denseStep_apply]
  unfold k1_pay1
  rw [shapeCast_self x0, shapeCast_self x1, shapeCast_self x4, shapeCast_self x2]
  rw [mulf_apply, maximumf_apply, addf_apply, broadcastTo_col, broadcastTo_row, broadcast_apply]
  have hm : matmul (F := Ideal) dot_S2000x128_S128x128_S2000x128_1_0_0_1_n_n none
      (truncf .bf16 (mulf x0 (broadcastTo S2000x128 x1 broadcasts_S2000x1_S2000x128)) bitsLt_bf16_f32)
      (truncf .bf16 x3 bitsLt_bf16_f32) (constant S2000x128 .f32 0x00000000#32) (ix2 p q)
      = ∑ r : Fin 128, (x0 (ix2 p r) * x1 (ix2 p 0)) * x3 (ix2 r q) := by
    refine (matmulNN dot_S2000x128_S128x128_S2000x128_1_0_0_1_n_n rfl rfl rfl rfl rfl rfl none _ _ p q).trans ?_
    refine Finset.sum_congr rfl fun r _ => ?_
    rw [truncf_apply, truncf_apply, mulf_apply, broadcastTo_col]
  rw [hm]
  rfl

/-- The projection's body: the plain product of its loaded blocks. -/
theorem pay2_eq (x0 : Vec Ideal S5000x128 .f32) (x1 : Vec Ideal S128x64 .f32) :
    k2_pay1 (F := Ideal) x0 x1 = project x0 x1 := by
  funext j
  obtain ⟨p, q, rfl⟩ : ∃ (p : Fin 5000) (q : Fin 64), j = ix2 p q := ⟨j 0, j 1, eq_ix2 j⟩
  rw [project_apply]
  unfold k2_pay1
  rw [shapeCast_self]
  exact matmulNN dot_S5000x128_S128x64_S5000x64_1_0_0_1_n_n rfl rfl rfl rfl rfl rfl none _ _ p q

/-- The row log-softmax as the body spells it, for an arbitrary [a, b] array y: subtract the row maximum (a reduction over
    the second axis from minus infinity, recast as a column and spread along the rows), then subtract the logarithm of
    the row sum of the exponentials. -/
theorem lsm_vec {a b : ℕ} (y : FVec Ideal ⟨2, ![a, b]⟩ .f32)
    (h : Shape.Reduces ⟨2, ![a, b]⟩ [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf y (broadcastTo ⟨2, ![a, b]⟩ (shapeCast ⟨2, ![a, 1]⟩ (multiReduction .maximumf [1] ⟨1, ![a]⟩ y 0xFF800000#32 h hφ hmax) hc) hb))
      (broadcastTo ⟨2, ![a, b]⟩ (log (shapeCast ⟨2, ![a, 1]⟩ (multiReduction .add [1] ⟨1, ![a]⟩
        (exp (subf y (broadcastTo ⟨2, ![a, b]⟩ (shapeCast ⟨2, ![a, 1]⟩ (multiReduction .maximumf [1] ⟨1, ![a]⟩ y 0xFF800000#32 h hφ hmax) hc) hb)))
        0x00000000#32 h hφ hadd) hc)) hb) (ix2 p q)
      = logSoftmaxRow (fun j => y (ix2 p j)) q := by
  have hM : ∀ r : Fin b, (broadcastTo ⟨2, ![a, b]⟩ (shapeCast ⟨2, ![a, 1]⟩ (multiReduction .maximumf [1] ⟨1, ![a]⟩ y 0xFF800000#32 h hφ hmax) hc) hb) (ix2 p r)
      = Finset.univ.sup fun k : Fin b => y (ix2 p k) := fun r => by
    rw [broadcastTo_col, shapeCast_col, rowMax_apply]
  rw [subf_apply, subf_apply, hM, broadcastTo_col, log_at, shapeCast_col, rowSum_apply]
  unfold logSoftmaxRow
  refine congrArg (fun z => (y (ix2 p q) - Finset.univ.sup fun k : Fin b => y (ix2 p k)) - Ideal.log z) ?_
  refine Finset.sum_congr rfl fun k _ => ?_
  rw [exp_at, subf_apply, hM]

/-- The final body: the row log-softmax of the loaded block times its scale plus the bias. -/
theorem pay3_eq (x0 : Vec Ideal S5000x64 .f32) (x1 : Vec Ideal S5000x1 .f32) (x2 : Vec Ideal S1x64 .f32) :
    k3_pay1 (F := Ideal) x0 x1 x2 = finalStep x0 x1 x2 := by
  funext j
  obtain ⟨p, q, rfl⟩ : ∃ (p : Fin 5000) (q : Fin 64), j = ix2 p q := ⟨j 0, j 1, eq_ix2 j⟩
  rw [finalStep_apply]
  unfold k3_pay1
  rw [shapeCast_self x0, shapeCast_self x1, shapeCast_self x2]
  refine (lsm_vec (addf (mulf x0 (broadcastTo S5000x64 x1 broadcasts_S5000x1_S5000x64)) (broadcastTo S5000x64 x2 broadcasts_S1x64_S5000x64))
    reduces_S5000x64_S5000 (.inl rfl) rfl rfl shapeCasts_S5000_S5000x1 broadcasts_S5000x1_S5000x64 p q).trans ?_
  refine congrArg (fun f => logSoftmaxRow f q) (funext fun k => ?_)
  rw [addf_apply, mulf_apply, broadcastTo_col, broadcastTo_row]
  rfl

end Cert.KernelIdeal.Payloads

end
-- ==== Proof.KernelRegion0.lean ====
/-
  Layer 0's dense step, from blocks of rows to the whole array.

  The grid has 25 points; point t works on rows 2000·t … 2000·t + 1999: it fetches that block of rows of the aggregate and
  of the two scale columns, the whole weight matrix and the whole bias row, and writes back that block of rows of the
  output. What it writes back is the dense step of the fetched blocks, which is that block of rows of the dense step of
  the whole arrays; the 25 blocks tile the 50000 rows, so after the region the output array is the dense step of the
  arrays as the region found them.
-/
import proofs.«169994_j32255204393049_2_alg».proof.Proof.Gen.KernelIdeal.Frame
import proofs.«169994_j32255204393049_2_alg».proof.Proof.KernelPayloads
import Idealize.ShloMosaic.Lib.Pipeline.Value

set_option maxRecDepth 16384

noncomputable section

namespace Cert.KernelIdeal.Region0

open Cert.KernelIdeal Cert.KernelIdeal.Gen Cert.KernelIdeal.Payloads Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 points: the row-block windows move with the output, everything else stays at 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 24 :=
  (by decide +kernel : ∀ t : Fin grid0.N, _)

/-- Every block of rows is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- The whole-array dense step of the arrays as the region finds them. -/
abbrev G (c : Dev nD) : S50000x128.Idx → EReal :=
  denseStep (n := 50000) (C := 128) (V c main_v27) (V c main_v12) (V c main_v9) (V c main_arg2) (V c main_v28)

/-- What point t writes back is block t of the whole-array dense step. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S2000x1) hz, View.ld_unit_zero (S := S128x128) hz,
    View.ld_unit_zero (S := S1x128) hz]
  rw [pay0_eq]
  obtain ⟨e00, e01, e10, e11, e20, e21, e30, e31, e40, e41, e51, e5b⟩ := idx_facts t
  have e3 : (iblk0 V c 3 t : S128x128.Idx → EReal) = V c main_arg2 := by
    funext y
    show V c main_arg2 (((cfg0.win 3).blk t).view.emb y) = V c main_arg2 y
    refine congrArg (V c main_arg2) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have e4 : (iblk0 V c 4 t : S1x128.Idx → EReal) = V c main_v28 := by
    funext y
    show V c main_v28 (((cfg0.win 4).blk t).view.emb y) = V c main_v28 y
    refine congrArg (V c main_v28) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [e3, e4]
  funext j
  obtain ⟨p, q, rfl⟩ : ∃ (p : Fin 2000) (q : Fin 128), j = ix2 p q := ⟨j 0, j 1, eq_ix2 j⟩
  have hr : ∀ p : Fin 2000, win0_5.index t (0 : Fin 2) * 2000 + p.val < 50000 := fun p => by have := p.isLt; omega
  show denseStep (iblk0 V c 0 t) (iblk0 V c 1 t) (iblk0 V c 2 t) (V c main_arg2) (V c main_v28) (ix2 p q)
    = G V c (((cfg0.win 5).blk t).view.emb (ix2 p q))
  have hemb : ((cfg0.win 5).blk t).view.emb (ix2 p q)
      = ix2 (⟨win0_5.index t (0 : Fin 2) * 2000 + p.val, hr p⟩ : Fin 50000) q := by
    funext a; apply Fin.ext
    match a with
    | ⟨0, _⟩ => show win0_5.index t (0 : Fin 2) * 2000 + 1 * p.val = win0_5.index t (0 : Fin 2) * 2000 + p.val; omega
    | ⟨1, _⟩ => show win0_5.index t (1 : Fin 2) * 128 + 1 * q.val = q.val; omega
  rw [hemb]
  refine denseStep_rows (n := 50000) (B := 2000) (C := 128) (V c main_v27) (V c main_v12) (V c main_v9) (V c main_arg2) (V c main_v28)
    (iblk0 V c 0 t) (iblk0 V c 1 t) (iblk0 V c 2 t)
    (fun p => (⟨win0_5.index t (0 : Fin 2) * 2000 + p.val, hr p⟩ : Fin 50000)) ?_ ?_ ?_ p q
  · intro p k
    show V c main_v27 (((cfg0.win 0).blk t).view.emb (ix2 p k)) = _
    refine congrArg (V c main_v27) (funext fun a => Fin.ext ?_)
    match a with
    | ⟨0, _⟩ => show win0_0.index t (0 : Fin 2) * 2000 + 1 * p.val = win0_5.index t (0 : Fin 2) * 2000 + p.val; omega
    | ⟨1, _⟩ => show win0_0.index t (1 : Fin 2) * 128 + 1 * k.val = k.val; omega
  · intro p
    show V c main_v12 (((cfg0.win 1).blk t).view.emb (ix2 p 0)) = _
    refine congrArg (V c main_v12) (funext fun a => Fin.ext ?_)
    match a with
    | ⟨0, _⟩ => show win0_1.index t (0 : Fin 2) * 2000 + 1 * p.val = win0_5.index t (0 : Fin 2) * 2000 + p.val; omega
    | ⟨1, _⟩ => show win0_1.index t (1 : Fin 2) * 1 + 1 * 0 = 0; omega
  · intro p
    show V c main_v9 (((cfg0.win 2).blk t).view.emb (ix2 p 0)) = _
    refine congrArg (V c main_v9) (funext fun a => Fin.ext ?_)
    match a with
    | ⟨0, _⟩ => show win0_2.index t (0 : Fin 2) * 2000 + 1 * p.val = win0_5.index t (0 : Fin 2) * 2000 + p.val; omega
    | ⟨1, _⟩ => show win0_2.index t (1 : Fin 2) * 1 + 1 * 0 = 0; omega

/-- An index of the output array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v29).slice (win0_5.rect t)).set ↔ _
  rw [View.set_slice_whole, Rect.mem_set_unit]
  exact Iff.rfl

/-- The 25 blocks of rows cover the array. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- After the region the output array is the dense step of the arrays as the region found them. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.KernelRegion1.lean ====
/-
  Layer 1's dense step, from blocks of rows to the whole array.

  The grid has 25 points; point t works on rows 2000·t … 2000·t + 1999: it fetches that block of rows of the aggregate and
  of the two scale columns, the whole weight matrix and the whole bias row, and writes back that block of rows of the
  output. What it writes back is the dense step of the fetched blocks, which is that block of rows of the dense step of
  the whole arrays; the 25 blocks tile the 50000 rows, so after the region the output array is the dense step of the
  arrays as the region found them.
-/
import proofs.«169994_j32255204393049_2_alg».proof.Proof.Gen.KernelIdeal.Frame
import proofs.«169994_j32255204393049_2_alg».proof.Proof.KernelPayloads
import Idealize.ShloMosaic.Lib.Pipeline.Value

set_option maxRecDepth 16384

noncomputable section

namespace Cert.KernelIdeal.Region1

open Cert.KernelIdeal Cert.KernelIdeal.Gen Cert.KernelIdeal.Payloads Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 points: the row-block windows move with the output, everything else stays at 0. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 24 :=
  (by decide +kernel : ∀ t : Fin grid1.N, _)

/-- Every block of rows is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- The whole-array dense step of the arrays as the region finds them. -/
abbrev G (c : Dev nD) : S50000x128.Idx → EReal :=
  denseStep (n := 50000) (C := 128) (V c main_v42) (V c main_v12) (V c main_v9) (V c main_arg4) (V c main_v43)

/-- What point t writes back is block t of the whole-array dense step. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S128x128) hz,
    View.ld_unit_zero (S := S1x128) hz]
  rw [pay1_eq]
  obtain ⟨e00, e01, e10, e11, e20, e21, e30, e31, e40, e41, e51, e5b⟩ := idx_facts t
  have e3 : (iblk1 V c 3 t : S128x128.Idx → EReal) = V c main_arg4 := by
    funext y
    show V c main_arg4 (((cfg1.win 3).blk t).view.emb y) = V c main_arg4 y
    refine congrArg (V c main_arg4) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have e4 : (iblk1 V c 4 t : S1x128.Idx → EReal) = V c main_v43 := by
    funext y
    show V c main_v43 (((cfg1.win 4).blk t).view.emb y) = V c main_v43 y
    refine congrArg (V c main_v43) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  rw [e3, e4]
  funext j
  obtain ⟨p, q, rfl⟩ : ∃ (p : Fin 2000) (q : Fin 128), j = ix2 p q := ⟨j 0, j 1, eq_ix2 j⟩
  have hr : ∀ p : Fin 2000, win1_5.index t (0 : Fin 2) * 2000 + p.val < 50000 := fun p => by have := p.isLt; omega
  show denseStep (iblk1 V c 0 t) (iblk1 V c 1 t) (iblk1 V c 2 t) (V c main_arg4) (V c main_v43) (ix2 p q)
    = G V c (((cfg1.win 5).blk t).view.emb (ix2 p q))
  have hemb : ((cfg1.win 5).blk t).view.emb (ix2 p q)
      = ix2 (⟨win1_5.index t (0 : Fin 2) * 2000 + p.val, hr p⟩ : Fin 50000) q := by
    funext a; apply Fin.ext
    match a with
    | ⟨0, _⟩ => show win1_5.index t (0 : Fin 2) * 2000 + 1 * p.val = win1_5.index t (0 : Fin 2) * 2000 + p.val; omega
    | ⟨1, _⟩ => show win1_5.index t (1 : Fin 2) * 128 + 1 * q.val = q.val; omega
  rw [hemb]
  refine denseStep_rows (n := 50000) (B := 2000) (C := 128) (V c main_v42) (V c main_v12) (V c main_v9) (V c main_arg4) (V c main_v43)
    (iblk1 V c 0 t) (iblk1 V c 1 t) (iblk1 V c 2 t)
    (fun p => (⟨win1_5.index t (0 : Fin 2) * 2000 + p.val, hr p⟩ : Fin 50000)) ?_ ?_ ?_ p q
  · intro p k
    show V c main_v42 (((cfg1.win 0).blk t).view.emb (ix2 p k)) = _
    refine congrArg (V c main_v42) (funext fun a => Fin.ext ?_)
    match a with
    | ⟨0, _⟩ => show win1_0.index t (0 : Fin 2) * 2000 + 1 * p.val = win1_5.index t (0 : Fin 2) * 2000 + p.val; omega
    | ⟨1, _⟩ => show win1_0.index t (1 : Fin 2) * 128 + 1 * k.val = k.val; omega
  · intro p
    show V c main_v12 (((cfg1.win 1).blk t).view.emb (ix2 p 0)) = _
    refine congrArg (V c main_v12) (funext fun a => Fin.ext ?_)
    match a with
    | ⟨0, _⟩ => show win1_1.index t (0 : Fin 2) * 2000 + 1 * p.val = win1_5.index t (0 : Fin 2) * 2000 + p.val; omega
    | ⟨1, _⟩ => show win1_1.index t (1 : Fin 2) * 1 + 1 * 0 = 0; omega
  · intro p
    show V c main_v9 (((cfg1.win 2).blk t).view.emb (ix2 p 0)) = _
    refine congrArg (V c main_v9) (funext fun a => Fin.ext ?_)
    match a with
    | ⟨0, _⟩ => show win1_2.index t (0 : Fin 2) * 2000 + 1 * p.val = win1_5.index t (0 : Fin 2) * 2000 + p.val; omega
    | ⟨1, _⟩ => show win1_2.index t (1 : Fin 2) * 1 + 1 * 0 = 0; omega

/-- An index of the output array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v44).slice (win1_5.rect t)).set ↔ _
  rw [View.set_slice_whole, Rect.mem_set_unit]
  exact Iff.rfl

/-- The 25 blocks of rows cover the array. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- After the region the output array is the dense step of the arrays as the region found them. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.KernelRegion2.lean ====
/-
  The projection, from blocks of rows to the whole array.

  The grid has 10 points; point t works on rows 5000·t … 5000·t + 4999: it fetches that block of rows of the layer-1
  output and the whole 128 × 64 weight, and writes back that block of rows of their product. The 10 blocks tile the
  50000 rows, so after the region the output array is the product of the arrays as the region found them.
-/
import proofs.«169994_j32255204393049_2_alg».proof.Proof.Gen.KernelIdeal.Frame
import proofs.«169994_j32255204393049_2_alg».proof.Proof.KernelPayloads
import Idealize.ShloMosaic.Lib.Pipeline.Value

set_option maxRecDepth 16384

noncomputable section

namespace Cert.KernelIdeal.Region2

open Cert.KernelIdeal Cert.KernelIdeal.Gen Cert.KernelIdeal.Payloads Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

theorem idx_onto : ∀ q0 : Fin 10, ∃ t : Fin cfg2.N, win2_2.index t = ![q0.val, 0] :=
  (by decide +kernel : ∀ q0 : Fin 10, ∃ t : Fin grid2.N, win2_2.index t = ![q0.val, 0])

/-- The whole-array product of the arrays as the region finds them. -/
abbrev G (c : Dev nD) : S50000x64.Idx → EReal :=
  project (n := 50000) (C := 64) (V c main_v44) (V c main_arg6)

theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  rw [pay2_eq]
  obtain ⟨e00, e01, e10, e11, e21, e2b⟩ := idx_facts t
  have e1 : (iblk2 V c 1 t : S128x64.Idx → EReal) = V c main_arg6 := by
    funext y
    show V c main_arg6 (((cfg2.win 1).blk t).view.emb y) = V c main_arg6 y
    refine congrArg (V c main_arg6) (funext fun a => Fin.ext ?_)
    match a with
    | ⟨0, _⟩ => show win2_1.index t (0 : Fin 2) * 128 + 1 * (y 0).val = (y 0).val; omega
    | ⟨1, _⟩ => show win2_1.index t (1 : Fin 2) * 64 + 1 * (y 1).val = (y 1).val; omega
  rw [e1]
  funext j
  obtain ⟨p, q, rfl⟩ : ∃ (p : Fin 5000) (q : Fin 64), j = ix2 p q := ⟨j 0, j 1, eq_ix2 j⟩
  have hr : ∀ p : Fin 5000, win2_2.index t (0 : Fin 2) * 5000 + p.val < 50000 := fun p => by have := p.isLt; omega
  show project (iblk2 V c 0 t) (V c main_arg6) (ix2 p q) = G V c (((cfg2.win 2).blk t).view.emb (ix2 p q))
  have hemb : ((cfg2.win 2).blk t).view.emb (ix2 p q)
      = ix2 (⟨win2_2.index t (0 : Fin 2) * 5000 + p.val, hr p⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 64 + 1 * q.val = q.val; omega
  rw [hemb]
  refine project_rows (n := 50000) (B := 5000) (C := 64) (V c main_v44) (V c main_arg6) (iblk2 V c 0 t)
    (fun p => (⟨win2_2.index t (0 : Fin 2) * 5000 + p.val, hr p⟩ : Fin 50000)) ?_ p q
  intro p k
  show V c main_v44 (((cfg2.win 0).blk t).view.emb (ix2 p k)) = _
  refine congrArg (V c main_v44) (funext fun a => Fin.ext ?_)
  match a with
  | ⟨0, _⟩ => show win2_0.index t (0 : Fin 2) * 5000 + 1 * p.val = win2_2.index t (0 : Fin 2) * 5000 + p.val; omega
  | ⟨1, _⟩ => show win2_0.index t (1 : Fin 2) * 128 + 1 * k.val = k.val; omega

theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v45).slice (win2_2.rect t)).set ↔ _
  rw [View.set_slice_whole, Rect.mem_set_unit]
  exact Iff.rfl

theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- After the region the output array is the product of the arrays as the region found them. -/
theorem final (c : Dev nD) : (dat2 V c).arrAt 2 cfg2.N = G V c :=
  (dat2 V c).arrAt_eq_of_cover 2 (G V c) (fun t _ => flushed_eq V c t) (cover)

end Cert.KernelIdeal.Region2

end
-- ==== Proof.KernelRegion3.lean ====
/-
  The final step, from blocks of rows to the whole array.

  The grid has 10 points; point t works on rows 5000·t … 5000·t + 4999: it fetches that block of rows of the last
  aggregate and of the destination scale column, and the whole bias row, and writes back that block of rows of the
  row-wise log-softmax. The 10 blocks tile the 50000 rows, so after the region the output array is the final step of the
  arrays as the region found them.
-/
import proofs.«169994_j32255204393049_2_alg».proof.Proof.Gen.KernelIdeal.Frame
import proofs.«169994_j32255204393049_2_alg».proof.Proof.KernelPayloads
import Idealize.ShloMosaic.Lib.Pipeline.Value

set_option maxRecDepth 16384

noncomputable section

namespace Cert.KernelIdeal.Region3

open Cert.KernelIdeal Cert.KernelIdeal.Gen Cert.KernelIdeal.Payloads Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

theorem idx_onto : ∀ q0 : Fin 10, ∃ t : Fin cfg3.N, win3_3.index t = ![q0.val, 0] :=
  (by decide +kernel : ∀ q0 : Fin 10, ∃ t : Fin grid3.N, win3_3.index t = ![q0.val, 0])

/-- The whole-array final step of the arrays as the region finds them. -/
abbrev G (c : Dev nD) : S50000x64.Idx → EReal :=
  finalStep (n := 50000) (C := 64) (V c main_v58) (V c main_v12) (V c main_v59)

theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  rw [pay3_eq]
  obtain ⟨e00, e01, e10, e11, e20, e21, e31, e3b⟩ := idx_facts t
  have e2 : (iblk3 V c 2 t : S1x64.Idx → EReal) = V c main_v59 := by
    funext y
    show V c main_v59 (((cfg3.win 2).blk t).view.emb y) = V c main_v59 y
    refine congrArg (V c main_v59) (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega
  rw [e2]
  funext j
  obtain ⟨p, q, rfl⟩ : ∃ (p : Fin 5000) (q : Fin 64), j = ix2 p q := ⟨j 0, j 1, eq_ix2 j⟩
  have hr : ∀ p : Fin 5000, win3_3.index t (0 : Fin 2) * 5000 + p.val < 50000 := fun p => by have := p.isLt; omega
  show finalStep (iblk3 V c 0 t) (iblk3 V c 1 t) (V c main_v59) (ix2 p q) = G V c (((cfg3.win 3).blk t).view.emb (ix2 p q))
  have hemb : ((cfg3.win 3).blk t).view.emb (ix2 p q)
      = ix2 (⟨win3_3.index t (0 : Fin 2) * 5000 + p.val, hr p⟩ : Fin 50000) q := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 64 + 1 * q.val = q.val; omega
  rw [hemb]
  refine finalStep_rows (n := 50000) (B := 5000) (C := 64) (V c main_v58) (V c main_v12) (V c main_v59)
    (iblk3 V c 0 t) (iblk3 V c 1 t)
    (fun p => (⟨win3_3.index t (0 : Fin 2) * 5000 + p.val, hr p⟩ : Fin 50000)) ?_ ?_ p q
  · intro p k
    show V c main_v58 (((cfg3.win 0).blk t).view.emb (ix2 p k)) = _
    refine congrArg (V c main_v58) (funext fun a => Fin.ext ?_)
    match a with
    | ⟨0, _⟩ => show win3_0.index t (0 : Fin 2) * 5000 + 1 * p.val = win3_3.index t (0 : Fin 2) * 5000 + p.val; omega
    | ⟨1, _⟩ => show win3_0.index t (1 : Fin 2) * 64 + 1 * k.val = k.val; omega
  · intro p
    show V c main_v12 (((cfg3.win 1).blk t).view.emb (ix2 p 0)) = _
    refine congrArg (V c main_v12) (funext fun a => Fin.ext ?_)
    match a with
    | ⟨0, _⟩ => show win3_1.index t (0 : Fin 2) * 5000 + 1 * p.val = win3_3.index t (0 : Fin 2) * 5000 + p.val; omega
    | ⟨1, _⟩ => show win3_1.index t (1 : Fin 2) * 1 + 1 * 0 = 0; omega

theorem mem_blk (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v60).slice (win3_3.rect t)).set ↔ _
  rw [View.set_slice_whole, Rect.mem_set_unit]
  exact Iff.rfl

theorem cover (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 64 ≤ (i 1).val ∧ (i 1).val < win3_3.index t (1 : Fin 2) * 64 + 64
    omega

/-- After the region the output array is the final step of the arrays as the region found them. -/
theorem final (c : Dev nD) : (dat3 V c).arrAt 3 cfg3.N = G V c :=
  (dat3 V c).arrAt_eq_of_cover 3 (G V c) (fun t _ => flushed_eq V c t) (cover)

end Cert.KernelIdeal.Region3

end
-- ==== Proof.KernelFold.lean ====
/-
  What the idealized kernel's result is, as one function of the argument arrays.

  The buffer contents at each segment boundary are the fold W0 … W11 of the generated frame module. Each pallas_call
  leaves in its output array the step of the specification applied to what it found (the blocks-to-array modules) and
  leaves its input arrays as it found them; the stretches of host operations between the calls are read in the host
  module. Chained: the result buffer holds the final step of the aggregate of the projection of the second dense step of
  the aggregate of the first dense step of the aggregate of the scaled input; argument arrays and the scale columns pass
  through every later segment unchanged.
-/
import proofs.«169994_j32255204393049_2_alg».proof.Proof.Gen.KernelIdeal.Frame
import proofs.«169994_j32255204393049_2_alg».proof.Proof.KernelFoldHost
import proofs.«169994_j32255204393049_2_alg».proof.Proof.KernelRegion0
import proofs.«169994_j32255204393049_2_alg».proof.Proof.KernelRegion1
import proofs.«169994_j32255204393049_2_alg».proof.Proof.KernelRegion2
import proofs.«169994_j32255204393049_2_alg».proof.Proof.KernelRegion3

set_option maxRecDepth 16384

noncomputable section

namespace Cert.KernelIdeal.Fold

open Cert.KernelIdeal Cert.KernelIdeal.Gen Cert.KernelIdeal.FoldHost Cert.KernelStages Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first call -/

/-- The first call's output: the dense step of what it found. -/
theorem w6_v29 (c : Dev nD) : W6 m ρ c (Proc.devRef .tc main_v29)
    = denseStep (n := 50000) (C := 128) (aggregate128 (F := Ideal) (scaledInput (F := Ideal) (m ((c : Thread nD τ).loc main_arg0)) (m ((c : Thread nD τ).loc main_arg8))) (m ((c : Thread nD τ).loc main_arg1)) (m ((c : Thread nD τ).loc main_arg8)) (m ((c : Thread nD τ).loc main_arg9)))
        (scaleCol (F := Ideal) (m ((c : Thread nD τ).loc main_arg9))) (scaleCol (F := Ideal) (m ((c : Thread nD τ).loc main_arg8))) (m ((c : Thread nD τ).loc main_arg2)) (shapeCast S1x128 (m ((c : Thread nD τ).loc main_arg3)) shapeCasts_S128_S1x128) := by
  refine (W6_arr m ρ c 5).trans ((Region0.final (V5 m ρ) c).trans ?_)
  show denseStep (n := 50000) (C := 128) (W5 m ρ c (Proc.devRef .tc main_v27)) (W5 m ρ c (Proc.devRef .tc main_v12)) (W5 m ρ c (Proc.devRef .tc main_v9)) (W5 m ρ c (Proc.devRef .tc main_arg2)) (W5 m ρ c (Proc.devRef .tc main_v28)) = _
  rw [w5_v27, w5_v12, w5_v9, w5_arg2, w5_v28]
/-- It leaves the scale columns as it found them. -/
theorem w6_v12 (c : Dev nD) : W6 m ρ c (Proc.devRef .tc main_v12) = scaleCol (F := Ideal) (m ((c : Thread nD τ).loc main_arg9)) :=
  ((W6_arr m ρ c 1).trans (((dat0 (V5 m ρ) c).arrAt_in 1 rfl _).trans (A_eq0 (V5 m ρ) c 1))).trans (w5_v12 m ρ c)
theorem w6_v9 (c : Dev nD) : W6 m ρ c (Proc.devRef .tc main_v9) = scaleCol (F := Ideal) (m ((c : Thread nD τ).loc main_arg8)) :=
  ((W6_arr m ρ c 2).trans (((dat0 (V5 m ρ) c).arrAt_in 2 rfl _).trans (A_eq0 (V5 m ρ) c 2))).trans (w5_v9 m ρ c)
theorem w6_arg1 (c : Dev nD) : W6 m ρ c (Proc.devRef .tc main_arg1) = (m ((c : Thread nD τ).loc main_arg1)) :=
  (W6_of_ne m ρ c main_arg1 (by decide)).trans (w5_arg1 m ρ c)
theorem w6_arg4 (c : Dev nD) : W6 m ρ c (Proc.devRef .tc main_arg4) = (m ((c : Thread nD τ).loc main_arg4)) :=
  (W6_of_ne m ρ c main_arg4 (by decide)).trans (w5_arg4 m ρ c)
theorem w6_arg5 (c : Dev nD) : W6 m ρ c (Proc.devRef .tc main_arg5) = (m ((c : Thread nD τ).loc main_arg5)) :=
  (W6_of_ne m ρ c main_arg5 (by decide)).trans (w5_arg5 m ρ c)
theorem w6_arg6 (c : Dev nD) : W6 m ρ c (Proc.devRef .tc main_arg6) = (m ((c : Thread nD τ).loc main_arg6)) :=
  (W6_of_ne m ρ c main_arg6 (by decide)).trans (w5_arg6 m ρ c)
theorem w6_arg7 (c : Dev nD) : W6 m ρ c (Proc.devRef .tc main_arg7) = (m ((c : Thread nD τ).loc main_arg7)) :=
  (W6_of_ne m ρ c main_arg7 (by decide)).trans (w5_arg7 m ρ c)
theorem w6_arg8 (c : Dev nD) : W6 m ρ c (Proc.devRef .tc main_arg8) = (m ((c : Thread nD τ).loc main_arg8)) :=
  (W6_of_ne m ρ c main_arg8 (by decide)).trans (w5_arg8 m ρ c)
theorem w6_arg9 (c : Dev nD) : W6 m ρ c (Proc.devRef .tc main_arg9) = (m ((c : Thread nD τ).loc main_arg9)) :=
  (W6_of_ne m ρ c main_arg9 (by decide)).trans (w5_arg9 m ρ c)

/-! ## After the second call -/

theorem w8_v44 (c : Dev nD) : W8 m ρ c (Proc.devRef .tc main_v44)
    = denseStep (n := 50000) (C := 128) (W7 m ρ c (Proc.devRef .tc main_v42)) (W7 m ρ c (Proc.devRef .tc main_v12)) (W7 m ρ c (Proc.devRef .tc main_v9)) (W7 m ρ c (Proc.devRef .tc main_arg4)) (W7 m ρ c (Proc.devRef .tc main_v43)) :=
  (W8_arr m ρ c 5).trans (Region1.final (V7 m ρ) c)
theorem w8_v12 (c : Dev nD) : W8 m ρ c (Proc.devRef .tc main_v12) = W7 m ρ c (Proc.devRef .tc main_v12) :=
  (W8_arr m ρ c 1).trans (((dat1 (V7 m ρ) c).arrAt_in 1 rfl _).trans (A_eq1 (V7 m ρ) c 1))
theorem w8_arg1 (c : Dev nD) : W8 m ρ c (Proc.devRef .tc main_arg1) = W7 m ρ c (Proc.devRef .tc main_arg1) :=
  W8_of_ne m ρ c main_arg1 (by decide)
theorem w8_arg6 (c : Dev nD) : W8 m ρ c (Proc.devRef .tc main_arg6) = W7 m ρ c (Proc.devRef .tc main_arg6) :=
  W8_of_ne m ρ c main_arg6 (by decide)
theorem w8_arg7 (c : Dev nD) : W8 m ρ c (Proc.devRef .tc main_arg7) = W7 m ρ c (Proc.devRef .tc main_arg7) :=
  W8_of_ne m ρ c main_arg7 (by decide)
theorem w8_arg8 (c : Dev nD) : W8 m ρ c (Proc.devRef .tc main_arg8) = W7 m ρ c (Proc.devRef .tc main_arg8) :=
  W8_of_ne m ρ c main_arg8 (by decide)
theorem w8_arg9 (c : Dev nD) : W8 m ρ c (Proc.devRef .tc main_arg9) = W7 m ρ c (Proc.devRef .tc main_arg9) :=
  W8_of_ne m ρ c main_arg9 (by decide)

/-! ## After the third call -/

theorem w9_v45 (c : Dev nD) : W9 m ρ c (Proc.devRef .tc main_v45)
    = project (n := 50000) (C := 64) (W8 m ρ c (Proc.devRef .tc main_v44)) (W8 m ρ c (Proc.devRef .tc main_arg6)) :=
  (W9_arr m ρ c 2).trans (Region2.final (V8 m ρ) c)
theorem w9_keep_main_v12 (c : Dev nD) : W9 m ρ c (Proc.devRef .tc main_v12) = W8 m ρ c (Proc.devRef .tc main_v12) :=
  W9_of_ne m ρ c main_v12 (by decide)
theorem w9_keep_main_arg1 (c : Dev nD) : W9 m ρ c (Proc.devRef .tc main_arg1) = W8 m ρ c (Proc.devRef .tc main_arg1) :=
  W9_of_ne m ρ c main_arg1 (by decide)
theorem w9_keep_main_arg7 (c : Dev nD) : W9 m ρ c (Proc.devRef .tc main_arg7) = W8 m ρ c (Proc.devRef .tc main_arg7) :=
  W9_of_ne m ρ c main_arg7 (by decide)
theorem w9_keep_main_arg8 (c : Dev nD) : W9 m ρ c (Proc.devRef .tc main_arg8) = W8 m ρ c (Proc.devRef .tc main_arg8) :=
  W9_of_ne m ρ c main_arg8 (by decide)
theorem w9_keep_main_arg9 (c : Dev nD) : W9 m ρ c (Proc.devRef .tc main_arg9) = W8 m ρ c (Proc.devRef .tc main_arg9) :=
  W9_of_ne m ρ c main_arg9 (by decide)

/-! ## The result -/

theorem w11_v60 (c : Dev nD) : W11 m ρ c (Proc.devRef .tc main_v60)
    = finalStep (n := 50000) (C := 64) (W10 m ρ c (Proc.devRef .tc main_v58)) (W10 m ρ c (Proc.devRef .tc main_v12)) (W10 m ρ c (Proc.devRef .tc main_v59)) :=
  (W11_arr m ρ c 3).trans (Region3.final (V10 m ρ) c)

/-- The scale columns and the arguments, as each later boundary holds them. -/
theorem nd_at_w10 (c : Dev nD) : W10 m ρ c (Proc.devRef .tc main_v12) = scaleCol (F := Ideal) (m ((c : Thread nD τ).loc main_arg9)) :=
  (w10_keep_main_v12 m ρ c).trans ((w9_keep_main_v12 m ρ c).trans ((w8_v12 m ρ c).trans ((w7_keep_main_v12 m ρ c).trans (w6_v12 m ρ c))))
theorem w9_arg1 (c : Dev nD) : W9 m ρ c (Proc.devRef .tc main_arg1) = (m ((c : Thread nD τ).loc main_arg1)) :=
  (w9_keep_main_arg1 m ρ c).trans ((w8_arg1 m ρ c).trans ((w7_keep_main_arg1 m ρ c).trans (w6_arg1 m ρ c)))
theorem w9_arg7 (c : Dev nD) : W9 m ρ c (Proc.devRef .tc main_arg7) = (m ((c : Thread nD τ).loc main_arg7)) :=
  (w9_keep_main_arg7 m ρ c).trans ((w8_arg7 m ρ c).trans ((w7_keep_main_arg7 m ρ c).trans (w6_arg7 m ρ c)))
theorem w9_arg8 (c : Dev nD) : W9 m ρ c (Proc.devRef .tc main_arg8) = (m ((c : Thread nD τ).loc main_arg8)) :=
  (w9_keep_main_arg8 m ρ c).trans ((w8_arg8 m ρ c).trans ((w7_keep_main_arg8 m ρ c).trans (w6_arg8 m ρ c)))
theorem w9_arg9 (c : Dev nD) : W9 m ρ c (Proc.devRef .tc main_arg9) = (m ((c : Thread nD τ).loc main_arg9)) :=
  (w9_keep_main_arg9 m ρ c).trans ((w8_arg9 m ρ c).trans ((w7_keep_main_arg9 m ρ c).trans (w6_arg9 m ρ c)))
theorem w8_arg6' (c : Dev nD) : W8 m ρ c (Proc.devRef .tc main_arg6) = (m ((c : Thread nD τ).loc main_arg6)) :=
  (w8_arg6 m ρ c).trans ((w7_keep_main_arg6 m ρ c).trans (w6_arg6 m ρ c))

/-- The first dense step's output. -/
abbrev H0 (c : Dev nD) : S50000x128.Idx → EReal :=
  denseStep (n := 50000) (C := 128) (aggregate128 (F := Ideal) (scaledInput (F := Ideal) (m ((c : Thread nD τ).loc main_arg0)) (m ((c : Thread nD τ).loc main_arg8))) (m ((c : Thread nD τ).loc main_arg1)) (m ((c : Thread nD τ).loc main_arg8)) (m ((c : Thread nD τ).loc main_arg9)))
    (scaleCol (F := Ideal) (m ((c : Thread nD τ).loc main_arg9))) (scaleCol (F := Ideal) (m ((c : Thread nD τ).loc main_arg8))) (m ((c : Thread nD τ).loc main_arg2)) (shapeCast S1x128 (m ((c : Thread nD τ).loc main_arg3)) shapeCasts_S128_S1x128)
/-- The second dense step's output. -/
abbrev H1 (c : Dev nD) : S50000x128.Idx → EReal :=
  denseStep (n := 50000) (C := 128) (aggregate128 (F := Ideal) (H0 m c) (m ((c : Thread nD τ).loc main_arg1)) (m ((c : Thread nD τ).loc main_arg8)) (m ((c : Thread nD τ).loc main_arg9)))
    (scaleCol (F := Ideal) (m ((c : Thread nD τ).loc main_arg9))) (scaleCol (F := Ideal) (m ((c : Thread nD τ).loc main_arg8))) (m ((c : Thread nD τ).loc main_arg4)) (shapeCast S1x128 (m ((c : Thread nD τ).loc main_arg5)) shapeCasts_S128_S1x128)

theorem w8_v44' (c : Dev nD) : W8 m ρ c (Proc.devRef .tc main_v44) = H1 m c := by
  rw [w8_v44, w7_v42, w7_v43, w7_keep_main_v12, w7_keep_main_v9, w7_keep_main_arg4, w6_v29, w6_v12, w6_v9, w6_arg1, w6_arg4, w6_arg5,
    w6_arg8, w6_arg9]

/-- THE RESULT: the final step of the aggregate of the projection of the second dense step. -/
theorem result (c : Dev nD) : W11 m ρ c (Proc.devRef .tc main_v60)
    = finalStep (n := 50000) (C := 64)
        (aggregate64 (F := Ideal) (project (n := 50000) (C := 64) (H1 m c) (m ((c : Thread nD τ).loc main_arg6))) (m ((c : Thread nD τ).loc main_arg1)) (m ((c : Thread nD τ).loc main_arg8)) (m ((c : Thread nD τ).loc main_arg9)))
        (scaleCol (F := Ideal) (m ((c : Thread nD τ).loc main_arg9))) (shapeCast S1x64 (m ((c : Thread nD τ).loc main_arg7)) shapeCasts_S64_S1x64) := by
  rw [w11_v60, w10_v58, w10_v59, nd_at_w10, w9_v45, w9_arg1, w9_arg7, w9_arg8, w9_arg9, w8_v44', w8_arg6']

end Cert.KernelIdeal.Fold

end
-- ==== Proof.RefRunPieces.lean ====
/-
  The idealized reference's run, read back in six pieces.

  @main is a straight line of 115 host operations. Every weakly fair execution terminates with each buffer at the fold of
  the operations' results over the launch memory. The line is cut after the two scale columns, after the first layer,
  after the second layer, before the log-softmax, and inside it after the row is shifted by its maximum; over ANY starting contents each piece leaves, in the buffer the next piece reads, the
  staged value of the generated read-back module (val_main_v9 / v12, v36, v58, v77, the shifted row, and finally the result v78) of the
  argument arrays, and leaves the argument arrays and the scale columns alone. Chaining the six pieces gives the run
  with the result at val_main_v78 of the arguments.
-/
import proofs.«169994_j32255204393049_2_alg».proof.Proof.RefRunP
import proofs.«169994_j32255204393049_2_alg».proof.Proof.RefReadP

set_option maxRecDepth 16384

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running two lines one after the other is running their concatenation. -/
theorem after_append (l1 l2 : List (HloOp τ sig (Elt F))) (V : Valuation τ sig (Elt F)) :
    after (l1 ++ l2) V = after l2 (after l1 V) := by
  induction l1 generalizing V with
  | nil => rfl
  | cons op l ih => exact ih _

/-- Contents carried to a typed reference's buffer type and back are unchanged. -/
theorem ofBuf_toBuf {T : BufTy} (x : TRef sig T) (v : T.Contents (Elt F)) : x.ofBuf (x.toBuf v) = v := by
  obtain ⟨r, rfl, h2, h3⟩ := x
  rfl

/-- The two transports at the ends of the log-softmax's first half are identities (the buffers' types are the values'). -/
theorem ofBuf_v77 (y : (⟨S50000x64, .f32⟩ : BufTy).Contents (Elt F)) :
    (TRef.of (sig := sig) (T := ⟨S50000x64, .f32⟩) main_v77).ofBuf y = y := rfl
theorem toBuf_call4_v5 (v : (⟨S50000x64, .f32⟩ : BufTy).Contents (Elt F)) :
    (TRef.of (sig := sig) (T := ⟨S50000x64, .f32⟩) main_call4_v5).toBuf v = v := rfl

/-! ## The pieces (the generated list's entries, in order) -/

/-- The degrees and the two scale columns. -/
abbrev opsA : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg8 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg9 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v3) (TRef.of (T := ⟨S50000, .f32⟩) main_v7) maximumf,
    unary main_v7 main_v8 (Host.rsqrt : (⟨S50000, .f32⟩ : BufTy).Contents (Elt F) → (⟨S50000, .f32⟩ : BufTy).Contents (Elt F)),
    unary main_v8 main_v9 (broadcastInDim S50000x1 ![0] bcast_S50000_S50000x1_0 : (⟨S50000, .f32⟩ : BufTy).Contents (Elt F) → (⟨S50000x1, .f32⟩ : BufTy).Contents (Elt F)),
    nullary main_cst_3 (constant S_ .f32 0x3F800000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_v6) (TRef.of (T := ⟨S50000, .f32⟩) main_v10) maximumf,
    unary main_v10 main_v11 (Host.rsqrt : (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)) ]

/-- The first layer, up to its scaled output. -/
abbrev opsB : List (HloOp τ sig (Elt F)) :=
  [ unary main_v9 main_v13 (broadcastInDim S50000x128 ![0, 1] bcast_S50000x1_S50000x128_0_1 : (⟨S50000x1, .f32⟩ : BufTy).Contents (Elt F) → (⟨S50000x128, .f32⟩ : BufTy).Contents (Elt F)),
    binary main_arg0 main_v13 main_v14 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v15 (broadcastInDim S800000 ![] bcast_S_S800000 : (⟨S_, .i32⟩ : BufTy).Contents (Elt F) → (⟨S800000, .i32⟩ : BufTy).Contents (Elt F)),
    binary main_arg8 main_v15 main_v16 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v17 (broadcastInDim S800000 ![] bcast_S_S800000 : (⟨S_, .i32⟩ : BufTy).Contents (Elt F) → (⟨S800000, .i32⟩ : BufTy).Contents (Elt F)),
    binary main_arg8 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_arg8 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v14 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg1 main_v22 (broadcastInDim S800000x1 ![0] bcast_S800000_S800000x1_0 : (⟨S800000, .f32⟩ : BufTy).Contents (Elt F) → (⟨S800000x1, .f32⟩ : BufTy).Contents (Elt F)),
    unary main_v22 main_v23 (broadcastInDim S800000x128 ![0, 1] bcast_S800000x1_S800000x128_0_1 : (⟨S800000x1, .f32⟩ : BufTy).Contents (Elt F) → (⟨S800000x128, .f32⟩ : BufTy).Contents (Elt F)),
    binary main_v21 main_v23 main_v24 (mulf : (⟨S800000x128, .f32⟩ : BufTy).Contents (Elt F) → (⟨S800000x128, .f32⟩ : BufTy).Contents (Elt F) → (⟨S800000x128, .f32⟩ : BufTy).Contents (Elt F)),
    nullary main_cst_5 (constant S_ .f32 0x00000000#32),
    unary main_cst_5 main_v25 (broadcastInDim S50000x128 ![] bcast_S_S50000x128 : (⟨S_, .f32⟩ : BufTy).Contents (Elt F) → (⟨S50000x128, .f32⟩ : BufTy).Contents (Elt F)),
    unary main_arg9 main_v26 (broadcastInDim S800000x1 ![0] bcast_S800000_S800000x1_0 : (⟨S800000, .i32⟩ : BufTy).Contents (Elt F) → (⟨S800000x1, .i32⟩ : BufTy).Contents (Elt F)),
    ternary main_v25 main_v26 main_v24 main_v27 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v28 (broadcastInDim S50000x128 ![0, 1] bcast_S50000x1_S50000x128_0_1 : (⟨S50000x1, .f32⟩ : BufTy).Contents (Elt F) → (⟨S50000x128, .f32⟩ : BufTy).Contents (Elt F)),
    binary main_v27 main_v28 main_v29 (mulf : (⟨S50000x128, .f32⟩ : BufTy).Contents (Elt F) → (⟨S50000x128, .f32⟩ : BufTy).Contents (Elt F) → (⟨S50000x128, .f32⟩ : BufTy).Contents (Elt F)),
    binary main_v29 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v33) (TRef.of (T := ⟨S50000x128, .f32⟩) main_call2_v0) (TRef.of (T := ⟨S50000x128, .f32⟩) main_v34) maximumf,
    unary main_v9 main_v35 (broadcastInDim S50000x128 ![0, 1] bcast_S50000x1_S50000x128_0_1 : (⟨S50000x1, .f32⟩ : BufTy).Contents (Elt F) → (⟨S50000x128, .f32⟩ : BufTy).Contents (Elt F)),
    binary main_v34 main_v35 main_v36 (mulf : (⟨S50000x128, .f32⟩ : BufTy).Contents (Elt F) → (⟨S50000x128, .f32⟩ : BufTy).Contents (Elt F) → (⟨S50000x128, .f32⟩ : BufTy).Contents (Elt F)) ]

/-- The second layer, up to its scaled output. -/
abbrev opsC : List (HloOp τ sig (Elt F)) :=
  [ nullary main_c_6 (constantI S_ 32 0#32),
    unary main_c_6 main_v37 (broadcastInDim S800000 ![] bcast_S_S800000 : (⟨S_, .i32⟩ : BufTy).Contents (Elt F) → (⟨S800000, .i32⟩ : BufTy).Contents (Elt F)),
    binary main_arg8 main_v37 main_v38 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v39 (broadcastInDim S800000 ![] bcast_S_S800000 : (⟨S_, .i32⟩ : BufTy).Contents (Elt F) → (⟨S800000, .i32⟩ : BufTy).Contents (Elt F)),
    binary main_arg8 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_arg8 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v36 main_v42 main_v43 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg1 main_v44 (broadcastInDim S800000x1 ![0] bcast_S800000_S800000x1_0 : (⟨S800000, .f32⟩ : BufTy).Contents (Elt F) → (⟨S800000x1, .f32⟩ : BufTy).Contents (Elt F)),
    unary main_v44 main_v45 (broadcastInDim S800000x128 ![0, 1] bcast_S800000x1_S800000x128_0_1 : (⟨S800000x1, .f32⟩ : BufTy).Contents (Elt F) → (⟨S800000x128, .f32⟩ : BufTy).Contents (Elt F)),
    binary main_v43 main_v45 main_v46 (mulf : (⟨S800000x128, .f32⟩ : BufTy).Contents (Elt F) → (⟨S800000x128, .f32⟩ : BufTy).Contents (Elt F) → (⟨S800000x128, .f32⟩ : BufTy).Contents (Elt F)),
    nullary main_cst_8 (constant S_ .f32 0x00000000#32),
    unary main_cst_8 main_v47 (broadcastInDim S50000x128 ![] bcast_S_S50000x128 : (⟨S_, .f32⟩ : BufTy).Contents (Elt F) → (⟨S50000x128, .f32⟩ : BufTy).Contents (Elt F)),
    unary main_arg9 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v50 (broadcastInDim S50000x128 ![0, 1] bcast_S50000x1_S50000x128_0_1 : (⟨S50000x1, .f32⟩ : BufTy).Contents (Elt F) → (⟨S50000x128, .f32⟩ : BufTy).Contents (Elt F)),
    binary main_v49 main_v50 main_v51 (mulf : (⟨S50000x128, .f32⟩ : BufTy).Contents (Elt F) → (⟨S50000x128, .f32⟩ : BufTy).Contents (Elt F) → (⟨S50000x128, .f32⟩ : BufTy).Contents (Elt F)),
    binary main_v51 main_arg4 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v52 main_v54 main_v55 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v55) (TRef.of (T := ⟨S50000x128, .f32⟩) main_call3_v0) (TRef.of (T := ⟨S50000x128, .f32⟩) main_v56) maximumf,
    unary main_v9 main_v57 (broadcastInDim S50000x128 ![0, 1] bcast_S50000x1_S50000x128_0_1 : (⟨S50000x1, .f32⟩ : BufTy).Contents (Elt F) → (⟨S50000x128, .f32⟩ : BufTy).Contents (Elt F)),
    binary main_v56 main_v57 main_v58 (mulf : (⟨S50000x128, .f32⟩ : BufTy).Contents (Elt F) → (⟨S50000x128, .f32⟩ : BufTy).Contents (Elt F) → (⟨S50000x128, .f32⟩ : BufTy).Contents (Elt F)) ]

/-- The third layer, up to the row the log-softmax normalises. -/
abbrev opsD : List (HloOp τ sig (Elt F)) :=
  [ nullary main_c_9 (constantI S_ 32 0#32),
    unary main_c_9 main_v59 (broadcastInDim S800000 ![] bcast_S_S800000 : (⟨S_, .i32⟩ : BufTy).Contents (Elt F) → (⟨S800000, .i32⟩ : BufTy).Contents (Elt F)),
    binary main_arg8 main_v59 main_v60 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v61 (broadcastInDim S800000 ![] bcast_S_S800000 : (⟨S_, .i32⟩ : BufTy).Contents (Elt F) → (⟨S800000, .i32⟩ : BufTy).Contents (Elt F)),
    binary main_arg8 main_v61 main_v62 (addi : (⟨S800000, .i32⟩ : BufTy).Contents (Elt F) → (⟨S800000, .i32⟩ : BufTy).Contents (Elt F) → (⟨S800000, .i32⟩ : BufTy).Contents (Elt F)),
    ternary main_v60 main_v62 main_arg8 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v63 main_v64 (broadcastInDim S800000x1 ![0] bcast_S800000_S800000x1_0 : (⟨S800000, .i32⟩ : BufTy).Contents (Elt F) → (⟨S800000x1, .i32⟩ : BufTy).Contents (Elt F)),
    binary main_v58 main_v64 main_v65 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg1 main_v66 (broadcastInDim S800000x1 ![0] bcast_S800000_S800000x1_0 : (⟨S800000, .f32⟩ : BufTy).Contents (Elt F) → (⟨S800000x1, .f32⟩ : BufTy).Contents (Elt F)),
    unary main_v66 main_v67 (broadcastInDim S800000x128 ![0, 1] bcast_S800000x1_S800000x128_0_1 : (⟨S800000x1, .f32⟩ : BufTy).Contents (Elt F) → (⟨S800000x128, .f32⟩ : BufTy).Contents (Elt F)),
    binary main_v65 main_v67 main_v68 (mulf : (⟨S800000x128, .f32⟩ : BufTy).Contents (Elt F) → (⟨S800000x128, .f32⟩ : BufTy).Contents (Elt F) → (⟨S800000x128, .f32⟩ : BufTy).Contents (Elt F)),
    nullary main_cst_11 (constant S_ .f32 0x00000000#32),
    unary main_cst_11 main_v69 (broadcastInDim S50000x128 ![] bcast_S_S50000x128 : (⟨S_, .f32⟩ : BufTy).Contents (Elt F) → (⟨S50000x128, .f32⟩ : BufTy).Contents (Elt F)),
    unary main_arg9 main_v70 (broadcastInDim S800000x1 ![0] bcast_S800000_S800000x1_0 : (⟨S800000, .i32⟩ : BufTy).Contents (Elt F) → (⟨S800000x1, .i32⟩ : BufTy).Contents (Elt F)),
    ternary main_v69 main_v70 main_v68 main_v71 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v72 (broadcastInDim S50000x128 ![0, 1] bcast_S50000x1_S50000x128_0_1 : (⟨S50000x1, .f32⟩ : BufTy).Contents (Elt F) → (⟨S50000x128, .f32⟩ : BufTy).Contents (Elt F)),
    binary main_v71 main_v72 main_v73 (mulf : (⟨S50000x128, .f32⟩ : BufTy).Contents (Elt F) → (⟨S50000x128, .f32⟩ : BufTy).Contents (Elt F) → (⟨S50000x128, .f32⟩ : BufTy).Contents (Elt F)),
    binary main_v73 main_arg6 main_v74 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v75 (broadcastInDim S1x64 ![1] bcast_S64_S1x64_1 : (⟨S64, .f32⟩ : BufTy).Contents (Elt F) → (⟨S1x64, .f32⟩ : BufTy).Contents (Elt F)),
    unary main_v75 main_v76 (broadcastInDim S50000x64 ![0, 1] bcast_S1x64_S50000x64_0_1 : (⟨S1x64, .f32⟩ : BufTy).Contents (Elt F) → (⟨S50000x64, .f32⟩ : BufTy).Contents (Elt F)),
    binary main_v74 main_v76 main_v77 (addf : (⟨S50000x64, .f32⟩ : BufTy).Contents (Elt F) → (⟨S50000x64, .f32⟩ : BufTy).Contents (Elt F) → (⟨S50000x64, .f32⟩ : BufTy).Contents (Elt F)) ]

/-- The log-softmax, first half: the row minus its largest entry. -/
abbrev opsE : List (HloOp τ sig (Elt F)) :=
  [ TRef.nullary (TRef.of (T := ⟨S_, .f32⟩) main_call4_cst) (constant S_ .f32 0xFF800000#32),
    TRef.binary (TRef.of (T := ⟨S50000x64, .f32⟩) main_v77) (TRef.of (T := ⟨S_, .f32⟩) main_call4_cst) (TRef.of (T := ⟨S50000, .f32⟩) main_call4_v0) (fun x v => Host.reduce FloatOps.maximumf x v reducesTo_S50000x64_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf,
    TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x64, .f32⟩) main_call4_v4) (broadcastInDim S50000x64 ![0, 1] bcast_S50000x1_S50000x64_0_1),
    TRef.binary (TRef.of (T := ⟨S50000x64, .f32⟩) main_v77) (TRef.of (T := ⟨S50000x64, .f32⟩) main_call4_v4) (TRef.of (T := ⟨S50000x64, .f32⟩) main_call4_v5) subf ]

/-- The log-softmax, second half: minus the logarithm of the sum of the exponentials. -/
abbrev opsG : List (HloOp τ sig (Elt F)) :=
  [ TRef.unary (TRef.of (T := ⟨S50000x64, .f32⟩) main_call4_v5) (TRef.of (T := ⟨S50000x64, .f32⟩) main_call4_v6) Host.exp,
    TRef.nullary (TRef.of (T := ⟨S_, .f32⟩) main_call4_cst_1) (constant S_ .f32 0x00000000#32),
    TRef.binary (TRef.of (T := ⟨S50000x64, .f32⟩) main_call4_v6) (TRef.of (T := ⟨S_, .f32⟩) main_call4_cst_1) (TRef.of (T := ⟨S50000, .f32⟩) main_call4_v7) (fun x v => Host.reduceAdd x v reducesTo_S50000x64_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x64, .f32⟩) main_call4_v10) (broadcastInDim S50000x64 ![0, 1] bcast_S50000x1_S50000x64_0_1),
    TRef.binary (TRef.of (T := ⟨S50000x64, .f32⟩) main_call4_v5) (TRef.of (T := ⟨S50000x64, .f32⟩) main_call4_v10) (TRef.of (T := ⟨S50000x64, .f32⟩) main_v78) subf ]

set_option maxRecDepth 65536 in
theorem ops_split : (ops : List (HloOp τ sig (Elt F))) = opsA ++ (opsB ++ (opsC ++ (opsD ++ (opsE ++ opsG)))) := rfl

variable (W : Valuation τ sig (Elt F))

/-! ## Each piece leaves the argument arrays alone -/

theorem keepsA : after (opsA (F := F)) W (Proc.devRef .tc main_arg0) = W (Proc.devRef .tc main_arg0)
    ∧ after (opsA (F := F)) W (Proc.devRef .tc main_arg1) = W (Proc.devRef .tc main_arg1)
    ∧ after (opsA (F := F)) W (Proc.devRef .tc main_arg2) = W (Proc.devRef .tc main_arg2)
    ∧ after (opsA (F := F)) W (Proc.devRef .tc main_arg3) = W (Proc.devRef .tc main_arg3)
    ∧ after (opsA (F := F)) W (Proc.devRef .tc main_arg4) = W (Proc.devRef .tc main_arg4)
    ∧ after (opsA (F := F)) W (Proc.devRef .tc main_arg5) = W (Proc.devRef .tc main_arg5)
    ∧ after (opsA (F := F)) W (Proc.devRef .tc main_arg6) = W (Proc.devRef .tc main_arg6)
    ∧ after (opsA (F := F)) W (Proc.devRef .tc main_arg7) = W (Proc.devRef .tc main_arg7)
    ∧ after (opsA (F := F)) W (Proc.devRef .tc main_arg8) = W (Proc.devRef .tc main_arg8)
    ∧ after (opsA (F := F)) W (Proc.devRef .tc main_arg9) = W (Proc.devRef .tc main_arg9) := by
  refine ⟨?_, ?_, ?_, ?_, ?_, ?_, ?_, ?_, ?_, ?_⟩ <;> after_results_simp
theorem keepsB : after (opsB (F := F)) W (Proc.devRef .tc main_arg0) = W (Proc.devRef .tc main_arg0)
    ∧ after (opsB (F := F)) W (Proc.devRef .tc main_arg1) = W (Proc.devRef .tc main_arg1)
    ∧ after (opsB (F := F)) W (Proc.devRef .tc main_arg2) = W (Proc.devRef .tc main_arg2)
    ∧ after (opsB (F := F)) W (Proc.devRef .tc main_arg3) = W (Proc.devRef .tc main_arg3)
    ∧ after (opsB (F := F)) W (Proc.devRef .tc main_arg4) = W (Proc.devRef .tc main_arg4)
    ∧ after (opsB (F := F)) W (Proc.devRef .tc main_arg5) = W (Proc.devRef .tc main_arg5)
    ∧ after (opsB (F := F)) W (Proc.devRef .tc main_arg6) = W (Proc.devRef .tc main_arg6)
    ∧ after (opsB (F := F)) W (Proc.devRef .tc main_arg7) = W (Proc.devRef .tc main_arg7)
    ∧ after (opsB (F := F)) W (Proc.devRef .tc main_arg8) = W (Proc.devRef .tc main_arg8)
    ∧ after (opsB (F := F)) W (Proc.devRef .tc main_arg9) = W (Proc.devRef .tc main_arg9) := by
  refine ⟨?_, ?_, ?_, ?_, ?_, ?_, ?_, ?_, ?_, ?_⟩ <;> after_results_simp
theorem keepsC : after (opsC (F := F)) W (Proc.devRef .tc main_arg0) = W (Proc.devRef .tc main_arg0)
    ∧ after (opsC (F := F)) W (Proc.devRef .tc main_arg1) = W (Proc.devRef .tc main_arg1)
    ∧ after (opsC (F := F)) W (Proc.devRef .tc main_arg2) = W (Proc.devRef .tc main_arg2)
    ∧ after (opsC (F := F)) W (Proc.devRef .tc main_arg3) = W (Proc.devRef .tc main_arg3)
    ∧ after (opsC (F := F)) W (Proc.devRef .tc main_arg4) = W (Proc.devRef .tc main_arg4)
    ∧ after (opsC (F := F)) W (Proc.devRef .tc main_arg5) = W (Proc.devRef .tc main_arg5)
    ∧ after (opsC (F := F)) W (Proc.devRef .tc main_arg6) = W (Proc.devRef .tc main_arg6)
    ∧ after (opsC (F := F)) W (Proc.devRef .tc main_arg7) = W (Proc.devRef .tc main_arg7)
    ∧ after (opsC (F := F)) W (Proc.devRef .tc main_arg8) = W (Proc.devRef .tc main_arg8)
    ∧ after (opsC (F := F)) W (Proc.devRef .tc main_arg9) = W (Proc.devRef .tc main_arg9) := by
  refine ⟨?_, ?_, ?_, ?_, ?_, ?_, ?_, ?_, ?_, ?_⟩ <;> after_results_simp
theorem keepsD : after (opsD (F := F)) W (Proc.devRef .tc main_arg0) = W (Proc.devRef .tc main_arg0)
    ∧ after (opsD (F := F)) W (Proc.devRef .tc main_arg1) = W (Proc.devRef .tc main_arg1)
    ∧ after (opsD (F := F)) W (Proc.devRef .tc main_arg2) = W (Proc.devRef .tc main_arg2)
    ∧ after (opsD (F := F)) W (Proc.devRef .tc main_arg3) = W (Proc.devRef .tc main_arg3)
    ∧ after (opsD (F := F)) W (Proc.devRef .tc main_arg4) = W (Proc.devRef .tc main_arg4)
    ∧ after (opsD (F := F)) W (Proc.devRef .tc main_arg5) = W (Proc.devRef .tc main_arg5)
    ∧ after (opsD (F := F)) W (Proc.devRef .tc main_arg6) = W (Proc.devRef .tc main_arg6)
    ∧ after (opsD (F := F)) W (Proc.devRef .tc main_arg7) = W (Proc.devRef .tc main_arg7)
    ∧ after (opsD (F := F)) W (Proc.devRef .tc main_arg8) = W (Proc.devRef .tc main_arg8)
    ∧ after (opsD (F := F)) W (Proc.devRef .tc main_arg9) = W (Proc.devRef .tc main_arg9) := by
  refine ⟨?_, ?_, ?_, ?_, ?_, ?_, ?_, ?_, ?_, ?_⟩ <;> after_results_simp
theorem keepsE : after (opsE (F := F)) W (Proc.devRef .tc main_arg0) = W (Proc.devRef .tc main_arg0)
    ∧ after (opsE (F := F)) W (Proc.devRef .tc main_arg1) = W (Proc.devRef .tc main_arg1)
    ∧ after (opsE (F := F)) W (Proc.devRef .tc main_arg2) = W (Proc.devRef .tc main_arg2)
    ∧ after (opsE (F := F)) W (Proc.devRef .tc main_arg3) = W (Proc.devRef .tc main_arg3)
    ∧ after (opsE (F := F)) W (Proc.devRef .tc main_arg4) = W (Proc.devRef .tc main_arg4)
    ∧ after (opsE (F := F)) W (Proc.devRef .tc main_arg5) = W (Proc.devRef .tc main_arg5)
    ∧ after (opsE (F := F)) W (Proc.devRef .tc main_arg6) = W (Proc.devRef .tc main_arg6)
    ∧ after (opsE (F := F)) W (Proc.devRef .tc main_arg7) = W (Proc.devRef .tc main_arg7)
    ∧ after (opsE (F := F)) W (Proc.devRef .tc main_arg8) = W (Proc.devRef .tc main_arg8)
    ∧ after (opsE (F := F)) W (Proc.devRef .tc main_arg9) = W (Proc.devRef .tc main_arg9) := by
  refine ⟨?_, ?_, ?_, ?_, ?_, ?_, ?_, ?_, ?_, ?_⟩ <;> after_results_simp
theorem keepsG : after (opsG (F := F)) W (Proc.devRef .tc main_arg0) = W (Proc.devRef .tc main_arg0)
    ∧ after (opsG (F := F)) W (Proc.devRef .tc main_arg1) = W (Proc.devRef .tc main_arg1)
    ∧ after (opsG (F := F)) W (Proc.devRef .tc main_arg2) = W (Proc.devRef .tc main_arg2)
    ∧ after (opsG (F := F)) W (Proc.devRef .tc main_arg3) = W (Proc.devRef .tc main_arg3)
    ∧ after (opsG (F := F)) W (Proc.devRef .tc main_arg4) = W (Proc.devRef .tc main_arg4)
    ∧ after (opsG (F := F)) W (Proc.devRef .tc main_arg5) = W (Proc.devRef .tc main_arg5)
    ∧ after (opsG (F := F)) W (Proc.devRef .tc main_arg6) = W (Proc.devRef .tc main_arg6)
    ∧ after (opsG (F := F)) W (Proc.devRef .tc main_arg7) = W (Proc.devRef .tc main_arg7)
    ∧ after (opsG (F := F)) W (Proc.devRef .tc main_arg8) = W (Proc.devRef .tc main_arg8)
    ∧ after (opsG (F := F)) W (Proc.devRef .tc main_arg9) = W (Proc.devRef .tc main_arg9) := by
  refine ⟨?_, ?_, ?_, ?_, ?_, ?_, ?_, ?_, ?_, ?_⟩ <;> after_results_simp

/-- The later pieces leave the two scale columns alone. -/
theorem keepsB_cols : after (opsB (F := F)) W (Proc.devRef .tc main_v9) = W (Proc.devRef .tc main_v9)
    ∧ after (opsB (F := F)) W (Proc.devRef .tc main_v12) = W (Proc.devRef .tc main_v12) := by
  refine ⟨?_, ?_⟩ <;> after_results_simp
theorem keepsC_cols : after (opsC (F := F)) W (Proc.devRef .tc main_v9) = W (Proc.devRef .tc main_v9)
    ∧ after (opsC (F := F)) W (Proc.devRef .tc main_v12) = W (Proc.devRef .tc main_v12) := by
  refine ⟨?_, ?_⟩ <;> after_results_simp

/-! ## What each piece computes -/

theorem pieceA_v9 : after (opsA (F := F)) W (Proc.devRef .tc main_v9) = val_main_v9 (F := F) (W (Proc.devRef .tc main_arg8)) := by
  after_results_simp
  rfl
theorem pieceA_v12 : after (opsA (F := F)) W (Proc.devRef .tc main_v12) = val_main_v12 (F := F) (W (Proc.devRef .tc main_arg9)) := by
  after_results_simp
  rfl

theorem pieceB_v36 (h9 : W (Proc.devRef .tc main_v9) = val_main_v9 (F := F) (W (Proc.devRef .tc main_arg8)))
    (h12 : W (Proc.devRef .tc main_v12) = val_main_v12 (F := F) (W (Proc.devRef .tc main_arg9))) :
    after (opsB (F := F)) W (Proc.devRef .tc main_v36)
      = val_main_v36 (F := F) (W (Proc.devRef .tc main_arg0)) (W (Proc.devRef .tc main_arg1)) (W (Proc.devRef .tc main_arg2)) (W (Proc.devRef .tc main_arg3)) (W (Proc.devRef .tc main_arg8)) (W (Proc.devRef .tc main_arg9)) := by
  after_results_simp
  rw [h9, h12]
  rfl

theorem pieceC_v58 (h9 : W (Proc.devRef .tc main_v9) = val_main_v9 (F := F) (W (Proc.devRef .tc main_arg8)))
    (h12 : W (Proc.devRef .tc main_v12) = val_main_v12 (F := F) (W (Proc.devRef .tc main_arg9)))
    (h36 : W (Proc.devRef .tc main_v36)
      = val_main_v36 (F := F) (W (Proc.devRef .tc main_arg0)) (W (Proc.devRef .tc main_arg1)) (W (Proc.devRef .tc main_arg2)) (W (Proc.devRef .tc main_arg3)) (W (Proc.devRef .tc main_arg8)) (W (Proc.devRef .tc main_arg9))) :
    after (opsC (F := F)) W (Proc.devRef .tc main_v58)
      = val_main_v58 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) := by
  after_results_simp
  rw [h9, h12, h36]
  rfl

theorem pieceD_v77 (h12 : W (Proc.devRef .tc main_v12) = val_main_v12 (F := F) (W (Proc.devRef .tc main_arg9)))
    (h58 : W (Proc.devRef .tc main_v58)
      = val_main_v58 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9))) :
    after (opsD (F := F)) W (Proc.devRef .tc main_v77)
      = val_main_v77 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp
  rw [h12, h58]
  rfl

theorem pieceE_v5 (h77 : W (Proc.devRef .tc main_v77) = val_main_v77 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9))) :
    after (opsE (F := F)) W (Proc.devRef .tc main_call4_v5)
      = val_main_call4_v5 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp
  rw [h77]
  simp only [ofBuf_toBuf, ofBuf_v77]
  unfold val_main_call4_v5 val_main_call4_v4 val_main_call4_v3 val_main_call4_v2 val_main_call4_v1 val_main_call4_cst_0
    val_main_call4_v0 val_main_call4_cst
  exact toBuf_call4_v5 _

set_option maxRecDepth 262144 in
theorem pieceG_v78 (h5 : W (Proc.devRef .tc main_call4_v5) = val_main_call4_v5 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9))) :
    after (opsG (F := F)) W (Proc.devRef .tc main_v78)
      = val_main_v78 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp
  rw [h5]
  unfold val_main_v78 val_main_call4_v10 val_main_call4_v9 val_main_call4_v8 val_main_call4_v7 val_main_call4_v6 val_main_call4_cst_1
  rfl

end Cert.ReferenceIdeal.RunValue

end
-- ==== Proof.RefRun.lean ====
/-
  The idealized reference's run: every weakly fair execution terminates, the result buffer ends at the staged value
  val_main_v78 of the argument arrays (the generated read-back module's last stage), the arguments unchanged.

  The run of a straight line of host operations ends with every buffer at the fold of the operations over the launch
  memory; the fold over the whole line is the fold over its six pieces in turn, each piece's value feeding the next one's
  hypothesis, the argument arrays and the scale columns carried along unchanged.
-/
import proofs.«169994_j32255204393049_2_alg».proof.Proof.RefRunPieces

set_option maxRecDepth 16384

noncomputable section

namespace Cert.ReferenceIdeal.RunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The fold of the whole line at the result buffer, over any starting contents L. -/
theorem fold_result (L : Valuation τ sig (Elt F)) :
    after (ops (F := F)) L (Proc.devRef .tc main_v78) = val_main_v78 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) := by
  rw [ops_split, after_append, after_append, after_append, after_append, after_append]
  obtain ⟨kA0, kA1, kA2, kA3, kA4, kA5, kA6, kA7, kA8, kA9⟩ := keepsA (F := F) L
  obtain ⟨kB0, kB1, kB2, kB3, kB4, kB5, kB6, kB7, kB8, kB9⟩ := keepsB (F := F) (after (opsA (F := F)) L)
  obtain ⟨kC0, kC1, kC2, kC3, kC4, kC5, kC6, kC7, kC8, kC9⟩ := keepsC (F := F) (after (opsB (F := F)) (after (opsA (F := F)) L))
  obtain ⟨kD0, kD1, kD2, kD3, kD4, kD5, kD6, kD7, kD8, kD9⟩ := keepsD (F := F) (after (opsC (F := F)) (after (opsB (F := F)) (after (opsA (F := F)) L)))
  obtain ⟨kE0, kE1, kE2, kE3, kE4, kE5, kE6, kE7, kE8, kE9⟩ := keepsE (F := F) (after (opsD (F := F)) (after (opsC (F := F)) (after (opsB (F := F)) (after (opsA (F := F)) L))))
  obtain ⟨kG0, kG1, kG2, kG3, kG4, kG5, kG6, kG7, kG8, kG9⟩ := keepsG (F := F) (after (opsE (F := F)) (after (opsD (F := F)) (after (opsC (F := F)) (after (opsB (F := F)) (after (opsA (F := F)) L)))))
  obtain ⟨kb9, kb12⟩ := keepsB_cols (F := F) (after (opsA (F := F)) L)
  obtain ⟨kc9, kc12⟩ := keepsC_cols (F := F) (after (opsB (F := F)) (after (opsA (F := F)) L))
  -- the scale columns after the first piece, and carried through the next two
  have hA9 : (after (opsA (F := F)) L) (Proc.devRef .tc main_v9) = val_main_v9 (F := F) ((after (opsA (F := F)) L) (Proc.devRef .tc main_arg8)) := by
    rw [kA8]; exact pieceA_v9 (F := F) L
  have hA12 : (after (opsA (F := F)) L) (Proc.devRef .tc main_v12) = val_main_v12 (F := F) ((after (opsA (F := F)) L) (Proc.devRef .tc main_arg9)) := by
    rw [kA9]; exact pieceA_v12 (F := F) L
  have hB9 : (after (opsB (F := F)) (after (opsA (F := F)) L)) (Proc.devRef .tc main_v9) = val_main_v9 (F := F) ((after (opsB (F := F)) (after (opsA (F := F)) L)) (Proc.devRef .tc main_arg8)) := by
    rw [kb9, kB8]; exact hA9
  have hB12 : (after (opsB (F := F)) (after (opsA (F := F)) L)) (Proc.devRef .tc main_v12) = val_main_v12 (F := F) ((after (opsB (F := F)) (after (opsA (F := F)) L)) (Proc.devRef .tc main_arg9)) := by
    rw [kb12, kB9]; exact hA12
  have hC12 : (after (opsC (F := F)) (after (opsB (F := F)) (after (opsA (F := F)) L))) (Proc.devRef .tc main_v12) = val_main_v12 (F := F) ((after (opsC (F := F)) (after (opsB (F := F)) (after (opsA (F := F)) L))) (Proc.devRef .tc main_arg9)) := by
    rw [kc12, kC9]; exact hB12
  -- the layers
  have hB36 := pieceB_v36 (F := F) (after (opsA (F := F)) L) hA9 hA12
  have hC36 : (after (opsB (F := F)) (after (opsA (F := F)) L)) (Proc.devRef .tc main_v36) = val_main_v36 (F := F) ((after (opsB (F := F)) (after (opsA (F := F)) L)) (Proc.devRef .tc main_arg0)) ((after (opsB (F := F)) (after (opsA (F := F)) L)) (Proc.devRef .tc main_arg1)) ((after (opsB (F := F)) (after (opsA (F := F)) L)) (Proc.devRef .tc main_arg2)) ((after (opsB (F := F)) (after (opsA (F := F)) L)) (Proc.devRef .tc main_arg3)) ((after (opsB (F := F)) (after (opsA (F := F)) L)) (Proc.devRef .tc main_arg8)) ((after (opsB (F := F)) (after (opsA (F := F)) L)) (Proc.devRef .tc main_arg9)) := by
    rw [kB0, kB1, kB2, kB3, kB8, kB9]; exact hB36
  have hC58 := pieceC_v58 (F := F) (after (opsB (F := F)) (after (opsA (F := F)) L)) hB9 hB12 hC36
  have hD58 : (after (opsC (F := F)) (after (opsB (F := F)) (after (opsA (F := F)) L))) (Proc.devRef .tc main_v58) = val_main_v58 (F := F) ((after (opsC (F := F)) (after (opsB (F := F)) (after (opsA (F := F)) L))) (Proc.devRef .tc main_arg0)) ((after (opsC (F := F)) (after (opsB (F := F)) (after (opsA (F := F)) L))) (Proc.devRef .tc main_arg1)) ((after (opsC (F := F)) (after (opsB (F := F)) (after (opsA (F := F)) L))) (Proc.devRef .tc main_arg2)) ((after (opsC (F := F)) (after (opsB (F := F)) (after (opsA (F := F)) L))) (Proc.devRef .tc main_arg3)) ((after (opsC (F := F)) (after (opsB (F := F)) (after (opsA (F := F)) L))) (Proc.devRef .tc main_arg4)) ((after (opsC (F := F)) (after (opsB (F := F)) (after (opsA (F := F)) L))) (Proc.devRef .tc main_arg5)) ((after (opsC (F := F)) (after (opsB (F := F)) (after (opsA (F := F)) L))) (Proc.devRef .tc main_arg8)) ((after (opsC (F := F)) (after (opsB (F := F)) (after (opsA (F := F)) L))) (Proc.devRef .tc main_arg9)) := by
    rw [kC0, kC1, kC2, kC3, kC4, kC5, kC8, kC9]; exact hC58
  have hD77 := pieceD_v77 (F := F) (after (opsC (F := F)) (after (opsB (F := F)) (after (opsA (F := F)) L))) hC12 hD58
  have hE77 : (after (opsD (F := F)) (after (opsC (F := F)) (after (opsB (F := F)) (after (opsA (F := F)) L)))) (Proc.devRef .tc main_v77) = val_main_v77 (F := F) ((after (opsD (F := F)) (after (opsC (F := F)) (after (opsB (F := F)) (after (opsA (F := F)) L)))) (Proc.devRef .tc main_arg0)) ((after (opsD (F := F)) (after (opsC (F := F)) (after (opsB (F := F)) (after (opsA (F := F)) L)))) (Proc.devRef .tc main_arg1)) ((after (opsD (F := F)) (after (opsC (F := F)) (after (opsB (F := F)) (after (opsA (F := F)) L)))) (Proc.devRef .tc main_arg2)) ((after (opsD (F := F)) (after (opsC (F := F)) (after (opsB (F := F)) (after (opsA (F := F)) L)))) (Proc.devRef .tc main_arg3)) ((after (opsD (F := F)) (after (opsC (F := F)) (after (opsB (F := F)) (after (opsA (F := F)) L)))) (Proc.devRef .tc main_arg4)) ((after (opsD (F := F)) (after (opsC (F := F)) (after (opsB (F := F)) (after (opsA (F := F)) L)))) (Proc.devRef .tc main_arg5)) ((after (opsD (F := F)) (after (opsC (F := F)) (after (opsB (F := F)) (after (opsA (F := F)) L)))) (Proc.devRef .tc main_arg6)) ((after (opsD (F := F)) (after (opsC (F := F)) (after (opsB (F := F)) (after (opsA (F := F)) L)))) (Proc.devRef .tc main_arg7)) ((after (opsD (F := F)) (after (opsC (F := F)) (after (opsB (F := F)) (after (opsA (F := F)) L)))) (Proc.devRef .tc main_arg8)) ((after (opsD (F := F)) (after (opsC (F := F)) (after (opsB (F := F)) (after (opsA (F := F)) L)))) (Proc.devRef .tc main_arg9)) := by
    rw [kD0, kD1, kD2, kD3, kD4, kD5, kD6, kD7, kD8, kD9]; exact hD77
  have hE5 := pieceE_v5 (F := F) (after (opsD (F := F)) (after (opsC (F := F)) (after (opsB (F := F)) (after (opsA (F := F)) L)))) hE77
  have hG5 : (after (opsE (F := F)) (after (opsD (F := F)) (after (opsC (F := F)) (after (opsB (F := F)) (after (opsA (F := F)) L))))) (Proc.devRef .tc main_call4_v5) = val_main_call4_v5 (F := F) ((after (opsE (F := F)) (after (opsD (F := F)) (after (opsC (F := F)) (after (opsB (F := F)) (after (opsA (F := F)) L))))) (Proc.devRef .tc main_arg0)) ((after (opsE (F := F)) (after (opsD (F := F)) (after (opsC (F := F)) (after (opsB (F := F)) (after (opsA (F := F)) L))))) (Proc.devRef .tc main_arg1)) ((after (opsE (F := F)) (after (opsD (F := F)) (after (opsC (F := F)) (after (opsB (F := F)) (after (opsA (F := F)) L))))) (Proc.devRef .tc main_arg2)) ((after (opsE (F := F)) (after (opsD (F := F)) (after (opsC (F := F)) (after (opsB (F := F)) (after (opsA (F := F)) L))))) (Proc.devRef .tc main_arg3)) ((after (opsE (F := F)) (after (opsD (F := F)) (after (opsC (F := F)) (after (opsB (F := F)) (after (opsA (F := F)) L))))) (Proc.devRef .tc main_arg4)) ((after (opsE (F := F)) (after (opsD (F := F)) (after (opsC (F := F)) (after (opsB (F := F)) (after (opsA (F := F)) L))))) (Proc.devRef .tc main_arg5)) ((after (opsE (F := F)) (after (opsD (F := F)) (after (opsC (F := F)) (after (opsB (F := F)) (after (opsA (F := F)) L))))) (Proc.devRef .tc main_arg6)) ((after (opsE (F := F)) (after (opsD (F := F)) (after (opsC (F := F)) (after (opsB (F := F)) (after (opsA (F := F)) L))))) (Proc.devRef .tc main_arg7)) ((after (opsE (F := F)) (after (opsD (F := F)) (after (opsC (F := F)) (after (opsB (F := F)) (after (opsA (F := F)) L))))) (Proc.devRef .tc main_arg8)) ((after (opsE (F := F)) (after (opsD (F := F)) (after (opsC (F := F)) (after (opsB (F := F)) (after (opsA (F := F)) L))))) (Proc.devRef .tc main_arg9)) := by
    rw [kE0, kE1, kE2, kE3, kE4, kE5, kE6, kE7, kE8, kE9]; exact hE5
  have hG78 := pieceG_v78 (F := F) (after (opsE (F := F)) (after (opsD (F := F)) (after (opsC (F := F)) (after (opsB (F := F)) (after (opsA (F := F)) L))))) hG5
  rw [hG78, kE0, kD0, kC0, kB0, kA0, kE1, kD1, kC1, kB1, kA1, kE2, kD2, kC2, kB2, kA2, kE3, kD3, kC3, kB3, kA3, kE4, kD4, kC4, kB4, kA4, kE5, kD5, kC5, kB5, kA5, kE6, kD6, kC6, kB6, kA6, kE7, kD7, kC7, kB7, kA7, kE8, kD8, kC8, kB8, kA8, kE9, kD9, kC9, kB9, kA9]

/-- The fold of the whole line leaves each argument array alone. -/
theorem fold_args (L : Valuation τ sig (Elt F)) :
    after (ops (F := F)) L (Proc.devRef .tc main_arg0) = L (Proc.devRef .tc main_arg0)
    ∧ after (ops (F := F)) L (Proc.devRef .tc main_arg1) = L (Proc.devRef .tc main_arg1)
    ∧ after (ops (F := F)) L (Proc.devRef .tc main_arg2) = L (Proc.devRef .tc main_arg2)
    ∧ after (ops (F := F)) L (Proc.devRef .tc main_arg3) = L (Proc.devRef .tc main_arg3)
    ∧ after (ops (F := F)) L (Proc.devRef .tc main_arg4) = L (Proc.devRef .tc main_arg4)
    ∧ after (ops (F := F)) L (Proc.devRef .tc main_arg5) = L (Proc.devRef .tc main_arg5)
    ∧ after (ops (F := F)) L (Proc.devRef .tc main_arg6) = L (Proc.devRef .tc main_arg6)
    ∧ after (ops (F := F)) L (Proc.devRef .tc main_arg7) = L (Proc.devRef .tc main_arg7)
    ∧ after (ops (F := F)) L (Proc.devRef .tc main_arg8) = L (Proc.devRef .tc main_arg8)
    ∧ after (ops (F := F)) L (Proc.devRef .tc main_arg9) = L (Proc.devRef .tc main_arg9) := by
  rw [ops_split, after_append, after_append, after_append, after_append, after_append]
  obtain ⟨kA0, kA1, kA2, kA3, kA4, kA5, kA6, kA7, kA8, kA9⟩ := keepsA (F := F) L
  obtain ⟨kB0, kB1, kB2, kB3, kB4, kB5, kB6, kB7, kB8, kB9⟩ := keepsB (F := F) (after (opsA (F := F)) L)
  obtain ⟨kC0, kC1, kC2, kC3, kC4, kC5, kC6, kC7, kC8, kC9⟩ := keepsC (F := F) (after (opsB (F := F)) (after (opsA (F := F)) L))
  obtain ⟨kD0, kD1, kD2, kD3, kD4, kD5, kD6, kD7, kD8, kD9⟩ := keepsD (F := F) (after (opsC (F := F)) (after (opsB (F := F)) (after (opsA (F := F)) L)))
  obtain ⟨kE0, kE1, kE2, kE3, kE4, kE5, kE6, kE7, kE8, kE9⟩ := keepsE (F := F) (after (opsD (F := F)) (after (opsC (F := F)) (after (opsB (F := F)) (after (opsA (F := F)) L))))
  obtain ⟨kG0, kG1, kG2, kG3, kG4, kG5, kG6, kG7, kG8, kG9⟩ := keepsG (F := F) (after (opsE (F := F)) (after (opsD (F := F)) (after (opsC (F := F)) (after (opsB (F := F)) (after (opsA (F := F)) L)))))
  exact ⟨kG0.trans (kE0.trans (kD0.trans (kC0.trans (kB0.trans kA0)))),
    kG1.trans (kE1.trans (kD1.trans (kC1.trans (kB1.trans kA1)))),
    kG2.trans (kE2.trans (kD2.trans (kC2.trans (kB2.trans kA2)))),
    kG3.trans (kE3.trans (kD3.trans (kC3.trans (kB3.trans kA3)))),
    kG4.trans (kE4.trans (kD4.trans (kC4.trans (kB4.trans kA4)))),
    kG5.trans (kE5.trans (kD5.trans (kC5.trans (kB5.trans kA5)))),
    kG6.trans (kE6.trans (kD6.trans (kC6.trans (kB6.trans kA6)))),
    kG7.trans (kE7.trans (kD7.trans (kC7.trans (kB7.trans kA7)))),
    kG8.trans (kE8.trans (kD8.trans (kC8.trans (kB8.trans kA8)))),
    kG9.trans (kE9.trans (kD9.trans (kC9.trans (kB9.trans kA9))))⟩

/-- THE RUN. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v78).trans (fold_result (F := F) (launchContents m c)),
       (h c main_arg0).trans (fold_args (F := F) (launchContents m c)).1,
       (h c main_arg1).trans (fold_args (F := F) (launchContents m c)).2.1,
       (h c main_arg2).trans (fold_args (F := F) (launchContents m c)).2.2.1,
       (h c main_arg3).trans (fold_args (F := F) (launchContents m c)).2.2.2.1,
       (h c main_arg4).trans (fold_args (F := F) (launchContents m c)).2.2.2.2.1,
       (h c main_arg5).trans (fold_args (F := F) (launchContents m c)).2.2.2.2.2.1,
       (h c main_arg6).trans (fold_args (F := F) (launchContents m c)).2.2.2.2.2.2.1,
       (h c main_arg7).trans (fold_args (F := F) (launchContents m c)).2.2.2.2.2.2.2.1,
       (h c main_arg8).trans (fold_args (F := F) (launchContents m c)).2.2.2.2.2.2.2.2.1,
       (h c main_arg9).trans (fold_args (F := F) (launchContents m c)).2.2.2.2.2.2.2.2.2⟩)
    (run_seq scopedRefs_eq scopedSems_eq defs main (fun _ => ops) main_eq (fun _ => ops_sub) m ρ)

end Cert.ReferenceIdeal.RunValue

end
-- ==== Proof.StageBridge.lean ====
/-
  The kernel program's host stages are the reference's staged values.

  Both programs prepare the same quantities on the host, by the same operations: the degrees (a one added per edge into
  the row its word names), the scale columns (the inverse square root of the degrees clipped below at one), the node
  features times the source scale, and each aggregation (rows gathered at the wrapped source words, weighted by the edge
  weights, added into the destination rows from zeros). The two printed programs name their shapes, dimension records
  and layout facts separately, but these are the same literals; so each stage of the one is, as a function of the
  argument arrays, the corresponding staged value of the other. The identities are established one operation at a time:
  once the operands of an operation are known to agree, the operation's two spellings agree.
-/
import proofs.«169994_j32255204393049_2_alg».proof.Proof.KernelStages

set_option maxHeartbeats 400000

noncomputable section

namespace Cert.StageBridge

open Cert.KernelIdeal Cert.KernelIdeal.Gen Cert.KernelHost Cert.KernelStages Cert.ReferenceIdeal.Read
open Idealize.ShloMosaic Idealize.SL.Sem

/-! ## Degrees and scale columns -/

/-- The out-degrees. -/
theorem degrees_src (x8 : IVec S800000 32) : degrees (F := Ideal) x8 = val_main_v3 (F := Ideal) x8 := rfl

/-- The in-degrees. -/
theorem degrees_dst (x9 : IVec S800000 32) : degrees (F := Ideal) x9 = val_main_v6 (F := Ideal) x9 := rfl

/-- The source scale column. -/
theorem scaleCol_src (x8 : IVec S800000 32) : scaleCol (F := Ideal) x8 = val_main_v9 (F := Ideal) x8 := by
  have h7 : maximumf (broadcastInDim S50000 ![] bcast_S_S50000 (id (constant (F := Ideal) S_ .f32 0x3F800000#32)))
      (degrees (F := Ideal) x8) = val_main_v7 (F := Ideal) x8 := by
    rw [degrees_src]; rfl
  show broadcastInDim S50000x1 ![0] bcast_S50000_S50000x1_0
      (Host.rsqrt (maximumf (broadcastInDim S50000 ![] bcast_S_S50000 (id (constant (F := Ideal) S_ .f32 0x3F800000#32)))
        (degrees (F := Ideal) x8))) = _
  rw [h7]; rfl

/-- The destination scale column. -/
theorem scaleCol_dst (x9 : IVec S800000 32) : scaleCol (F := Ideal) x9 = val_main_v12 (F := Ideal) x9 := by
  have h10 : maximumf (broadcastInDim S50000 ![] bcast_S_S50000 (id (constant (F := Ideal) S_ .f32 0x3F800000#32)))
      (degrees (F := Ideal) x9) = val_main_v10 (F := Ideal) x9 := by
    rw [degrees_dst]; rfl
  show broadcastInDim S50000x1 ![0] bcast_S50000_S50000x1_0
      (Host.rsqrt (maximumf (broadcastInDim S50000 ![] bcast_S_S50000 (id (constant (F := Ideal) S_ .f32 0x3F800000#32)))
        (degrees (F := Ideal) x9))) = _
  rw [h10]; rfl

/-! ## The scaled input and the aggregations -/

/-- The wrapped source words, against the reference's first printing of them. -/
theorem wrapK_first (x8 : IVec S800000 32) : wrapK x8 = val_main_v19 (F := Ideal) x8 := rfl

/-- The node features times the source scale. -/
theorem scaledInput_eq (x0 : FVec Ideal S50000x128 .f32) (x8 : IVec S800000 32) :
    scaledInput (F := Ideal) x0 x8 = val_main_v14 (F := Ideal) x0 x8 := by
  show mulf x0 (broadcastInDim S50000x128 ![0, 1] bcast_S50000x1_S50000x128_0_1 (scaleCol (F := Ideal) x8)) = _
  rw [scaleCol_src]; rfl

/-- One aggregation of 128-wide rows of any array `h`, in the reference's spelling of the gather, the weighting and the
    scatter. -/
theorem aggregate128_ref (h : FVec Ideal S50000x128 .f32) (x1 : FVec Ideal S800000 .f32) (x8 x9 : IVec S800000 32) :
    aggregate128 (F := Ideal) h x1 x8 x9
      = Host.scatterAdd Cert.ReferenceIdeal.scatter_S50000x128_S800000x1_S800000x128_1_0_0_1 (val_main_v25 (F := Ideal))
          (val_main_v26 (F := Ideal) x9)
          (mulf (Host.gather Cert.ReferenceIdeal.gather_S50000x128_S800000x1_S800000x128_1_0_n_n_0_1_1128 h (val_main_v20 (F := Ideal) x8))
            (val_main_v23 (F := Ideal) x1)) := by
  have hg : Host.gather gather_S50000x128_S800000x1_S800000x128_1_0_n_n_0_1_1128 h
        (broadcastInDim S800000x1 ![0] bcast_S800000_S800000x1_0 (wrapK x8))
      = Host.gather Cert.ReferenceIdeal.gather_S50000x128_S800000x1_S800000x128_1_0_n_n_0_1_1128 h (val_main_v20 (F := Ideal) x8) := by
    rw [wrapK_first]; rfl
  have hw : broadcastInDim S800000x128 ![0, 1] bcast_S800000x1_S800000x128_0_1
        (broadcastInDim S800000x1 ![0] bcast_S800000_S800000x1_0 x1) = val_main_v23 (F := Ideal) x1 := rfl
  show Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 x9)
      (mulf (Host.gather gather_S50000x128_S800000x1_S800000x128_1_0_n_n_0_1_1128 h
          (broadcastInDim S800000x1 ![0] bcast_S800000_S800000x1_0 (wrapK x8)))
        (broadcastInDim S800000x128 ![0, 1] bcast_S800000x1_S800000x128_0_1
          (broadcastInDim S800000x1 ![0] bcast_S800000_S800000x1_0 x1))) = _
  rw [hg, hw]; rfl

/-- The first aggregation: of the scaled input. -/
theorem agg0 (x0 : FVec Ideal S50000x128 .f32) (x1 : FVec Ideal S800000 .f32) (x8 x9 : IVec S800000 32) :
    aggregate128 (F := Ideal) (scaledInput (F := Ideal) x0 x8) x1 x8 x9 = val_main_v27 (F := Ideal) x0 x1 x8 x9 := by
  rw [aggregate128_ref, scaledInput_eq]; rfl

/-- The second aggregation: of the first layer's output. -/
theorem agg1 (x0 : FVec Ideal S50000x128 .f32) (x1 : FVec Ideal S800000 .f32) (x2 : FVec Ideal S128x128 .f32)
    (x3 : FVec Ideal S128 .f32) (x8 x9 : IVec S800000 32) :
    aggregate128 (F := Ideal) (val_main_v36 (F := Ideal) x0 x1 x2 x3 x8 x9) x1 x8 x9
      = val_main_v49 (F := Ideal) x0 x1 x2 x3 x8 x9 := by
  have e20 : val_main_v20 (F := Ideal) x8 = val_main_v42 (F := Ideal) x8 := rfl
  have e23 : val_main_v23 (F := Ideal) x1 = val_main_v45 (F := Ideal) x1 := rfl
  have e25 : val_main_v25 (F := Ideal) = val_main_v47 (F := Ideal) := rfl
  have e26 : val_main_v26 (F := Ideal) x9 = val_main_v48 (F := Ideal) x9 := rfl
  rw [aggregate128_ref, e20, e23, e25, e26]; rfl

end Cert.StageBridge

end
-- ==== Proof.LibHostRowMax.lean ====
/-
  The host's maximum over one axis, read at the ideal instance.

  A reference that normalises a row of scores first takes the row's largest entry with a host reduction whose
  body is the maximum and whose initial value is the f32 word of -∞.  At the ideal instance that word is the
  bottom of the extended reals, the body is the lattice's maximum, and the reduction over ONE axis, read at a
  reduced index j, is the supremum over that axis's coordinates k of the operand at "j with k put back"
  (Shape.Reduces.lift).  Stated for any shapes; a certificate instantiates it at its literal ones and rewrites
  the lifted index into coordinates.
-/
import Idealize.ShloMosaic.PureOps.Ideal.Laws
import Idealize.ShloMosaic.PureOps.Reduce

noncomputable section

open Idealize.ShloMosaic

namespace Cert.Lib.HostRowMax

/-- The f32 word 0xFF800000 denotes -∞, the bottom of the extended reals. -/
theorem ofBits_negInf : Ideal.ofBits .f32 0xFF800000#32 = (⊥ : EReal) := by
  simp [Ideal.ofBits, Ideal.ieee]

/-- Folding the maximum from the bottom over a finite set is the supremum over it. -/
theorem fold_max_bot {β : Type*} (T : Finset β) (f : β → EReal) : T.fold max (⊥ : EReal) f = T.sup f := by
  classical
  induction T using Finset.induction_on with
  | empty => simp
  | insert b T hb ih => rw [Finset.fold_insert hb, Finset.sup_insert, ih]

/-- From -∞ the host's reduction with a maximum body over one axis, at the reduced index j, is the supremum over
    that axis of the operand. -/
theorem hostReduce_max {s t u : Shape} {a : Fin s.rank} (x : FVec Ideal s .f32) (h' : s.ReducesTo [a] t)
    (h : s.Reduces [a] t) (hu : 0 < u.numel) (j : t.Idx) :
    Host.reduce FloatOps.maximumf x (constant u .f32 0xFF800000#32) h' hu j
      = Finset.univ.sup fun k : Fin (s.size a) => x (h.lift j k) := by
  rw [Host.reduce_eq_fold_single FloatOps.maximumf x _ h' h hu]
  have hi : (constant (F := Ideal) u .f32 0xFF800000#32) (Shape.Idx.first hu) = (⊥ : EReal) := ofBits_negInf
  rw [hi]
  exact fold_max_bot Finset.univ (x ∘ h.lift j)

end Cert.Lib.HostRowMax

end
-- ==== Proof.RefSteps.lean ====
/-
  The reference program read at an index, against the dense-step specification.

  Each of the two hidden layers of the reference multiplies the aggregated features by the destination scale column,
  applies the layer's weight matrix, adds the bias row, takes the maximum with zero and multiplies by the source scale
  column: entry (p, q) is  max( Σ_k (agg(p,k) · nd(p)) · W(k,q) + b(q), 0 ) · ns(p),  which is the dense step. The last
  layer gathers the rows of the hidden features at the (wrapped) source words, weights each by its edge weight, adds the
  rows into the destination rows, scales by the destination column, applies the last weight matrix and adds the last
  bias; the result's rows then go through the log-softmax: subtract the row's largest entry, and subtract the logarithm
  of the sum of the exponentials.
-/
import proofs.«169994_j32255204393049_2_alg».proof.Proof.RefReadP
import proofs.«169994_j32255204393049_2_alg».proof.Proof.Spec
import proofs.«169994_j32255204393049_2_alg».proof.Proof.LibGatherScatterRows
import proofs.«169994_j32255204393049_2_alg».proof.Proof.LibHostRowMax
import Idealize.ShloMosaic.Lib.ValueIdx
import Idealize.ShloMosaic.Lib.Pipeline.Value
import Idealize.ShloMosaic.PureOps.Ideal.Laws

noncomputable section

open scoped BigOperators

namespace Cert.RefSteps

open Cert.ReferenceIdeal Cert.ReferenceIdeal.Gen Cert.ReferenceIdeal.Read Cert.Spec Cert.LibGatherScatterRows
open Idealize.ShloMosaic Idealize.ShloMosaic.ValueIdx Idealize.ShloMosaic.TcCoe Idealize.SL.Sem Idealize.ShloMosaic.StableHlo

instance neZero_rows : NeZero 50000 := ⟨by decide⟩

/-- Layer 0 of the reference is the dense step of its aggregate, the two scale columns, the first weight matrix and the first bias row. -/
theorem dense0 (x0 : (⟨S50000x128, .f32⟩ : BufTy).Contents (Elt Ideal)) (x1 : (⟨S800000, .f32⟩ : BufTy).Contents (Elt Ideal)) (x2 : (⟨S128x128, .f32⟩ : BufTy).Contents (Elt Ideal)) (x3 : (⟨S128, .f32⟩ : BufTy).Contents (Elt Ideal)) (x8 x9 : (⟨S800000, .i32⟩ : BufTy).Contents (Elt Ideal)) :
    val_main_v36 (F := Ideal) x0 x1 x2 x3 x8 x9
      = denseStep (val_main_v27 (F := Ideal) x0 x1 x8 x9) (val_main_v12 (F := Ideal) x9) (val_main_v9 (F := Ideal) x8) x2
          (val_main_v31 (F := Ideal) x3) := by
  funext i
  obtain ⟨p, q, rfl⟩ : ∃ (p : Fin 50000) (q : Fin 128), i = ix2 p q := ⟨i 0, i 1, eq_ix2 i⟩
  have eb : idx_main_v32 (ix2 p q) = ix2 0 q := funext fun a => Fin.ext (by match a with | ⟨0, _⟩ => rfl | ⟨1, _⟩ => rfl)
  have es : idx_main_v35 (ix2 p q) = ix2 p 0 := funext fun a => Fin.ext (by match a with | ⟨0, _⟩ => rfl | ⟨1, _⟩ => rfl)
  have hs : (∑ k : Fin 128, val_main_v29 (F := Ideal) x0 x1 x8 x9 (lidx_main_v30 (ix2 p q) k) * x2 (ridx_main_v30 (ix2 p q) k))
      = ∑ k : Fin 128, (val_main_v27 (F := Ideal) x0 x1 x8 x9 (ix2 p k) * val_main_v12 (F := Ideal) x9 (ix2 p 0)) * x2 (ix2 k q) := by
    refine Finset.sum_congr rfl fun k _ => ?_
    have el : lidx_main_v30 (ix2 p q) k = ix2 p k := funext fun a => Fin.ext (by match a with | ⟨0, _⟩ => rfl | ⟨1, _⟩ => rfl)
    have er : ridx_main_v30 (ix2 p q) k = ix2 k q := funext fun a => Fin.ext (by match a with | ⟨0, _⟩ => rfl | ⟨1, _⟩ => rfl)
    have e28 : idx_main_v28 (ix2 p k) = ix2 p 0 := funext fun a => Fin.ext (by match a with | ⟨0, _⟩ => rfl | ⟨1, _⟩ => rfl)
    rw [el, er, val_main_v29_apply, val_main_v28_apply, e28, Ideal.mulf_def]
  rw [val_main_v36_apply, val_main_v34_apply, val_main_v33_apply, val_main_v30_apply, val_main_v32_apply,
    val_main_call2_v0_apply, val_main_call2_cst_apply, val_main_v35_apply, eb, es, hs]
  rfl

/-- Layer 1 of the reference is the dense step of its aggregate, the two scale columns, the second weight matrix and the second bias row. -/
theorem dense1 (x0 : (⟨S50000x128, .f32⟩ : BufTy).Contents (Elt Ideal)) (x1 : (⟨S800000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x8 x9 : (⟨S800000, .i32⟩ : BufTy).Contents (Elt Ideal)) :
    val_main_v58 (F := Ideal) x0 x1 x2 x3 x4 x5 x8 x9
      = denseStep (val_main_v49 (F := Ideal) x0 x1 x2 x3 x8 x9) (val_main_v12 (F := Ideal) x9) (val_main_v9 (F := Ideal) x8) x4
          (val_main_v53 (F := Ideal) x5) := by
  funext i
  obtain ⟨p, q, rfl⟩ : ∃ (p : Fin 50000) (q : Fin 128), i = ix2 p q := ⟨i 0, i 1, eq_ix2 i⟩
  have eb : idx_main_v54 (ix2 p q) = ix2 0 q := funext fun a => Fin.ext (by match a with | ⟨0, _⟩ => rfl | ⟨1, _⟩ => rfl)
  have es : idx_main_v57 (ix2 p q) = ix2 p 0 := funext fun a => Fin.ext (by match a with | ⟨0, _⟩ => rfl | ⟨1, _⟩ => rfl)
  have hs : (∑ k : Fin 128, val_main_v51 (F := Ideal) x0 x1 x2 x3 x8 x9 (lidx_main_v52 (ix2 p q) k) * x4 (ridx_main_v52 (ix2 p q) k))
      = ∑ k : Fin 128, (val_main_v49 (F := Ideal) x0 x1 x2 x3 x8 x9 (ix2 p k) * val_main_v12 (F := Ideal) x9 (ix2 p 0)) * x4 (ix2 k q) := by
    refine Finset.sum_congr rfl fun k _ => ?_
    have el : lidx_main_v52 (ix2 p q) k = ix2 p k := funext fun a => Fin.ext (by match a with | ⟨0, _⟩ => rfl | ⟨1, _⟩ => rfl)
    have er : ridx_main_v52 (ix2 p q) k = ix2 k q := funext fun a => Fin.ext (by match a with | ⟨0, _⟩ => rfl | ⟨1, _⟩ => rfl)
    have e28 : idx_main_v50 (ix2 p k) = ix2 p 0 := funext fun a => Fin.ext (by match a with | ⟨0, _⟩ => rfl | ⟨1, _⟩ => rfl)
    rw [el, er, val_main_v51_apply, val_main_v50_apply, e28, Ideal.mulf_def]
  rw [val_main_v58_apply, val_main_v56_apply, val_main_v55_apply, val_main_v52_apply, val_main_v54_apply,
    val_main_call3_v0_apply, val_main_call3_cst_apply, val_main_v57_apply, eb, es, hs]
  rfl

/-! ## The last layer: gather, weight, add into the destination rows, scale, project, add the bias -/

/-- The scattered sum at an entry: zero plus, over the edges whose destination word lands in row `p`, the gathered
    hidden row's entry times the edge weight. -/
theorem scattered_at (x0 : (⟨S50000x128, .f32⟩ : BufTy).Contents (Elt Ideal)) (x1 : (⟨S800000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x8 x9 : (⟨S800000, .i32⟩ : BufTy).Contents (Elt Ideal)) (p : Fin 50000) (k : Fin 128) :
    val_main_v71 (F := Ideal) x0 x1 x2 x3 x4 x5 x8 x9 (ix2 p k)
      = zeroWord + ∑ e : Fin 800000, if landRow 50000 (x9 (ix1 e)) = some p
          then val_main_v58 (F := Ideal) x0 x1 x2 x3 x4 x5 x8 x9 (ix2 (clampRow 50000 (val_main_v63 (F := Ideal) x8 (ix1 e))) k) * x1 (ix1 e)
          else 0 := by
  have h := scatterAddRows2 (N := 50000) (C := 128) (E := 800000) scatter_S50000x128_S800000x1_S800000x128_1_0_0_1 rfl rfl rfl rfl
    (val_main_v69 (F := Ideal)) (val_main_v70 (F := Ideal) x9) (val_main_v68 (F := Ideal) x0 x1 x2 x3 x4 x5 x8 x9) p k
  refine h.trans ?_
  have h0 : val_main_v69 (F := Ideal) (ix2 p k) = zeroWord := by
    rw [val_main_v69_apply, val_main_cst_11_apply]; rfl
  rw [h0]
  refine congrArg (zeroWord + ·) (Finset.sum_congr rfl fun e _ => ?_)
  have e70 : idx_main_v70 (ix2 e 0) = ix1 e := funext fun a => Fin.ext (by match a with | ⟨0, _⟩ => rfl)
  have e64 : idx_main_v64 (ix2 e 0) = ix1 e := funext fun a => Fin.ext (by match a with | ⟨0, _⟩ => rfl)
  have e67 : idx_main_v66 (idx_main_v67 (ix2 e k)) = ix1 e := funext fun a => Fin.ext (by match a with | ⟨0, _⟩ => rfl)
  have hg := gatherRows2 (N := 50000) (C := 128) (E := 800000) gather_S50000x128_S800000x1_S800000x128_1_0_n_n_0_1_1128 rfl rfl rfl rfl rfl
    (val_main_v58 (F := Ideal) x0 x1 x2 x3 x4 x5 x8 x9) (val_main_v64 (F := Ideal) x8) e k
  have h65 : val_main_v65 (F := Ideal) x0 x1 x2 x3 x4 x5 x8 x9 (ix2 e k)
      = val_main_v58 (F := Ideal) x0 x1 x2 x3 x4 x5 x8 x9 (ix2 (clampRow 50000 (val_main_v63 (F := Ideal) x8 (ix1 e))) k) := by
    refine hg.trans ?_
    rw [val_main_v64_apply, e64]
  rw [val_main_v70_apply, e70, val_main_v68_apply, h65, val_main_v67_apply, val_main_v66_apply, e67, Ideal.mulf_def]

/-- The last layer's pre-normalisation row entry. -/
theorem tail_row (x0 : (⟨S50000x128, .f32⟩ : BufTy).Contents (Elt Ideal)) (x1 : (⟨S800000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 x9 : (⟨S800000, .i32⟩ : BufTy).Contents (Elt Ideal)) (p : Fin 50000) (j : Fin 64) :
    val_main_v77 (F := Ideal) x0 x1 x2 x3 x4 x5 x6 x7 x8 x9 (ix2 p j)
      = (∑ k : Fin 128, ((zeroWord + ∑ e : Fin 800000, if landRow 50000 (x9 (ix1 e)) = some p
            then val_main_v58 (F := Ideal) x0 x1 x2 x3 x4 x5 x8 x9 (ix2 (clampRow 50000 (val_main_v63 (F := Ideal) x8 (ix1 e))) k) * x1 (ix1 e)
            else 0) * val_main_v12 (F := Ideal) x9 (ix2 p 0)) * x6 (ix2 k j)) + x7 (ix1 j) := by
  have eb : idx_main_v75 (idx_main_v76 (ix2 p j)) = ix1 j := funext fun a => Fin.ext (by match a with | ⟨0, _⟩ => rfl)
  have hs : (∑ k : Fin 128, val_main_v73 (F := Ideal) x0 x1 x2 x3 x4 x5 x8 x9 (lidx_main_v74 (ix2 p j) k) * x6 (ridx_main_v74 (ix2 p j) k))
      = ∑ k : Fin 128, ((zeroWord + ∑ e : Fin 800000, if landRow 50000 (x9 (ix1 e)) = some p
            then val_main_v58 (F := Ideal) x0 x1 x2 x3 x4 x5 x8 x9 (ix2 (clampRow 50000 (val_main_v63 (F := Ideal) x8 (ix1 e))) k) * x1 (ix1 e)
            else 0) * val_main_v12 (F := Ideal) x9 (ix2 p 0)) * x6 (ix2 k j) := by
    refine Finset.sum_congr rfl fun k _ => ?_
    have el : lidx_main_v74 (ix2 p j) k = ix2 p k := funext fun a => Fin.ext (by match a with | ⟨0, _⟩ => rfl | ⟨1, _⟩ => rfl)
    have er : ridx_main_v74 (ix2 p j) k = ix2 k j := funext fun a => Fin.ext (by match a with | ⟨0, _⟩ => rfl | ⟨1, _⟩ => rfl)
    have e72 : idx_main_v72 (ix2 p k) = ix2 p 0 := funext fun a => Fin.ext (by match a with | ⟨0, _⟩ => rfl | ⟨1, _⟩ => rfl)
    rw [el, er, val_main_v73_apply, val_main_v72_apply, e72, scattered_at, Ideal.mulf_def]
  rw [val_main_v77_apply, val_main_v74_apply, val_main_v76_apply, val_main_v75_apply, eb, hs, Ideal.addf_def]

/-! ## The log-softmax of the last layer's rows -/

/-- A reduction over the second axis of a rank-2 shape, as the one-axis reduction the supremum lemma asks for. -/
theorem reduces_cols : S50000x64.Reduces [1] S50000 := by
  obtain ⟨h1, h2⟩ := (reducesTo_S50000x64_S50000_d1 : S50000x64.ReducesTo [1] S50000)
  exact ⟨h1, Nat.one_pos, h2⟩

/-- The row's largest entry: the maximum with -∞ of the host's maximum over the row from -∞ is the supremum of the row. -/
theorem row_max (x0 : (⟨S50000x128, .f32⟩ : BufTy).Contents (Elt Ideal)) (x1 : (⟨S800000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 x9 : (⟨S800000, .i32⟩ : BufTy).Contents (Elt Ideal)) (p : Fin 50000) :
    val_main_call4_v2 (F := Ideal) x0 x1 x2 x3 x4 x5 x6 x7 x8 x9 (ix1 p)
      = Finset.univ.sup fun j : Fin 64 => val_main_v77 (F := Ideal) x0 x1 x2 x3 x4 x5 x6 x7 x8 x9 (ix2 p j) := by
  have h := Cert.Lib.HostRowMax.hostReduce_max (u := S_) (val_main_v77 (F := Ideal) x0 x1 x2 x3 x4 x5 x6 x7 x8 x9)
    reducesTo_S50000x64_S50000_d1 reduces_cols h_S_ (ix1 p)
  have hl : ∀ k : Fin 64, reduces_cols.lift (ix1 p) k = ix2 p k := fun k => funext fun a => Fin.ext (by match a with | ⟨0, _⟩ => rfl | ⟨1, _⟩ => rfl)
  have h0 : val_main_call4_v0 (F := Ideal) x0 x1 x2 x3 x4 x5 x6 x7 x8 x9 (ix1 p)
      = Finset.univ.sup fun j : Fin 64 => val_main_v77 (F := Ideal) x0 x1 x2 x3 x4 x5 x6 x7 x8 x9 (ix2 p j) := by
    refine h.trans ?_
    exact congrArg (Finset.univ.sup) (funext fun k => congrArg (val_main_v77 (F := Ideal) x0 x1 x2 x3 x4 x5 x6 x7 x8 x9) (hl k))
  rw [val_main_call4_v2_apply, val_main_call4_v1_apply, val_main_call4_cst_0_apply, h0, Ideal.maximumf_def, Ideal.ofBits_def,
    Cert.Lib.HostRowMax.ofBits_negInf, max_bot_left]

/-- An entry minus its row's largest entry. -/
theorem shifted_at (x0 : (⟨S50000x128, .f32⟩ : BufTy).Contents (Elt Ideal)) (x1 : (⟨S800000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 x9 : (⟨S800000, .i32⟩ : BufTy).Contents (Elt Ideal)) (p : Fin 50000) (j : Fin 64) :
    val_main_call4_v5 (F := Ideal) x0 x1 x2 x3 x4 x5 x6 x7 x8 x9 (ix2 p j)
      = val_main_v77 (F := Ideal) x0 x1 x2 x3 x4 x5 x6 x7 x8 x9 (ix2 p j)
        - Finset.univ.sup fun j : Fin 64 => val_main_v77 (F := Ideal) x0 x1 x2 x3 x4 x5 x6 x7 x8 x9 (ix2 p j) := by
  have e : idx_main_call4_v3 (idx_main_call4_v4 (ix2 p j)) = ix1 p := funext fun a => Fin.ext (by match a with | ⟨0, _⟩ => rfl)
  rw [val_main_call4_v5_apply, val_main_call4_v4_apply, val_main_call4_v3_apply, e, row_max, Ideal.subf_def]

/-- The log-softmax of the rows of the last layer. -/
theorem tail_lsm (x0 : (⟨S50000x128, .f32⟩ : BufTy).Contents (Elt Ideal)) (x1 : (⟨S800000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 x9 : (⟨S800000, .i32⟩ : BufTy).Contents (Elt Ideal)) (p : Fin 50000) (q : Fin 64) :
    val_main_v78 (F := Ideal) x0 x1 x2 x3 x4 x5 x6 x7 x8 x9 (ix2 p q)
      = logSoftmaxRow (fun j => val_main_v77 (F := Ideal) x0 x1 x2 x3 x4 x5 x6 x7 x8 x9 (ix2 p j)) q := by
  have e8 : idx_main_call4_v8 (idx_main_call4_v10 (ix2 p q)) = ix1 p := funext fun a => Fin.ext (by match a with | ⟨0, _⟩ => rfl)
  have hs : (∑ k : Fin 64, val_main_call4_v6 (F := Ideal) x0 x1 x2 x3 x4 x5 x6 x7 x8 x9 (idx_main_call4_v7 (ix1 p) k))
      = ∑ k : Fin 64, Ideal.exp (val_main_v77 (F := Ideal) x0 x1 x2 x3 x4 x5 x6 x7 x8 x9 (ix2 p k)
          - Finset.univ.sup fun j : Fin 64 => val_main_v77 (F := Ideal) x0 x1 x2 x3 x4 x5 x6 x7 x8 x9 (ix2 p j)) := by
    refine Finset.sum_congr rfl fun k _ => ?_
    have e7 : idx_main_call4_v7 (ix1 p) k = ix2 p k := funext fun a => Fin.ext (by match a with | ⟨0, _⟩ => rfl | ⟨1, _⟩ => rfl)
    rw [e7, val_main_call4_v6_apply, shifted_at, Ideal.hostUnary_exp_def]
  have hz : val_main_call4_cst_1 (F := Ideal) (Shape.Idx.first h_S_) = 0 := by
    rw [val_main_call4_cst_1_apply, Ideal.ofBits_def, Ideal.ofBits_zero_f32]
  rw [val_main_v78_apply, shifted_at, val_main_call4_v10_apply, val_main_call4_v9_apply, val_main_call4_v8_apply, e8,
    val_main_call4_v7_apply, hs, hz, zero_add, Ideal.hostUnary_log_def, Ideal.subf_def]
  rfl

end Cert.RefSteps

end
-- ==== Proof.LibRealValued.lean ====
/-
  Real-valued arrays over the extended reals.

  At the ideal float values every float is an extended real and every float operation the exact one.
  On the extended reals multiplication does not distribute over addition at the infinities, so an
  algebraic rearrangement of a program (moving a matrix product across a weighted sum, say) is only
  sound where every entry involved is a REAL number. This file

  * defines RealV v: every entry of the array v is (the coercion of) a real number;
  * shows that RealV is closed under the operations a host program is built from: pointwise products,
    sums and maxima, any re-indexing (broadcasts, gathers), finite sums, an accumulating scatter, a
    dot_general, the constant arrays 0 and 1, and the reciprocal square root of max 1 z for ANY z;
  * proves the distributive law agg_matmul_comm: a weighted, masked sum over edges followed by a
    scaling and a matrix product equals the matrix product taken first, when all entries are real.
-/
import Idealize.ShloMosaic.PureOps.Ideal.Laws
import Idealize.ShloMosaic.Lib.ValueIdx
import Idealize.ShloMosaic.Lib.Pipeline.Value

namespace Cert.LibRealValued

open Idealize.ShloMosaic

/-! ## Scalars: coercions of sums and conditionals, real witnesses -/

/-- The coercion from the reals to the extended reals commutes with a finite sum. -/
theorem coe_sum {κ : Type*} (s : Finset κ) (g : κ → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The coercion commutes with a conditional. -/
theorem coe_ite (p : Prop) [Decidable p] (x y : ℝ) :
    ((if p then x else y : ℝ) : EReal) = if p then (x : EReal) else (y : EReal) := by
  split_ifs <;> rfl

/-- A product of two reals is real. -/
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- A sum of two reals is real. -/
theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

/-- The maximum of two reals is real. -/
theorem real_max {x y : EReal} (hx : ∃ r : ℝ, x = r) (hy : ∃ r : ℝ, y = r) : ∃ r : ℝ, max x y = r := by
  rcases le_total x y with h | h
  · rw [max_eq_right h]; exact hy
  · rw [max_eq_left h]; exact hx

/-- A finite sum of reals is real. -/
theorem real_sum {κ : Type*} (s : Finset κ) (g : κ → EReal) (h : ∀ k ∈ s, ∃ r : ℝ, g k = r) :
    ∃ r : ℝ, ∑ k ∈ s, g k = r := by
  classical
  induction s using Finset.induction_on with
  | empty => exact ⟨0, by simp⟩
  | insert a s ha ih =>
    rw [Finset.sum_insert ha]
    exact real_add (h a (Finset.mem_insert_self a s)) (ih fun k hk => h k (Finset.mem_insert_of_mem hk))

/-- The reciprocal square root of an extended real that is at least one is a real number
    (at the top element it is zero; at a real r ≥ 1 it is the inverse of the square root). -/
theorem rsqrt_of_one_le (y : EReal) (h : 1 ≤ y) : ∃ r : ℝ, Ideal.rsqrt y = (r : EReal) := by
  induction y using EReal.rec with
  | bot => exact absurd (le_bot_iff.mp h) (EReal.coe_ne_bot 1)
  | top => exact ⟨0, by simp⟩
  | coe r =>
    have hr : (1 : ℝ) ≤ r := by exact_mod_cast h
    refine ⟨(Real.sqrt r)⁻¹, ?_⟩
    rw [Ideal.rsqrt_coe, if_neg (not_lt.mpr (by linarith)), if_neg (ne_of_gt (by linarith))]

/-- So the reciprocal square root of max 1 z is real for ANY extended real z. -/
theorem rsqrt_max_one (z : EReal) : ∃ r : ℝ, Ideal.rsqrt (max (1 : EReal) z) = (r : EReal) :=
  rsqrt_of_one_le _ (le_max_left _ _)

/-- The f32 pattern of 1.0 denotes the extended real 1. -/
theorem ofBits_one_f32 : Ideal.ofBits .f32 0x3F800000#32 = 1 :=
  IdealRules.sign_bit.ideal_onePat .f32

/-! ## Real-valued arrays -/

/-- Every entry of the array is a real number. -/
def RealV {ι : Type*} (v : ι → EReal) : Prop := ∀ i, ∃ r : ℝ, v i = (r : EReal)

namespace RealV

variable {ι κ : Type*}

/-- Any re-indexing of a real-valued array is real-valued (this covers broadcasts and gathers). -/
theorem comp {v : ι → EReal} (h : RealV v) (f : κ → ι) : RealV (fun i => v (f i)) := fun i => h (f i)

/-- The pointwise product of two real-valued arrays. -/
theorem mul {u v : ι → EReal} (hu : RealV u) (hv : RealV v) : RealV (fun i => u i * v i) :=
  fun i => real_mul (hu i) (hv i)

/-- The pointwise sum of two real-valued arrays. -/
theorem add {u v : ι → EReal} (hu : RealV u) (hv : RealV v) : RealV (fun i => u i + v i) :=
  fun i => real_add (hu i) (hv i)

/-- The pointwise maximum of two real-valued arrays. -/
theorem max {u v : ι → EReal} (hu : RealV u) (hv : RealV v) : RealV (fun i => Max.max (u i) (v i)) :=
  fun i => real_max (hu i) (hv i)

/-- A finite sum of real-valued arrays, over a finite set of summands. -/
theorem sum_finset (s : Finset κ) {f : κ → ι → EReal} (h : ∀ k ∈ s, RealV (f k)) :
    RealV (fun i => ∑ k ∈ s, f k i) :=
  fun i => real_sum s _ fun k hk => h k hk i

/-- A finite sum of real-valued arrays, over a whole finite type. -/
theorem sum [Fintype κ] {f : κ → ι → EReal} (h : ∀ k, RealV (f k)) : RealV (fun i => ∑ k, f k i) :=
  sum_finset _ fun k _ => h k

/-- The sum over the summands that satisfy a (possibly index-dependent) condition. -/
theorem sum_filter [Fintype κ] {f : κ → ι → EReal} (p : ι → κ → Prop) [∀ i, DecidablePred (p i)]
    (h : ∀ k, RealV (f k)) : RealV (fun i => ∑ k ∈ Finset.univ.filter (p i), f k i) :=
  fun i => real_sum _ _ fun k _ => h k i

/-- The same with the condition as a conditional summand. -/
theorem sum_ite [Fintype κ] {f : κ → ι → EReal} (p : ι → κ → Prop) [∀ i, DecidablePred (p i)]
    (h : ∀ k, RealV (f k)) : RealV (fun i => ∑ k, if p i k then f k i else 0) :=
  fun i => real_sum _ _ fun k _ => by
    split_ifs
    · exact h k i
    · exact ⟨0, rfl⟩

/-! ### The same facts in the spelling of the vector operations at the ideal values -/

variable {s t : Shape} {φ : FTy}

/-- A float mulf of two real-valued vectors. -/
theorem mulf {u v : FVec Ideal s φ} (hu : RealV u) (hv : RealV v) : RealV (Idealize.ShloMosaic.mulf u v) :=
  RealV.mul hu hv

/-- A float addf of two real-valued vectors. -/
theorem addf {u v : FVec Ideal s φ} (hu : RealV u) (hv : RealV v) : RealV (Idealize.ShloMosaic.addf u v) :=
  RealV.add hu hv

/-- A float maximumf of two real-valued vectors. -/
theorem maximumf {u v : FVec Ideal s φ} (hu : RealV u) (hv : RealV v) :
    RealV (Idealize.ShloMosaic.maximumf u v) :=
  RealV.max hu hv

/-- A broadcast_in_dim of a real-valued array: a re-indexing. -/
theorem broadcastInDim {dims : Fin s.rank → Fin t.rank} (h : s.BroadcastsInDim t dims) {v : s.Idx → EReal}
    (hv : RealV v) : RealV (Idealize.ShloMosaic.broadcastInDim t dims h v) :=
  fun _ => hv _

/-- A host gather out of a real-valued array: a re-indexing, whatever the start indices are. -/
theorem gather {si : Shape} {w : Nat} (d : GatherDims s si t) {x : s.Idx → EReal} (idx : IVec si w)
    (hx : RealV x) : RealV (Host.gather d x idx) :=
  fun _ => hx _

/-- The constant array of the f32 zero pattern. -/
theorem constant_zero : RealV (constant (F := Ideal) s .f32 0x00000000#32) :=
  fun _ => ⟨0, Ideal.ofBits_zero_f32⟩

/-- The constant array of the f32 pattern of 1.0. -/
theorem constant_one : RealV (constant (F := Ideal) s .f32 0x3F800000#32) :=
  fun _ => ⟨1, ofBits_one_f32⟩

/-- The host's accumulating scatter of real-valued updates into a real-valued operand: each element
    is the operand's plus a finite sum of updates. -/
theorem scatterAdd {si u : Shape} {w : Nat} (d : ScatterDims s si u) {x : FVec Ideal s φ} (idx : IVec si w)
    {upd : FVec Ideal u φ} (hx : RealV x) (hu : RealV upd) : RealV (Host.scatterAdd d x idx upd) :=
  fun i => real_add (hx i) (real_sum _ _ fun j _ => hu j)

/-- The host's dot_general of two real-valued arrays: each element is a finite sum of products. -/
theorem dotGeneral {sl sr so : Shape} {φ₁ φ₂ : FTy} (d : DotDims sl sr so) (prec : Option ContractPrecision)
    {x : FVec Ideal sl φ₁} {y : FVec Ideal sr φ₂} (hx : RealV x) (hy : RealV y) :
    RealV (Host.dotGeneral d prec x y) := fun j => by
  rw [show Host.dotGeneral d prec x y j = _ from Ideal.dotGeneral_apply d prec .single x y j]
  exact real_sum _ _ fun k _ => real_mul (hx _) (hy _)

/-- The host's reciprocal square root of the maximum of an all-ones array and ANY array z
    (z need not be real-valued): real-valued, since the argument is at least one. -/
theorem rsqrt_max_one {c z : FVec Ideal s φ} (hc : ∀ i, c i = 1) :
    RealV (Host.rsqrt (Idealize.ShloMosaic.maximumf c z)) := fun i => by
  show ∃ r : ℝ, Ideal.rsqrt (Max.max (c i) (z i)) = r
  rw [hc i]; exact Cert.LibRealValued.rsqrt_max_one (z i)

/-- The same with the all-ones array spelled as the constant of the f32 pattern of 1.0. -/
theorem rsqrt_max_constant_one {z : FVec Ideal s .f32} :
    RealV (Host.rsqrt (Idealize.ShloMosaic.maximumf (constant s .f32 0x3F800000#32) z)) :=
  rsqrt_max_one fun _ => ofBits_one_f32

end RealV

/-! ## The distributive law -/

section Distrib

variable {E K : Type*} [Fintype E] [Fintype K] {P : E → Prop} [DecidablePred P]

/-- The real-valued core: summing the masked, weighted rows a e over the edges e, scaling by d and then
    contracting with a column Wm is the same as contracting each row first. -/
theorem agg_matmul_comm_real (a : E → K → ℝ) (wv : E → ℝ) (d : ℝ) (Wm : K → ℝ) :
    ∑ k, ((0 + ∑ e, if P e then a e k * wv e else 0) * d) * Wm k
      = (0 + ∑ e, if P e then (∑ k, a e k * Wm k) * wv e else 0) * d := by
  simp only [zero_add, Finset.sum_mul]
  rw [Finset.sum_comm]
  refine Finset.sum_congr rfl fun e _ => ?_
  split_ifs
  · rw [Finset.sum_mul]
    exact Finset.sum_congr rfl fun k _ => by ring
  · simp

/-- The distributive law over the extended reals, for real entries: a masked, weighted sum over the
    edges, scaled by d, then contracted with Wm, equals the sum of the contracted rows. (It fails at
    the infinities, hence the four hypotheses.) -/
theorem agg_matmul_comm (a : E → K → EReal) (wv : E → EReal) (d : EReal) (Wm : K → EReal)
    (ha : ∀ e k, ∃ r : ℝ, a e k = r) (hw : ∀ e, ∃ r : ℝ, wv e = r) (hd : ∃ r : ℝ, d = r)
    (hW : ∀ k, ∃ r : ℝ, Wm k = r) :
    ∑ k, ((0 + ∑ e, if P e then a e k * wv e else 0) * d) * Wm k
      = (0 + ∑ e, if P e then (∑ k, a e k * Wm k) * wv e else 0) * d := by
  choose a' ha' using ha
  choose w' hw' using hw
  obtain ⟨d', rfl⟩ := hd
  choose W' hW' using hW
  have key := congrArg (fun x : ℝ => (x : EReal)) (agg_matmul_comm_real (P := P) a' w' d' W')
  simp only [coe_sum, EReal.coe_mul, EReal.coe_add, EReal.coe_zero, coe_ite] at key
  simp only [ha', hw', hW']
  exact key

/-- The same with the mask as a filter of the set of edges. -/
theorem agg_matmul_comm_filter (a : E → K → EReal) (wv : E → EReal) (d : EReal) (Wm : K → EReal)
    (ha : ∀ e k, ∃ r : ℝ, a e k = r) (hw : ∀ e, ∃ r : ℝ, wv e = r) (hd : ∃ r : ℝ, d = r)
    (hW : ∀ k, ∃ r : ℝ, Wm k = r) :
    ∑ k, ((0 + ∑ e ∈ Finset.univ.filter P, a e k * wv e) * d) * Wm k
      = (0 + ∑ e ∈ Finset.univ.filter P, (∑ k, a e k * Wm k) * wv e) * d := by
  simp only [Finset.sum_filter]
  exact agg_matmul_comm a wv d Wm ha hw hd hW

end Distrib

end Cert.LibRealValued
-- ==== Proof.RefFinite.lean ====
/-
  The reference program's intermediate arrays are real-valued.

  At the ideal float values the reference's arrays are arrays of extended reals. When the argument
  arrays (node features, edge weights, the weights and biases of the layers) hold real numbers, so does
  every intermediate array of the first two layers: each is built from the arguments by pointwise
  products, sums and maxima, broadcasts, gathers, accumulating scatters and matrix products, all of
  which keep an array real-valued, and from the two degree normalisations, which are the reciprocal
  square root of max 1 (a degree count) and therefore real whatever the count is.

  The theorems below follow the generated definitions one operation at a time.
-/
import proofs.«169994_j32255204393049_2_alg».proof.Proof.LibRealValued
import proofs.«169994_j32255204393049_2_alg».proof.Proof.RefReadP

namespace Cert.RefFinite

open Cert.ReferenceIdeal Cert.ReferenceIdeal.Gen Cert.ReferenceIdeal.Read Cert.LibRealValued
open Idealize.ShloMosaic Idealize.ShloMosaic.TcCoe Idealize.SL.Sem Idealize.ShloMosaic.StableHlo

section

variable (x0 : (⟨S50000x128, .f32⟩ : BufTy).Contents (Elt Ideal))
  (x1 : (⟨S800000, .f32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S128, .f32⟩ : BufTy).Contents (Elt Ideal))
  (x8 x9 : (⟨S800000, .i32⟩ : BufTy).Contents (Elt Ideal))

/-! ## The two degree normalisations: no hypothesis needed -/

/-- The reciprocal square root of max 1 (out-degree): real at every node, whatever the degree. -/
theorem v8_real : RealV (val_main_v8 (F := Ideal) x8) := by
  unfold val_main_v8 val_main_v7
  exact RealV.rsqrt_max_one fun _ => ofBits_one_f32

/-- The source normalisation as a column. -/
theorem ns_real : RealV (val_main_v9 (F := Ideal) x8) := by
  unfold val_main_v9
  exact RealV.broadcastInDim _ (v8_real x8)

/-- The reciprocal square root of max 1 (in-degree). -/
theorem v11_real : RealV (val_main_v11 (F := Ideal) x9) := by
  unfold val_main_v11 val_main_v10
  exact RealV.rsqrt_max_one fun _ => ofBits_one_f32

/-- The destination normalisation as a column. -/
theorem nd_real : RealV (val_main_v12 (F := Ideal) x9) := by
  unfold val_main_v12
  exact RealV.broadcastInDim _ (v11_real x9)

/-! ## Layer 0 -/

theorem v13_real : RealV (val_main_v13 (F := Ideal) x8) := by
  unfold val_main_v13
  exact RealV.broadcastInDim _ (ns_real x8)

/-- The features scaled by the source normalisation. -/
theorem v14_real (h0 : RealV x0) : RealV (val_main_v14 (F := Ideal) x0 x8) := by
  unfold val_main_v14
  exact RealV.mulf h0 (v13_real x8)

/-- The scaled features gathered along the edges. -/
theorem v21_real (h0 : RealV x0) : RealV (val_main_v21 (F := Ideal) x0 x8) := by
  unfold val_main_v21
  exact RealV.gather _ _ (v14_real x0 x8 h0)

theorem v22_real (h1 : RealV x1) : RealV (val_main_v22 (F := Ideal) x1) := by
  unfold val_main_v22
  exact RealV.broadcastInDim _ h1

/-- The edge weights broadcast along the feature axis. -/
theorem v23_real (h1 : RealV x1) : RealV (val_main_v23 (F := Ideal) x1) := by
  unfold val_main_v23
  exact RealV.broadcastInDim _ (v22_real x1 h1)

/-- The weighted messages. -/
theorem v24_real (h0 : RealV x0) (h1 : RealV x1) : RealV (val_main_v24 (F := Ideal) x0 x1 x8) := by
  unfold val_main_v24
  exact RealV.mulf (v21_real x0 x8 h0) (v23_real x1 h1)

theorem v25_real : RealV (val_main_v25 (F := Ideal)) := by
  unfold val_main_v25 val_main_cst_5
  exact RealV.broadcastInDim _ RealV.constant_zero

/-- The messages summed into their destination nodes. -/
theorem v27_real (h0 : RealV x0) (h1 : RealV x1) : RealV (val_main_v27 (F := Ideal) x0 x1 x8 x9) := by
  unfold val_main_v27
  exact RealV.scatterAdd _ _ v25_real (v24_real x0 x1 x8 h0 h1)

theorem v28_real : RealV (val_main_v28 (F := Ideal) x9) := by
  unfold val_main_v28
  exact RealV.broadcastInDim _ (nd_real x9)

/-- The aggregate scaled by the destination normalisation. -/
theorem v29_real (h0 : RealV x0) (h1 : RealV x1) : RealV (val_main_v29 (F := Ideal) x0 x1 x8 x9) := by
  unfold val_main_v29
  exact RealV.mulf (v27_real x0 x1 x8 x9 h0 h1) (v28_real x9)

/-- Times the layer's weight matrix. -/
theorem v30_real (h0 : RealV x0) (h1 : RealV x1) (h2 : RealV x2) :
    RealV (val_main_v30 (F := Ideal) x0 x1 x2 x8 x9) := by
  unfold val_main_v30
  exact RealV.dotGeneral _ _ (v29_real x0 x1 x8 x9 h0 h1) h2

theorem v31_real (h3 : RealV x3) : RealV (val_main_v31 (F := Ideal) x3) := by
  unfold val_main_v31
  exact RealV.broadcastInDim _ h3

/-- The bias broadcast over the nodes. -/
theorem v32_real (h3 : RealV x3) : RealV (val_main_v32 (F := Ideal) x3) := by
  unfold val_main_v32
  exact RealV.broadcastInDim _ (v31_real x3 h3)

theorem v33_real (h0 : RealV x0) (h1 : RealV x1) (h2 : RealV x2) (h3 : RealV x3) :
    RealV (val_main_v33 (F := Ideal) x0 x1 x2 x3 x8 x9) := by
  unfold val_main_v33
  exact RealV.addf (v30_real x0 x1 x2 x8 x9 h0 h1 h2) (v32_real x3 h3)

theorem call2_v0_real : RealV (val_main_call2_v0 (F := Ideal)) := by
  unfold val_main_call2_v0 val_main_call2_cst
  exact RealV.broadcastInDim _ RealV.constant_zero

/-- Layer 0's output after the rectifier. -/
theorem v34_real (h0 : RealV x0) (h1 : RealV x1) (h2 : RealV x2) (h3 : RealV x3) :
    RealV (val_main_v34 (F := Ideal) x0 x1 x2 x3 x8 x9) := by
  unfold val_main_v34
  exact RealV.maximumf (v33_real x0 x1 x2 x3 x8 x9 h0 h1 h2 h3) call2_v0_real

theorem v35_real : RealV (val_main_v35 (F := Ideal) x8) := by
  unfold val_main_v35
  exact RealV.broadcastInDim _ (ns_real x8)

/-- Layer 0's output scaled by the source normalisation: what layer 1 gathers. -/
theorem h0s_real (h0 : RealV x0) (h1 : RealV x1) (h2 : RealV x2) (h3 : RealV x3) :
    RealV (val_main_v36 (F := Ideal) x0 x1 x2 x3 x8 x9) := by
  unfold val_main_v36
  exact RealV.mulf (v34_real x0 x1 x2 x3 x8 x9 h0 h1 h2 h3) (v35_real x8)

/-! ## Layer 1 -/

theorem v43_real (h0 : RealV x0) (h1 : RealV x1) (h2 : RealV x2) (h3 : RealV x3) :
    RealV (val_main_v43 (F := Ideal) x0 x1 x2 x3 x8 x9) := by
  unfold val_main_v43
  exact RealV.gather _ _ (h0s_real x0 x1 x2 x3 x8 x9 h0 h1 h2 h3)

theorem v44_real (h1 : RealV x1) : RealV (val_main_v44 (F := Ideal) x1) := by
  unfold val_main_v44
  exact RealV.broadcastInDim _ h1

theorem v45_real (h1 : RealV x1) : RealV (val_main_v45 (F := Ideal) x1) := by
  unfold val_main_v45
  exact RealV.broadcastInDim _ (v44_real x1 h1)

theorem v46_real (h0 : RealV x0) (h1 : RealV x1) (h2 : RealV x2) (h3 : RealV x3) :
    RealV (val_main_v46 (F := Ideal) x0 x1 x2 x3 x8 x9) := by
  unfold val_main_v46
  exact RealV.mulf (v43_real x0 x1 x2 x3 x8 x9 h0 h1 h2 h3) (v45_real x1 h1)

theorem v47_real : RealV (val_main_v47 (F := Ideal)) := by
  unfold val_main_v47 val_main_cst_8
  exact RealV.broadcastInDim _ RealV.constant_zero

theorem v49_real (h0 : RealV x0) (h1 : RealV x1) (h2 : RealV x2) (h3 : RealV x3) :
    RealV (val_main_v49 (F := Ideal) x0 x1 x2 x3 x8 x9) := by
  unfold val_main_v49
  exact RealV.scatterAdd _ _ v47_real (v46_real x0 x1 x2 x3 x8 x9 h0 h1 h2 h3)

theorem v50_real : RealV (val_main_v50 (F := Ideal) x9) := by
  unfold val_main_v50
  exact RealV.broadcastInDim _ (nd_real x9)

theorem v51_real (h0 : RealV x0) (h1 : RealV x1) (h2 : RealV x2) (h3 : RealV x3) :
    RealV (val_main_v51 (F := Ideal) x0 x1 x2 x3 x8 x9) := by
  unfold val_main_v51
  exact RealV.mulf (v49_real x0 x1 x2 x3 x8 x9 h0 h1 h2 h3) (v50_real x9)

theorem v52_real (h0 : RealV x0) (h1 : RealV x1) (h2 : RealV x2) (h3 : RealV x3) (h4 : RealV x4) :
    RealV (val_main_v52 (F := Ideal) x0 x1 x2 x3 x4 x8 x9) := by
  unfold val_main_v52
  exact RealV.dotGeneral _ _ (v51_real x0 x1 x2 x3 x8 x9 h0 h1 h2 h3) h4

theorem v53_real (h5 : RealV x5) : RealV (val_main_v53 (F := Ideal) x5) := by
  unfold val_main_v53
  exact RealV.broadcastInDim _ h5

theorem v54_real (h5 : RealV x5) : RealV (val_main_v54 (F := Ideal) x5) := by
  unfold val_main_v54
  exact RealV.broadcastInDim _ (v53_real x5 h5)

theorem v55_real (h0 : RealV x0) (h1 : RealV x1) (h2 : RealV x2) (h3 : RealV x3) (h4 : RealV x4)
    (h5 : RealV x5) : RealV (val_main_v55 (F := Ideal) x0 x1 x2 x3 x4 x5 x8 x9) := by
  unfold val_main_v55
  exact RealV.addf (v52_real x0 x1 x2 x3 x4 x8 x9 h0 h1 h2 h3 h4) (v54_real x5 h5)

theorem call3_v0_real : RealV (val_main_call3_v0 (F := Ideal)) := by
  unfold val_main_call3_v0 val_main_call3_cst
  exact RealV.broadcastInDim _ RealV.constant_zero

/-- Layer 1's output after the rectifier. -/
theorem v56_real (h0 : RealV x0) (h1 : RealV x1) (h2 : RealV x2) (h3 : RealV x3) (h4 : RealV x4)
    (h5 : RealV x5) : RealV (val_main_v56 (F := Ideal) x0 x1 x2 x3 x4 x5 x8 x9) := by
  unfold val_main_v56
  exact RealV.maximumf (v55_real x0 x1 x2 x3 x4 x5 x8 x9 h0 h1 h2 h3 h4 h5) call3_v0_real

theorem v57_real : RealV (val_main_v57 (F := Ideal) x8) := by
  unfold val_main_v57
  exact RealV.broadcastInDim _ (ns_real x8)

/-- Layer 1's output scaled by the source normalisation: the array layer 2 gathers. -/
theorem h1s_real (h0 : RealV x0) (h1 : RealV x1) (h2 : RealV x2) (h3 : RealV x3) (h4 : RealV x4)
    (h5 : RealV x5) : RealV (val_main_v58 (F := Ideal) x0 x1 x2 x3 x4 x5 x8 x9) := by
  unfold val_main_v58
  exact RealV.mulf (v56_real x0 x1 x2 x3 x4 x5 x8 x9 h0 h1 h2 h3 h4 h5) (v57_real x8)

end

end Cert.RefFinite
-- ==== Proof.Bridge.lean ====
/-
  The two programs compute the same function of the arguments.

  Write ns, nd for the two scale columns, agg for "gather the rows at the source words, weight by the edge weights,
  scatter-add into the destination rows", and step for the dense step. Both programs compute
      h0 = step(agg(x·ns), nd, ns, W0, b0),   h1 = step(agg(h0), nd, ns, W1, b1)
  by the same host operations and (in the kernel, through its first two calls) the same step. Then the reference takes
  the row  (agg(h1)·nd) W2 + b2  and the kernel the row  agg(h1 W2)·nd + b2,  and both return the row's log-softmax. The two
  rows agree entry by entry: every entry of h1, of the edge weights, of nd and of W2 is a real number (the inputs are
  finite; sums, products and maxima of reals are real; the inverse square root of something at least one is real), and
  over the reals the weight matrix moves inside the sum over edges.
-/
import proofs.«169994_j32255204393049_2_alg».proof.Proof.StageBridge
import proofs.«169994_j32255204393049_2_alg».proof.Proof.RefSteps
import proofs.«169994_j32255204393049_2_alg».proof.Proof.RefFinite
import proofs.«169994_j32255204393049_2_alg».proof.Proof.KernelStages

noncomputable section

open scoped BigOperators

namespace Cert.Bridge

open Cert.KernelIdeal Cert.KernelIdeal.Gen Cert.KernelHost Cert.KernelStages Cert.Spec Cert.LibRealValued Cert.LibGatherScatterRows
open Idealize.ShloMosaic Idealize.ShloMosaic.ValueIdx Idealize.SL.Sem

variable (x0 : FVec Ideal S50000x128 .f32) (x1 : FVec Ideal S800000 .f32) (x2 : FVec Ideal S128x128 .f32) (x3 : FVec Ideal S128 .f32)
  (x4 : FVec Ideal S128x128 .f32) (x5 : FVec Ideal S128 .f32) (x6 : FVec Ideal S128x64 .f32) (x7 : FVec Ideal S64 .f32)
  (x8 x9 : IVec S800000 32)

/-- The kernel's first dense step's output, as a function of the arguments. -/
def hidden0 : S50000x128.Idx → EReal :=
  denseStep (n := 50000) (C := 128) (aggregate128 (F := Ideal) (scaledInput (F := Ideal) x0 x8) x1 x8 x9)
    (scaleCol (F := Ideal) x9) (scaleCol (F := Ideal) x8) x2 (shapeCast S1x128 x3 shapeCasts_S128_S1x128)

/-- The kernel's second dense step's output. -/
def hidden1 : S50000x128.Idx → EReal :=
  denseStep (n := 50000) (C := 128) (aggregate128 (F := Ideal) (hidden0 x0 x1 x2 x3 x8 x9) x1 x8 x9)
    (scaleCol (F := Ideal) x9) (scaleCol (F := Ideal) x8) x4 (shapeCast S1x128 x5 shapeCasts_S128_S1x128)

/-- The kernel's result. -/
def kernelResult : S50000x64.Idx → EReal :=
  finalStep (n := 50000) (C := 64)
    (aggregate64 (F := Ideal) (project (n := 50000) (C := 64) (hidden1 x0 x1 x2 x3 x4 x5 x8 x9) x6) x1 x8 x9)
    (scaleCol (F := Ideal) x9) (shapeCast S1x64 x7 shapeCasts_S64_S1x64)

/-- The first layer: the kernel's output is the reference's. -/
theorem hidden0_eq : hidden0 x0 x1 x2 x3 x8 x9 = Cert.ReferenceIdeal.Read.val_main_v36 (F := Ideal) x0 x1 x2 x3 x8 x9 := by
  unfold hidden0
  rw [Cert.StageBridge.agg0, Cert.StageBridge.scaleCol_dst, Cert.StageBridge.scaleCol_src, Cert.KernelHost.biasRow0]
  exact (Cert.RefSteps.dense0 x0 x1 x2 x3 x8 x9).symm

/-- The second layer likewise. -/
theorem hidden1_eq : hidden1 x0 x1 x2 x3 x4 x5 x8 x9 = Cert.ReferenceIdeal.Read.val_main_v58 (F := Ideal) x0 x1 x2 x3 x4 x5 x8 x9 := by
  unfold hidden1
  rw [hidden0_eq, Cert.StageBridge.agg1, Cert.StageBridge.scaleCol_dst, Cert.StageBridge.scaleCol_src, Cert.KernelHost.biasRow1]
  exact (Cert.RefSteps.dense1 x0 x1 x2 x3 x4 x5 x8 x9).symm

variable (h0 : RealV x0) (h1 : RealV x1) (h2 : RealV x2) (h3 : RealV x3) (h4 : RealV x4) (h5 : RealV x5) (h6 : RealV x6)

include h0 h1 h2 h3 h4 h5 h6 in
/-- The last layer's rows agree: over real entries the weight matrix moves inside the sum over edges. -/
theorem row_eq (p : Fin 50000) (j : Fin 64) :
    Cert.ReferenceIdeal.Read.val_main_v77 (F := Ideal) x0 x1 x2 x3 x4 x5 x6 x7 x8 x9 (ix2 p j)
      = finalRow (aggK64 (project (n := 50000) (C := 64) (Cert.ReferenceIdeal.Read.val_main_v58 (F := Ideal) x0 x1 x2 x3 x4 x5 x8 x9) x6) x1 x8 x9)
          (Cert.ReferenceIdeal.Read.val_main_v12 (F := Ideal) x9) (shapeCast S1x64 x7 shapeCasts_S64_S1x64) p j := by
  rw [Cert.RefSteps.tail_row]
  unfold finalRow
  rw [Cert.KernelHost.aggK64_at, Cert.KernelHost.biasRow2, Cert.KernelHost.wrapK_eq]
  simp only [project_apply]
  refine congrArg (· + x7 (ix1 j)) ?_
  have hz : zeroWord = 0 := Ideal.ofBits_zero_f32
  rw [hz]
  have hH := Cert.RefFinite.h1s_real x0 x1 x2 x3 x4 x5 x8 x9 h0 h1 h2 h3 h4 h5
  exact agg_matmul_comm (P := fun e : Fin 800000 => landRow 50000 (x9 (ix1 e)) = some p)
    (fun e k => Cert.ReferenceIdeal.Read.val_main_v58 (F := Ideal) x0 x1 x2 x3 x4 x5 x8 x9 (ix2 (clampRow 50000 (Cert.ReferenceIdeal.Read.val_main_v63 (F := Ideal) x8 (ix1 e))) k))
    (fun e => x1 (ix1 e)) (Cert.ReferenceIdeal.Read.val_main_v12 (F := Ideal) x9 (ix2 p 0)) (fun k => x6 (ix2 k j))
    (fun e k => hH _) (fun e => h1 _) (Cert.RefFinite.nd_real x9 _) (fun k => h6 _)

include h0 h1 h2 h3 h4 h5 h6 in
/-- THE BRIDGE: the kernel's result is the reference's. -/
theorem result_eq : kernelResult x0 x1 x2 x3 x4 x5 x6 x7 x8 x9
    = Cert.ReferenceIdeal.Read.val_main_v78 (F := Ideal) x0 x1 x2 x3 x4 x5 x6 x7 x8 x9 := by
  unfold kernelResult
  rw [hidden1_eq, aggregate64_eq, Cert.StageBridge.scaleCol_dst]
  funext i
  obtain ⟨p, q, rfl⟩ : ∃ (p : Fin 50000) (q : Fin 64), i = ix2 p q := ⟨i 0, i 1, eq_ix2 i⟩
  rw [finalStep_apply, Cert.RefSteps.tail_lsm]
  refine congrArg (fun f => logSoftmaxRow f q) (funext fun j => ?_)
  exact (row_eq x0 x1 x2 x3 x4 x5 x6 x7 x8 x9 h0 h1 h2 h3 h4 h5 h6 p j).symm

end Cert.Bridge

end
-- ==== Proof.PreFinite.lean ====
/-
  The precondition "every float input is finite", read back at the extended reals.

  The printed predicate computes, for each float argument `a`, `all (|a| < +∞)`: the absolute value, a broadcast of
  the constant word of `+∞`, the strict comparison, and a reduction by `and` over every axis starting from `true`; the
  eight one-bit results are then joined by `and`. At the extended reals `|x| = max x (-x)` and the constant word
  denotes `⊤`, so `|x| < ⊤` holds exactly when `x` is neither `⊤` nor `⊥`, that is, when `x` is (the image of) a real.
  A reduction by `and` that comes out `1` met a `1` at every index, so each entry of each argument is a real number.
-/
import proofs.«169994_j32255204393049_2_alg».proof.Pre_finite_inputs
import proofs.«169994_j32255204393049_2_alg».proof.Proof.Gen.Pre_finite_inputs
import Idealize.ShloMosaic.Lib.ReduceAll
import Idealize.ShloMosaic.Lib.ValueIdx
import Idealize.ShloMosaic.PureOps.Ideal.Laws

noncomputable section

namespace Cert.PreFinite

open Idealize.ShloMosaic
open Cert.Pre_finite_inputs

/-- The rank-0 shape has exactly one index. -/
instance subsingleton_S_Idx : Subsingleton S_.Idx := ⟨fun a b => funext fun d => d.elim0⟩

/-- The f32 word `0x7F800000` denotes `⊤`. -/
theorem ofBits_inf : Ideal.ofBits .f32 0x7F800000#32 = (⊤ : EReal) := by
  simp [Ideal.ofBits, Ideal.ieee]

/-- One element: `|x| < +∞` at the extended reals says `x` is a real. The cases `x = ⊥` (where `|x| = ⊤`) and
    `x = ⊤` contradict the strict inequality; a real is its own witness. -/
theorem real_of_abs_lt_inf (x : Ideal .f32)
    (h : FloatOps.cmpf (F := Ideal) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [ofBits_inf] at h
  induction x using EReal.rec with
  | bot => simp [Ideal.cmp] at h
  | coe r => exact ⟨r, rfl⟩
  | top => simp [Ideal.cmp] at h

/-- One argument, any shape: if the reduction by `and`, over all axes, of `|a| < +∞` is `1`, every entry of `a`
    is a real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := fun i =>
  real_of_abs_lt_inf (a i) (Host.reduce_andi_all _ _ hr hu _ e i)

variable [Cert.Pre_finite_inputs.Facts]

/-- The precondition at the extended reals: every entry of each of the eight float arguments is a real. -/
theorem inputs_real (a0 : FVec Ideal S50000x128 .f32) (a1 : FVec Ideal S800000 .f32) (a2 : FVec Ideal S128x128 .f32)
    (a3 : FVec Ideal S128 .f32) (a4 : FVec Ideal S128x128 .f32) (a5 : FVec Ideal S128 .f32)
    (a6 : FVec Ideal S128x64 .f32) (a7 : FVec Ideal S64 .f32) (a8 a9 : IVec S800000 32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have h0 := congrFun h ValueIdx.ix0
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7⟩

end Cert.PreFinite

end
-- ==== Proof.lean ====
/-
  A three-layer graph convolution with symmetric degree normalisation, as a Pallas kernel and as its jnp reference, are the
  same function of the inputs over the extended reals.

  Both programs compute the two scale columns ns, nd (the inverse square roots of the out- and in-degrees clipped below
  at one) and, with agg(z) = "gather the rows of z at the source words, weight by the edge weights, scatter-add into the
  destination rows", the two hidden layers  h0 = relu((agg(x·ns)·nd) W0 + b0)·ns,  h1 = relu((agg(h0)·nd) W1 + b1)·ns  —
  the reference on the host, the kernel with the dense step of each layer in a pallas_call over blocks of 2000 rows. For
  the last layer the reference returns the row-wise log-softmax of (agg(h1)·nd) W2 + b2, the kernel that of
  agg(h1 W2)·nd + b2 (the projection h1 W2 and the log-softmax each in a pallas_call over blocks of 5000 rows). The two
  rows are equal because every entry involved is a real number when the inputs are finite, and over the reals the
  weight matrix moves inside the sum over edges; on extended reals that step can fail, which is where the precondition
  is used.

  The three frame claims: each program's run terminates without a fault with its arguments unchanged (the two kernels'
  by the generated frame modules, the reference's by its run read back piece by piece). The claim that the idealized kernel
  is the kernel's sanctioned idealization has one conjunct per entry of the ideal pass's ledger; the ledger recorded in
  the statement is empty, so that claim is the true proposition.
-/
import proofs.«169994_j32255204393049_2_alg».proof.Defs
import proofs.«169994_j32255204393049_2_alg».proof.Proof.Gen.Kernel
import proofs.«169994_j32255204393049_2_alg».proof.Proof.Gen.Kernel.Skeleton
import proofs.«169994_j32255204393049_2_alg».proof.Proof.Gen.Kernel.Launch
import proofs.«169994_j32255204393049_2_alg».proof.Proof.Gen.Kernel.Points
import proofs.«169994_j32255204393049_2_alg».proof.Proof.Gen.Kernel.Frame
import proofs.«169994_j32255204393049_2_alg».proof.Proof.Gen.KernelIdeal
import proofs.«169994_j32255204393049_2_alg».proof.Proof.Gen.KernelIdeal.Skeleton
import proofs.«169994_j32255204393049_2_alg».proof.Proof.Gen.KernelIdeal.Launch
import proofs.«169994_j32255204393049_2_alg».proof.Proof.Gen.KernelIdeal.Points
import proofs.«169994_j32255204393049_2_alg».proof.Proof.Gen.KernelIdeal.Frame
import proofs.«169994_j32255204393049_2_alg».proof.Proof.Gen.ReferenceIdeal
import proofs.«169994_j32255204393049_2_alg».proof.Proof.Gen.Pre_finite_inputs
import proofs.«169994_j32255204393049_2_alg».proof.Proof.KernelRun
import proofs.«169994_j32255204393049_2_alg».proof.Proof.KernelFold
import proofs.«169994_j32255204393049_2_alg».proof.Proof.RefRun
import proofs.«169994_j32255204393049_2_alg».proof.Proof.Bridge
import proofs.«169994_j32255204393049_2_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs, its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel runs, its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs, its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunValue.run (F := Ideal) m ρ)

/-- The ledger in the statement is empty: the claim, as stated, is the true proposition. -/
theorem preserves : Cert.preserves_Kernel_KernelIdeal := trivial

/-- From memories agreeing on the arguments both idealized programs end with the same result: the kernel's result buffer
    holds its composed function of the arguments, the reference's its last staged value, and the two are one function when
    the inputs are finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W11 m ρ c (Proc.devRef .tc Cert.KernelIdeal.main_v60),
    Cert.KernelIdeal.RunValue.run_result m ρ, ?_⟩
  refine (θ_run Cert.ReferenceIdeal.defs _ _).mono (fun _ h c => ⟨(h c).1.trans ?_, (h c).2⟩)
    (Cert.ReferenceIdeal.RunValue.run (F := Ideal) m' ρ')
  obtain ⟨e0, e1, e2, e3, e4, e5, e6, e7, e8, e9⟩ := hagree c
  rw [e0, e1, e2, e3, e4, e5, e6, e7, e8, e9]
  obtain ⟨r0, r1, r2, r3, r4, r5, r6, r7⟩ := Cert.PreFinite.inputs_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (hpre c)
  show _ = Cert.KernelIdeal.Gen.W11 m ρ c (Proc.devRef .tc Cert.KernelIdeal.main_v60)
  rw [Cert.KernelIdeal.Fold.result m ρ c]
  exact (Cert.Bridge.result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) r0 r1 r2 r3 r4 r5 r6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
